-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x32x100000 : Shape := ⟨3, ![32, 32, 100000]⟩
abbrev S32x32 : Shape := ⟨2, ![32, 32]⟩
abbrev S_ : Shape := ⟨0, ![]⟩

class Facts : Prop where
  bcast_S_S32x32x100000 : S_.BroadcastsInDim S32x32x100000 (![] : Fin 0 → Fin S32x32x100000.rank)
  reducesTo_S32x32x100000_S_d0_1_2 : S32x32x100000.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg2 : IVec S32x32 32) (main_v15 : IVec S_ 1) (main_c_5 : IVec S_ 32) : IVec S_ 1 :=
  let main_v16 : IVec S32x32 32 := broadcastInDim S32x32 ![] bcast_S_S32x32 main_c_5
  let main_v17 : IVec S32x32 1 := cmpi .sge main_arg2 main_v16
  let main_c_6 : IVec S_ 32 := constantI S_ 32 31#32
  let main_v18 : IVec S32x32 32 := broadcastInDim S32x32 ![] bcast_S_S32x32 main_c_6
  let main_v19 : IVec S32x32 1 := cmpi .sle main_arg2 main_v18
  let main_v20 : IVec S32x32 1 := andi main_v17 main_v19
  let main_c_7 : IVec S_ 1 := constantI S_ 1 1#1
  let main_v21 : IVec S_ 1 := (fun x v => Host.reduce IntOp.andi x v reducesTo_S32x32_S_d0_1 h_S_) main_v20 main_c_7
  let main_v22 : IVec S_ 1 := andi main_v15 main_v21
  main_v22

def fn {F : FTy → Type} [FloatOps F] (main_arg0 : FVec F S32x32x100000 .f32) (main_arg1 : IVec S32x32 32) (main_arg2 : IVec S32x32 32) (main_arg3 : FVec F S32x32 .f32) : IVec S_ 1 :=
  let main_v0 : FVec F S32x32x100000 .f32 := Host.absf main_arg0
  let main_cst : FVec F S_ .f32 := constant S_ .f32 0x7F800000#32
  let main_v1 : FVec F S32x32x100000 .f32 := broadcastInDim S32x32x100000 ![] bcast_S_S32x32x100000 main_cst
  let main_v2 : IVec S32x32x100000 1 := cmpf .olt main_v0 main_v1
  let main_c : IVec S_ 1 := constantI S_ 1 1#1
  let main_v3 : IVec S_ 1 := (fun x v => Host.reduce IntOp.andi x v reducesTo_S32x32x100000_S_d0_1_2 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_c_2 : IVec S_ 32 := constantI S_ 32 0#32
  let main_v9 : IVec S32x32 32 := broadcastInDim S32x32 ![] bcast_S_S32x32 main_c_2
  let main_v10 : IVec S32x32 1 := cmpi .sge main_arg1 main_v9
  let main_c_3 : IVec S_ 32 := constantI S_ 32 99999#32
  let main_v11 : IVec S32x32 32 := broadcastInDim S32x32 ![] bcast_S_S32x32 main_c_3
  let main_v12 : IVec S32x32 1 := cmpi .sle main_arg1 main_v11
  let main_v13 : IVec S32x32 1 := andi main_v10 main_v12
  let main_c_4 : IVec S_ 1 := constantI S_ 1 1#1
  let main_v14 : IVec S_ 1 := (fun x v => Host.reduce IntOp.andi x v reducesTo_S32x32_S_d0_1 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S32x32x100000 : Shape := ⟨3, ![32, 32, 100000]⟩
abbrev S32x32 : Shape := ⟨2, ![32, 32]⟩
abbrev S1024x100000 : Shape := ⟨2, ![1024, 100000]⟩
abbrev S1024 : Shape := ⟨1, ![1024]⟩
abbrev S32 : Shape := ⟨1, ![32]⟩
abbrev S_ : Shape := ⟨0, ![]⟩
abbrev S16 : Shape := ⟨1, ![16]⟩
abbrev S1024x1 : Shape := ⟨2, ![1024, 1]⟩
abbrev S1x1 : Shape := ⟨2, ![1, 1]⟩
abbrev S64x100000 : Shape := ⟨2, ![64, 100000]⟩
abbrev S64x1 : Shape := ⟨2, ![64, 1]⟩
abbrev S2 : Shape := ⟨1, ![2]⟩
abbrev S1 : Shape := ⟨1, ![1]⟩
abbrev S64 : Shape := ⟨1, ![64]⟩
abbrev S1x64x1 : Shape := ⟨3, ![1, 64, 1]⟩
abbrev S1x1x1 : Shape := ⟨3, ![1, 1, 1]⟩

abbrev nBuf : Table → Nat
  | .hbm => 14
  | .local .tc .vmem => 8
  | .local .tc .smem => 2
  | .local .scVector .vmem => 4
  | _ => 0

abbrev bufTy : (tb : Table) → Fin (nBuf tb) → BufTy
  | .hbm, ⟨0, _⟩ => ⟨S32x32x100000, .f32⟩
  | .hbm, ⟨1, _⟩ => ⟨S32x32, .i32⟩
  | .hbm, ⟨2, _⟩ => ⟨S32x32, .i32⟩
  | .hbm, ⟨3, _⟩ => ⟨S32x32, .f32⟩
  | .hbm, ⟨4, _⟩ => ⟨S1024x100000, .f32⟩
  | .hbm, ⟨5, _⟩ => ⟨S1024, .i32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1, .i32⟩
  | .hbm, ⟨10, _⟩ => ⟨S1024x1, .f32⟩
  | .hbm, ⟨11, _⟩ => ⟨S1024x1, .f32⟩
  | .hbm, ⟨12, _⟩ => ⟨S1x1, .f32⟩
  | .hbm, ⟨13, _⟩ => ⟨S_, .f32⟩
  | .local .tc .vmem, ⟨0, _⟩ => ⟨S64x100000, .f32⟩
  | .local .tc .vmem, ⟨1, _⟩ => ⟨S64x100000, .f32⟩
  | .local .tc .vmem, ⟨2, _⟩ => ⟨S64x1, .i32⟩
  | .local .tc .vmem, ⟨3, _⟩ => ⟨S64x1, .i32⟩
  | .local .tc .vmem, ⟨4, _⟩ => ⟨S64x1, .f32⟩
  | .local .tc .vmem, ⟨5, _⟩ => ⟨S64x1, .f32⟩
  | .local .tc .vmem, ⟨6, _⟩ => ⟨S64x1, .f32⟩
  | .local .tc .vmem, ⟨7, _⟩ => ⟨S64x1, .f32⟩
  | .local .tc .smem, ⟨0, _⟩ => ⟨S1x1, .f32⟩
  | .local .tc .smem, ⟨1, _⟩ => ⟨S2, .f32⟩
  | .local .scVector .vmem, ⟨0, _⟩ => ⟨S32, .i32⟩
  | .local .scVector .vmem, ⟨1, _⟩ => ⟨S32, .f32⟩
  | .local .scVector .vmem, ⟨2, _⟩ => ⟨S32, .f32⟩
  | .local .scVector .vmem, ⟨3, _⟩ => ⟨S32, .f32⟩
  | _, _ => ⟨S32x32x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v1_scv : Ref sig .scVector := ⟨.hbm, 5, rfl⟩
abbrev main_v2_scv : Ref sig .scVector := ⟨.hbm, 6, rfl⟩
abbrev main_v3_0_scv : Ref sig .scVector := ⟨.hbm, 7, rfl⟩
abbrev main_v3_1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.smem, 0, rfl⟩
abbrev cc1_scratch0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_17 : BitVec 32 := 0#32
  let v44 : BitVec 1 := Scalar.cmpi .ne v43 c0_i32_17
  v44

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x32x100000_S1024x100000 : S32x32x100000.ShapeCasts S1024x100000
  shapeCasts_S32x32_S1024 : S32x32.ShapeCasts S1024
  inb_S32_S16_0 : ∀ a, (![0] : Fin 1 → Nat) a + S16.size a ≤ S32.size a
  h_S16 : 0 < S16.numel
  shapeCasts_S16_S16 : S16.ShapeCasts S16
  inb_S32_S16_16 : ∀ a, (![16] : Fin 1 → Nat) a + S16.size a ≤ S32.size a
  shapeCasts_S1024_S1024x1 : S1024.ShapeCasts S1024x1
  inb_S2_S1_0 : ∀ a, (![0] : Fin 1 → Nat) a + S1.size a ≤ S2.size a
  numel1_S1 : S1.numel = 1
  inb_S2_S1_1 : ∀ a, (![1] : Fin 1 → Nat) a + S1.size a ≤ S2.size a
  inb_S64x100000_S64x100000_0_0 : ∀ a, (![0, 0] : Fin 2 → Nat) a + S64x100000.size a ≤ S64x100000.size a
  h_S64x100000 : 0 < S64x100000.numel
  shapeCasts_S64x100000_S64x100000 : S64x100000.ShapeCasts S64x100000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S64x100000_S64 : S64x100000.Reduces [1] S64
  shapeCasts_S64_S64x1 : S64.ShapeCasts S64x1
  iota_S64x100000_d1_w32 : S64x100000.Iotas .tc 32 [1]
  broadcasts_S64x1_S64x100000 : S64x1.Broadcasts S64x100000
  shapeCasts_S64x1_S1x64x1 : S64x1.ShapeCasts S1x64x1
  reduces_S1x64x1_S1 : S1x64x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scoped0 : 0 + S_.numel ≤ 13
  hcc0_scoped1 : 1 + S_.numel ≤ 13
  hcc0_scoped2 : 2 + S_.numel ≤ 13
  hcc0_scoped3 : 3 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x100000.size a ≤ S1024x100000.size a
  hwx1_0 : ∀ i : grid1.Coords, EltTy.bits .f32 = 32 ∨ (Rect.block (s := S1024x100000) S64x100000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S1024x1.size a
  hwx1_1 : ∀ i : grid1.Coords, EltTy.bits .i32 = 32 ∨ (Rect.block (s := S1024x1) S64x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S1024x1.size a
  hwx1_2 : ∀ i : grid1.Coords, EltTy.bits .f32 = 32 ∨ (Rect.block (s := S1024x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S1024x1.size a
  hwx1_3 : ∀ i : grid1.Coords, EltTy.bits .f32 = 32 ∨ (Rect.block (s := S1024x1) S64x1.size (cc1_transform_3 i) (hinb1_3 i)).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

abbrev win1_0 : Pipeline.Window sig grid1 :=
  Pipeline.Window.ofSpec (Memref.whole main_v0) S64x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S32x32x100000 : Shape := ⟨3, ![32, 32, 100000]⟩
abbrev S32x32 : Shape := ⟨2, ![32, 32]⟩
abbrev S_ : Shape := ⟨0, ![]⟩
abbrev S32x32x1 : Shape := ⟨3, ![32, 32, 1]⟩
abbrev S1024x100000 : Shape := ⟨2, ![1024, 100000]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S32x32x100000, .f32⟩
  | .hbm, ⟨1, _⟩ => ⟨S32x32, .i32⟩
  | .hbm, ⟨2, _⟩ => ⟨S32x32, .i32⟩
  | .hbm, ⟨3, _⟩ => ⟨S32x32, .f32⟩
  | .hbm, ⟨4, _⟩ => ⟨S_, .f32⟩
  | .hbm, ⟨5, _⟩ => ⟨S32x32, .f32⟩
  | .hbm, ⟨6, _⟩ => ⟨S_, .f32⟩
  | .hbm, ⟨7, _⟩ => ⟨S32x32, .f32⟩
  | .hbm, ⟨8, _⟩ => ⟨S32x32, .f32⟩
  | .hbm, ⟨9, _⟩ => ⟨S32x32x1, .f32⟩
  | .hbm, ⟨10, _⟩ => ⟨S32x32x100000, .f32⟩
  | .hbm, ⟨11, _⟩ => ⟨S32x32x100000, .f32⟩
  | .hbm, ⟨12, _⟩ => ⟨S32x32x100000, .f32⟩
  | .hbm, ⟨13, _⟩ => ⟨S_, .f32⟩
  | .hbm, ⟨14, _⟩ => ⟨S32x32, .f32⟩
  | .hbm, ⟨15, _⟩ => ⟨S32x32x1, .f32⟩
  | .hbm, ⟨16, _⟩ => ⟨S32x32x1, .f32⟩
  | .hbm, ⟨17, _⟩ => ⟨S32x32x100000, .f32⟩
  | .hbm, ⟨18, _⟩ => ⟨S32x32x100000, .f32⟩
  | .hbm, ⟨19, _⟩ => ⟨S1024x100000, .f32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024x1, .i32⟩
  | .hbm, ⟨25, _⟩ => ⟨S_, .i32⟩
  | .hbm, ⟨26, _⟩ => ⟨S1024x1, .i32⟩
  | .hbm, ⟨27, _⟩ => ⟨S1024x1, .i1⟩
  | .hbm, ⟨28, _⟩ => ⟨S_, .i32⟩
  | .hbm, ⟨29, _⟩ => ⟨S1024x1, .i32⟩
  | .hbm, ⟨30, _⟩ => ⟨S1024x1, .i32⟩
  | .hbm, ⟨31, _⟩ => ⟨S1024x1, .i32⟩
  | .hbm, ⟨32, _⟩ => ⟨S1024x1x1, .i32⟩
  | .hbm, ⟨33, _⟩ => ⟨S1, .i32⟩
  | .hbm, ⟨34, _⟩ => ⟨S_, .i32⟩
  | .hbm, ⟨35, _⟩ => ⟨S1024x1x1, .i32⟩
  | .hbm, ⟨36, _⟩ => ⟨S1024x1x1, .i1⟩
  | .hbm, ⟨37, _⟩ => ⟨S1x1x1, .i32⟩
  | .hbm, ⟨38, _⟩ => ⟨S1024x1x1, .i32⟩
  | .hbm, ⟨39, _⟩ => ⟨S1024x1x1, .i1⟩
  | .hbm, ⟨40, _⟩ => ⟨S1024x1x1, .i1⟩
  | .hbm, ⟨41, _⟩ => ⟨S_, .i1⟩
  | .hbm, ⟨42, _⟩ => ⟨S1024x1, .i1⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S32x32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst : Ref sig .tc := ⟨.hbm, 51, rfl⟩
abbrev main_v11 : Ref sig .tc := ⟨.hbm, 52, rfl⟩
abbrev main_cst_0 : Ref sig .tc := ⟨.hbm, 53, rfl⟩
abbrev main_v12 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_v13 : Ref sig .tc := ⟨.hbm, 58, rfl⟩
abbrev main_cst_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩

abbrev nD : Nat := 1
abbrev τ : Topo := Topo.v7x

variable {F : FTy → Type} [FloatOps F]

class Facts₀ : Prop where
  reducesTo_S32x32x100000_S32x32_d2 : S32x32x100000.ReducesTo [2] S32x32
  h_S_ : 0 < S_.numel
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x100000_0_1_2 : S32x32x1.BroadcastsInDim S32x32x100000 (![0, 1, 2] : Fin 3 → Fin S32x32x100000.rank)
  shapeCasts_S32x32x100000_S1024x100000 : S32x32x100000.ShapeCasts S1024x100000
  shapeCasts_S32x32_S1024 : S32x32.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  gather_S1024x100000_S1024x1x1_S1024x1_n_1_0_0_1_2_11_wf : GatherDims.WF S1024x100000 S1024x1x1 S1024x1 [] [1] [0] [1] [0] 2 ![1, 1]

variable [Facts₀]

def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.KVal.lean ====
/-
  What the kernel computes, as one function of its three argument arrays.

  The vector subcores turn the flattened targets `t` and rewards `r` (1024 entries each) into a validity flag
  `valid e = float (min (t e) 1)` and a weight `w e = r e * valid e`.  The TensorCore kernel then walks the 1024 rows of
  the logits in 16 blocks of 64 rows, keeping two running sums: the first gains, per block, the sum over its rows of
  `(x[row, t row] - (16 + log (Σ_v exp (x[row, v] - 16)))) * w row`, the second the sum of `valid row`.  After the last
  block the result is `0 - (first / max second 1)`.  Everything is stated over the body's own arithmetic (the payload
  terms of the skeleton), for any float instance.
-/
import proofs.«213067_g2224793059754_cont_8to1_1641_35_alg».proof.Proof.Gen.KernelIdeal.Skeleton
import Idealize.ShloMosaic.Lib.ValueIdx

noncomputable section

namespace Cert.KernelIdeal.KVal

open Idealize.ShloMosaic Idealize.ShloMosaic.ValueIdx Cert.KernelIdeal Cert.KernelIdeal.Gen

variable {F : FTy → Type} [FloatOps F]

/-- The validity flag of one target word: `float (min t 1)` (signed minimum, signed conversion). -/
def validAt (t : BitVec 32) : F .f32 := FloatOps.sitofp .f32 (IntOp.minsi t 1#32)

/-- The validity flags of all 1024 flattened targets. -/
def validOf (t : IVec S1024 32) : FVec F S1024 .f32 := fun i => validAt (t i)

/-- The weights: each reward times its validity flag. -/
def weightOf (t : IVec S1024 32) (r : FVec F S1024 .f32) : FVec F S1024 .f32 := fun i => FloatOps.mulf (r i) (validAt (t i))

/-- Row `r` of block `n` is row `64 n + r` of the array. -/
def rowOf (n : Fin 16) (r : Fin 64) : Fin 1024 := ⟨64 * n.val + r.val, by omega⟩

/-- Block `n` (rows `64 n … 64 n + 63`) of an array of 1024 rows. -/
def blockOf {α : Type} {C : ℕ} (A : (⟨2, ![1024, C]⟩ : Shape).Idx → α) (n : Fin 16) : (⟨2, ![64, C]⟩ : Shape).Idx → α :=
  fun y => A (ix2 (rowOf n (y 0)) (y 1))

/-- The two running sums after the first `n` blocks: both start at zero; block `n` adds its rows' weighted
    log-probabilities to the first and its rows' validity flags to the second. -/
def accs (X : Vec F S1024x100000 .f32) (Tg : Vec F S1024x1 .i32) (Wt Vd : Vec F S1024x1 .f32) : ℕ → Elt F .f32 × Elt F .f32
  | 0 => (Scalar.ofBits .f32 0x00000000#32, Scalar.ofBits .f32 0x00000000#32)
  | n + 1 =>
    if h : n < 16 then
      (k1_pay3 (blockOf X ⟨n, h⟩) (blockOf Tg ⟨n, h⟩) (accs X Tg Wt Vd n).1 (blockOf Wt ⟨n, h⟩),
        k1_pay1 (accs X Tg Wt Vd n).2 (k1_pay4 (blockOf Vd ⟨n, h⟩)))
    else accs X Tg Wt Vd n

/-- The kernel's one output word: the negated quotient of the two sums after all 16 blocks. -/
def result (X : Vec F S1024x100000 .f32) (Tg : Vec F S1024x1 .i32) (Wt Vd : Vec F S1024x1 .f32) : Elt F .f32 :=
  k1_pay2 (accs X Tg Wt Vd 16).1 (accs X Tg Wt Vd 16).2

/-- The whole program's result from its argument arrays: the logits, targets and rewards reshaped to 1024 rows, the
    subcores' weights and flags as columns, the TensorCore kernel's word, reshaped to a scalar. -/
def kernelOut (x0 : Vec F S32x32x100000 .f32) (x1 : Vec F S32x32 .i32) (x3 : Vec F S32x32 .f32) : Vec F S_ .f32 :=
  let t1 : IVec S1024 32 := shapeCast S1024 x1 shapeCasts_S32x32_S1024
  let r1 : FVec F S1024 .f32 := shapeCast S1024 x3 shapeCasts_S32x32_S1024
  shapeCast S_ (fun _ : S1x1.Idx =>
    result (shapeCast S1024x100000 x0 shapeCasts_S32x32x100000_S1024x100000)
      (shapeCast S1024x1 t1 shapeCasts_S1024_S1024x1)
      (shapeCast S1024x1 (weightOf t1 r1) shapeCasts_S1024_S1024x1)
      (shapeCast S1024x1 (validOf (F := F) t1) shapeCasts_S1024_S1024x1)) shapeCasts_S1x1_S_

end Cert.KernelIdeal.KVal

end
-- ==== Proof.KICommon.lean ====
/-
  The program as the SparseCore launch theorem sees it, and what its handshakes carry.

  The 1024 flattened positions are cut into 32 consecutive pieces of 32; vector subcore `s` of SparseCore `c` works on
  piece `2 s + c`: it reads that piece of the flattened targets and rewards and writes the same piece of the weights and
  of the validity flags.  The call hands each SparseCore its sixteen pieces of the four arrays and takes them back with
  the two written arrays at `weightOf` / `validOf` of the flattened targets and rewards, piece by piece.
-/
import proofs.«213067_g2224793059754_cont_8to1_1641_35_alg».proof.Proof.KVal
import proofs.«213067_g2224793059754_cont_8to1_1641_35_alg».proof.Proof.Gen.KernelIdeal.Launch
import proofs.«213067_g2224793059754_cont_8to1_1641_35_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the four arrays of the call, and the pieces -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev tLoc (d : Dev nD) : Loc nD τ sig := (SparseCore.T d).loc main_v1
abbrev rLoc (d : Dev nD) : Loc nD τ sig := (SparseCore.T d).loc main_v2
abbrev wLoc (d : Dev nD) : Loc nD τ sig := (SparseCore.T d).loc main_v3_0
abbrev vLoc (d : Dev nD) : Loc nD τ sig := (SparseCore.T d).loc main_v3_1

/-- The flattened targets and rewards, as @main's reshapes leave them. -/
def T1 (d : Dev nD) : Buf (Elt F) (tLoc d) := shapeCast S1024 (m (a1Loc d)) shapeCasts_S32x32_S1024
def R1 (d : Dev nD) : Buf (Elt F) (rLoc d) := shapeCast S1024 (m (a3Loc d)) shapeCasts_S32x32_S1024

variable [FloatOps F]

/-- What the subcores leave in the weights and in the validity flags. -/
def Wf (d : Dev nD) : Buf (Elt F) (wLoc d) := KVal.weightOf (T1 m d) (R1 m d)
def Vf (d : Dev nD) : Buf (Elt F) (vLoc d) := KVal.validOf (F := F) (T1 m d)

theorem hdiv : 32 ∣ S1024.size 0 := ⟨32, rfl⟩
/-- Piece `j` of the 1024 positions: positions `32 j … 32 j + 31`. -/
abbrev piece (j : Fin 32) : Rect S1024 := Rect.part (s := S1024) (a₀ := 0) hdiv j
abbrev pset (j : Fin 32) : Finset S1024.Idx := (piece j).set
/-- The piece of vector subcore `i` of SparseCore `c`. -/
def jOf (c : Fin 2) (i : Fin 16) : Fin 32 := ⟨2 * i.val + c.val, by omega⟩

/-- What a task is handed: its piece of the targets and rewards at their contents, of the two outputs at any. -/
def goP (d : Dev nD) (j : Fin 32) : sProp 𝕄 :=
  iprop((tLoc d ↦[pset j]{fullShare} T1 m d) ∗ (rLoc d ↦[pset j]{fullShare} R1 m d)
    ∗ (∃ f, wLoc d ↦[pset j]{fullShare} f) ∗ (∃ f, vLoc d ↦[pset j]{fullShare} f))
/-- What it hands back: the outputs' piece at the weights and the flags. -/
def tdP (d : Dev nD) (j : Fin 32) : sProp 𝕄 :=
  iprop((tLoc d ↦[pset j]{fullShare} T1 m d) ∗ (rLoc d ↦[pset j]{fullShare} R1 m d)
    ∗ (wLoc d ↦[pset j]{fullShare} Wf m d) ∗ (vLoc d ↦[pset j]{fullShare} Vf m d))

/-- The one call's payloads: each SparseCore its sixteen pieces, both ways. -/
def P : (K (F := F)).Pay (nD := nD) (Val := Elt F) (Name := ℕ) (U := UU) where
  st := fun q d c => match q with | 0 => bigSep Finset.univ fun i : Fin 16 => goP m d (jOf (Fin.cast nCore_zero c) i)
  dn := fun q d c => match q with | 0 => bigSep Finset.univ fun i : Fin 16 => tdP m d (jOf (Fin.cast nCore_zero c) i)
  go := fun q d c i => match q with | 0 => goP m d (jOf (Fin.cast nCore_zero c) (Fin.cast nSub_zero i))
  td := fun q d c i => match q with | 0 => tdP m d (jOf (Fin.cast nCore_zero c) (Fin.cast nSub_zero i))
  x := fun _ _ => iprop(emp)

instance goP_storable (d : Dev nD) (j : Fin 32) : BI.Storable (upEmb : UEmb _ 𝕄) (goP m d j) := by unfold goP; infer_instance
instance tdP_storable (d : Dev nD) (j : Fin 32) : BI.Storable (upEmb : UEmb _ 𝕄) (tdP m d j) := by unfold tdP; infer_instance

instance P_storable : (P (F := F) m).IsStorable where
  st q d c := match q with | 0 => (inferInstance : BI.Storable (upEmb : UEmb _ 𝕄) (bigSep Finset.univ fun i : Fin 16 => goP m d (jOf (Fin.cast nCore_zero c) i)))
  dn q d c := match q with | 0 => (inferInstance : BI.Storable (upEmb : UEmb _ 𝕄) (bigSep Finset.univ fun i : Fin 16 => tdP m d (jOf (Fin.cast nCore_zero c) i)))
  go q d c i := match q with | 0 => (inferInstance : BI.Storable (upEmb : UEmb _ 𝕄) (goP m d (jOf (Fin.cast nCore_zero c) (Fin.cast nSub_zero i))))
  td q d c i := match q with | 0 => (inferInstance : BI.Storable (upEmb : UEmb _ 𝕄) (tdP m d (jOf (Fin.cast nCore_zero c) (Fin.cast nSub_zero i))))

end Cert.Proof.KI

end
-- ==== Proof.KIRegion.lean ====
/-
  The TensorCore kernel's region: the arrays as the region finds them, the blocks of its windows, the two running sums
  its scratch words carry from one grid point to the next, and the proof data of the pipeline.

  Before the region @main has flattened the logits, targets and rewards, the vector subcores have written the weights
  and the validity flags, and three more reshapes have made columns of the targets, weights and flags.  At grid point
  `n` (block `n` of 64 rows) the body adds the block's contribution to the two scratch words; they hold `accs (n + 1)`
  afterwards.  The output word is written at the last point only.
-/
import proofs.«213067_g2224793059754_cont_8to1_1641_35_alg».proof.Proof.KICommon

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations and the arrays between them -/

abbrev dr (b : Ref sig .tc) : DevRef τ sig := Proc.devRef .tc b

abbrev op1 : HloOp τ sig (Elt F) := StableHlo.reshape main_arg0 main_v0 rfl shapeCasts_S32x32x100000_S1024x100000
abbrev op2 : HloOp τ sig (Elt F) := StableHlo.reshape main_arg1 main_v1 rfl shapeCasts_S32x32_S1024
abbrev op3 : HloOp τ sig (Elt F) := StableHlo.reshape main_arg3 main_v2 rfl shapeCasts_S32x32_S1024
abbrev op4 : HloOp τ sig (Elt F) := StableHlo.reshape main_v1 main_v4 rfl shapeCasts_S1024_S1024x1
abbrev op5 : HloOp τ sig (Elt F) := StableHlo.reshape main_v3_0 main_v5 rfl shapeCasts_S1024_S1024x1
abbrev op6 : HloOp τ sig (Elt F) := StableHlo.reshape main_v3_1 main_v6 rfl shapeCasts_S1024_S1024x1
abbrev op7 : HloOp τ sig (Elt F) := StableHlo.reshape main_v7 main_v8 rfl shapeCasts_S1x1_S_

/-- The launch contents; -/
def V0 (d : Dev nD) : Valuation τ sig (Elt F) := fun b => m (d, b)
/-- after the three reshapes before the SparseCore call; -/
def V3 (d : Dev nD) : Valuation τ sig (Elt F) := StableHlo.after [op1, op2, op3] (V0 m d)
/-- after the call: the weights and the flags written; -/
def V4 (d : Dev nD) : Valuation τ sig (Elt F) := Function.update (Function.update (V3 m d) (dr main_v3_0) (Wf m d)) (dr main_v3_1) (Vf m d)
/-- as the region finds them: the three columns made. -/
def VR (d : Dev nD) : Valuation τ sig (Elt F) := StableHlo.after [op4, op5, op6] (V4 m d)

/-- The TensorCore's view of them. -/
abbrev VRr (c : Dev nD) (b : Ref sig .tc) : Buf (Elt F) ((c : Thread nD τ).loc b) := VR m c (Proc.devRef .tc b)

/-! ## The windows' blocks, the running sums, the proof data -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VRr m c (Pipeline.arrRef spec1 w))

/-- The two running sums after the first `n` blocks, over the arrays the region finds. -/
def accAt (c : Dev nD) (n : ℕ) : Elt F .f32 × Elt F .f32 :=
  KVal.accs (VRr m c main_v0) (VRr m c main_v4) (VRr m c main_v5) (VRr m c main_v6) n

/-- The scratch's two words holding them. -/
def accBuf (c : Dev nD) (n : ℕ) : Buf (Elt F) ((c : Thread nD τ).loc cc1_scratch0) :=
  fun j => if (j 0).val = 0 then (accAt m c n).1 else (accAt m c n).2

/-- The output word. -/
def outWord (c : Dev nD) : Elt F .f32 :=
  KVal.result (VRr m c main_v0) (VRr m c main_v4) (VRr m c main_v5) (VRr m c main_v6)

abbrev scrLoc (c : Dev nD) : Loc nD τ sig := (c : Thread nD τ).loc cc1_scratch0

/-- The proof data of the pipeline on core `c`: the arrays as the region finds them; after the body at point `t` each
    input's buffer at its block and the output's at the output word (consulted at the last point only: the window is
    idle before); between points the scratch's two words at the running sums (at anything before the first point);
    nothing owed; full shares. -/
def dats (_ : Fin 1) (c : Dev nD) : Dat τ (Elt F) (HIx 1) ℕ UU ℕ cfg1 c where
  A w := VRr m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => outWord m c
  Φ n := if n.val = 0 then iprop(∃ f, scrLoc c ↦{fullShare} f) else (scrLoc c ↦{fullShare} accBuf m c n.val)
  q _ := fullShare
  owed _ := 0

theorem A_eq (c : Dev nD) (w : Fin cfg1.W) : (dats m 0 c).A w = VRr m c (Pipeline.arrRef spec1 w) := by
  dsimp only [dats]

theorem after1_0 (c : Dev nD) (t : Fin cfg1.N) : (dats m 0 c).after 0 t = iblk m c 0 t := by dsimp only [dats]
theorem after1_1 (c : Dev nD) (t : Fin cfg1.N) : (dats m 0 c).after 1 t = iblk m c 1 t := by dsimp only [dats]
theorem after1_2 (c : Dev nD) (t : Fin cfg1.N) : (dats m 0 c).after 2 t = iblk m c 2 t := by dsimp only [dats]
theorem after1_3 (c : Dev nD) (t : Fin cfg1.N) : (dats m 0 c).after 3 t = iblk m c 3 t := by dsimp only [dats]
theorem after1_4 (c : Dev nD) (t : Fin cfg1.N) : (dats m 0 c).after 4 t = fun _ => outWord m c := by dsimp only [dats]

theorem Φ_zero (c : Dev nD) : (dats m 0 c).Φ 0 = iprop(∃ f, scrLoc c ↦{fullShare} f) := by
  dsimp only [dats]; rfl
theorem Φ_succ (c : Dev nD) (t : Fin cfg1.N) : (dats m 0 c).Φ t.succ = (scrLoc c ↦{fullShare} accBuf m c (t.val + 1)) := by
  dsimp only [dats]; exact if_neg (Nat.succ_ne_zero _)

end Cert.Proof.KI

end
-- ==== Proof.KISeg.lean ====
/-
  The TensorCore region as a segment of @main, over the thread state "every unscoped buffer at a valuation": the
  region's arrays split out of the unscoped buffers at the entry and put back at the exit, the output array then holding
  the output word; the scratch words enter and leave through the pipeline's invariant; nothing is owed.
-/
import proofs.«213067_g2224793059754_cont_8to1_1641_35_alg».proof.Proof.KIRegion
import Idealize.ShloMosaic.Lib.Pipeline.FrameSuffix
import Idealize.ShloMosaic.Lib.Pipeline.RegionsLoop

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- No pipeline has a prefetched table. -/
abbrev adm : (p : Fin 1) → (pcfgs (F := F) p).Adm := fun p => (cfgs p).toPCfg_adm

/-- The proof data family: the one pipeline's. -/
def pdats : (p : Fin 1) → (c : Dev nD) → Dat τ (Elt F) (HIx 1) ℕ UU ℕ (Pipeline.pin (pcfgs (F := F)) adm p) c
  | ⟨0, _⟩ => fun c => dats m 0 c

/-- The buffers at the region's exit: its arrays at what the pipeline leaves, every other buffer as entered. -/
def VX (c : Dev nD) : Valuation τ sig (Elt F) :=
  Pipeline.withArrays spec1 c (VR m c) fun w => (dats m 0 c).arrAt w cfg1.N
abbrev VXr (c : Dev nD) (b : Ref sig .tc) : Buf (Elt F) ((c : Thread nD τ).loc b) := VX m c (Proc.devRef .tc b)

theorem VX_arr (c : Dev nD) (w : Fin cfg1.W) :
    VX m c (Proc.devRef .tc (Pipeline.arrRef spec1 w)) = (dats m 0 c).arrAt w cfg1.N := by
  unfold VX; exact Pipeline.withArrays_arr spec1 launch1.win.arr_inj c _ _ w
theorem VX_of_ne (c : Dev nD) (b : Ref sig .tc) (hb : ∀ w, Pipeline.arrRef spec1 w ≠ b) :
    VX m c (Proc.devRef .tc b) = VR m c (Proc.devRef .tc b) := by
  unfold VX; exact Pipeline.withArrays_of_ne spec1 c _ _ b hb
theorem hFX (c : Dev nD) (w : Fin cfg1.W) : (dats m 0 c).arrAt w cfg1.N = VXr m c (Pipeline.arrRef spec1 w) :=
  (VX_arr m c w).symm
theorem hrestX (c : Dev nD) : ∀ b, b ∉ Finset.univ.image (Pipeline.arrRef spec1) → VXr m c b = VRr m c b :=
  fun b hb => VX_of_ne m c b fun w e => hb (Finset.mem_image.mpr ⟨w, Finset.mem_univ _, e⟩)

/-- What rides beside the buffers: the core owing nothing. -/
abbrev RO (c : Dev nD) : sProp 𝕄 := iprop(∃ W, owes (c : Thread nD τ) (0 : CellTallies nD τ sig (HIx 1)) W)

set_option backward.isDefEq.respectTransparency.types false in
/-- The region over the thread state: entered from every unscoped buffer at `VR`, left at `VX`. -/
def reg (hb : ∀ c, BodyObligation (dats (F := F) m 0 c) (defs₀ (F := F)) Variants.none (none : HIx 1) Set.univ) :
    Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ (K (F := F)).L (K (F := F)).lev 0 fun _ _ => rfl
  pre c := iprop(StableHlo.held (c : Thread nD τ) (Pipeline.ucRefs τ sig) (VR m c) ∗ RO c)
  post c := iprop(StableHlo.held (c : Thread nD τ) (Pipeline.ucRefs τ sig) (VX m c) ∗ RO c)
  X c := iprop(emp)
  Y c := iprop(emp)
  Z c := Pipeline.unscopedRest (Ix := HIx 1) (Name := ℕ) (U := UU) (Lvl := ℕ) spec1 c (VRr m c)
  hentry c := by
    rw [Pipeline.ownSems0_none]
    have hsplit := Pipeline.arrays_of_unscopedBufs (p := 0) (pcfgs (F := F)) adm (pdats m) launch1.win launch1.arr_whole c
      ((pdats m 0 c).share_full fun _ => rfl) (VRr m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = iprop(∃ f, scrLoc c ↦{fullShare} f) from Φ_zero m c, scopedRest1_eq]
    iintro ⟨-, -, Hr⟩
    iexact Hr
  hout c := by
    rw [Pipeline.ownSems0_none, scopedRest1_eq,
      show (pdats m 0 c).Φ (Fin.last _) = (scrLoc c ↦{fullShare} accBuf m c 16) from Φ_succ m c ⟨15, by decide⟩]
    iintro Hr
    isplitr; · iempintro
    isplitr; · iempintro
    iexists _; iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (VRr m c) (VXr m c) ((pdats m 0 c).arrAt · cfg1.N) (hFX m c) (hrestX m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KI

end
-- ==== Proof.KITileSplit.lean ====
/-
  How the four arrays of the call are cut into the thirty-two pieces of the vector subcores and joined again.

  The pieces are the parts of the 1024 positions into 32 consecutive runs of 32: pairwise disjoint, and together all
  positions.  An array held whole is therefore the same as its 32 pieces held side by side, each at the one function of
  the whole array.  Subcore `i` of SparseCore `c` takes piece `2 i + c`; the pairs `(c, i)` name every piece once.
-/
import proofs.«213067_g2224793059754_cont_8to1_1641_35_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The pieces are disjoint and cover -/

theorem psets_disjoint : ∀ i ∈ (Finset.univ : Finset (Fin 32)), ∀ j ∈ (Finset.univ : Finset (Fin 32)), i ≠ j → Disjoint (pset i) (pset j) :=
  fun _ _ _ _ h => Rect.part_disjoint hdiv h

theorem psets_cover : (Finset.univ : Finset (Fin 32)).biUnion pset = Finset.univ := Rect.biUnion_part hdiv

/-! ## The pairs (SparseCore, subcore) name every piece once -/

theorem jOf_injOn : Set.InjOn (fun p : Fin 2 × Fin 16 => jOf p.1 p.2) ((Finset.univ : Finset (Fin 2)) ×ˢ (Finset.univ : Finset (Fin 16)) : Finset (Fin 2 × Fin 16)) := by
  rintro ⟨c, i⟩ - ⟨c', i'⟩ - h
  have h' : 2 * i.val + c.val = 2 * i'.val + c'.val := congrArg Fin.val h
  have hc := c.isLt; have hc' := c'.isLt
  have e1 : c = c' := Fin.ext (by omega)
  have e2 : i = i' := Fin.ext (by omega)
  rw [e1, e2]

theorem jOf_image : (((Finset.univ : Finset (Fin 2)) ×ˢ (Finset.univ : Finset (Fin 16))).image fun p : Fin 2 × Fin 16 => jOf p.1 p.2) = (Finset.univ : Finset (Fin 32)) := by
  ext j
  simp only [Finset.mem_image, Finset.mem_product, Finset.mem_univ, and_self, true_and, iff_true]
  exact ⟨(⟨j.val % 2, Nat.mod_lt _ (by omega)⟩, ⟨j.val / 2, by have := j.isLt; omega⟩), Fin.ext (by show 2 * (j.val / 2) + j.val % 2 = j.val; omega)⟩

/-- A family over the 32 pieces, gathered per SparseCore and per subcore. -/
theorem bigSep_pairs {M : Type} [URA M] (Φ : Fin 32 → sProp M) :
    (bigSep Finset.univ fun c : Fin 2 => bigSep Finset.univ fun i : Fin 16 => Φ (jOf c i)) = bigSep Finset.univ Φ := by
  rw [← SparseCore.bigSep_product Finset.univ Finset.univ (fun p : Fin 2 × Fin 16 => Φ (jOf p.1 p.2)),
    ← SparseCore.bigSep_image_of_injOn jOf_injOn Φ, jOf_image]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## The split of a SparseCore's operands among its subcores -/

theorem vecSplit : (K (F := F)).VecSplit' (P m) 0 := by
  intro d c
  show (bigSep Finset.univ fun i : Fin 16 => goP m d (jOf (Fin.cast nCore_zero c) i)) ⊢ |={Set.univ}=> iprop(
      (bigSep Finset.univ fun i : Fin ((K (F := F)).nSub 0) => goP m d (jOf (Fin.cast nCore_zero c) (Fin.cast nSub_zero i)))
      ∗ ((bigSep Finset.univ fun i : Fin ((K (F := F)).nSub 0) => tdP m d (jOf (Fin.cast nCore_zero c) (Fin.cast nSub_zero i)))
          -∗ (bigSep Finset.univ fun i : Fin 16 => tdP m d (jOf (Fin.cast nCore_zero c) i))))
  rw [bigSep_tasks (F := F) (fun i => goP m d (jOf (Fin.cast nCore_zero c) i)),
    bigSep_tasks (F := F) (fun i => tdP m d (jOf (Fin.cast nCore_zero c) i))]
  iintro H; imodintro
  isplitl [H]; · iexact H
  iintro H; iexact H

/-! ## The call's operands and results, per piece -/

theorem st0_eq (d : Dev nD) :
    (bigSep Finset.univ fun c : Fin ((K (F := F)).nCore 0) => (P m).st 0 d c) = bigSep (Finset.univ : Finset (Fin 32)) fun j => goP m d j := by
  show (bigSep Finset.univ fun c : Fin ((K (F := F)).nCore 0) => bigSep Finset.univ fun i : Fin 16 => goP m d (jOf (Fin.cast nCore_zero c) i)) = _
  rw [bigSep_cores (F := F) (fun c => bigSep Finset.univ fun i : Fin 16 => goP m d (jOf c i)), bigSep_pairs]

theorem dn0_eq (d : Dev nD) :
    (bigSep Finset.univ fun c : Fin ((K (F := F)).nCore 0) => (P m).dn 0 d c) = bigSep (Finset.univ : Finset (Fin 32)) fun j => tdP m d j := by
  show (bigSep Finset.univ fun c : Fin ((K (F := F)).nCore 0) => bigSep Finset.univ fun i : Fin 16 => tdP m d (jOf (Fin.cast nCore_zero c) i)) = _
  rw [bigSep_cores (F := F) (fun c => bigSep Finset.univ fun i : Fin 16 => tdP m d (jOf c i)), bigSep_pairs]

/-! ## Whole arrays and their pieces -/

omit [FloatOps F] in
theorem tPts_pieces (d : Dev nD) (f : Buf (Elt F) (tLoc d)) :
    (tLoc d ↦{fullShare} f : sProp 𝕄) = bigSep Finset.univ fun j : Fin 32 => tLoc d ↦[pset j]{fullShare} f := by
  rw [← pointsTo_biUnion Finset.univ (ℓ := tLoc d) pset psets_disjoint, psets_cover]; try rfl
omit [FloatOps F] in
theorem rPts_pieces (d : Dev nD) (f : Buf (Elt F) (rLoc d)) :
    (rLoc d ↦{fullShare} f : sProp 𝕄) = bigSep Finset.univ fun j : Fin 32 => rLoc d ↦[pset j]{fullShare} f := by
  rw [← pointsTo_biUnion Finset.univ (ℓ := rLoc d) pset psets_disjoint, psets_cover]; try rfl
omit [FloatOps F] in
theorem wPts_pieces (d : Dev nD) (f : Buf (Elt F) (wLoc d)) :
    (wLoc d ↦{fullShare} f : sProp 𝕄) = bigSep Finset.univ fun j : Fin 32 => wLoc d ↦[pset j]{fullShare} f := by
  rw [← pointsTo_biUnion Finset.univ (ℓ := wLoc d) pset psets_disjoint, psets_cover]; try rfl
omit [FloatOps F] in
theorem vPts_pieces (d : Dev nD) (f : Buf (Elt F) (vLoc d)) :
    (vLoc d ↦{fullShare} f : sProp 𝕄) = bigSep Finset.univ fun j : Fin 32 => vLoc d ↦[pset j]{fullShare} f := by
  rw [← pointsTo_biUnion Finset.univ (ℓ := vLoc d) pset psets_disjoint, psets_cover]; try rfl

theorem whole_to_pieces (d : Dev nD) (fw : Buf (Elt F) (wLoc d)) (fv : Buf (Elt F) (vLoc d)) :
    iprop((tLoc d ↦{fullShare} T1 m d) ∗ (rLoc d ↦{fullShare} R1 m d) ∗ (wLoc d ↦{fullShare} fw) ∗ (vLoc d ↦{fullShare} fv))
      ⊢ (bigSep (Finset.univ : Finset (Fin 32)) fun j => goP m d j : sProp 𝕄) := by
  unfold goP
  rw [bigSep_sep', bigSep_sep', bigSep_sep', tPts_pieces, rPts_pieces, wPts_pieces, vPts_pieces]
  have hw : (bigSep Finset.univ fun j : Fin 32 => (wLoc d ↦[pset j]{fullShare} fw : sProp 𝕄))
      ⊢ bigSep Finset.univ fun j : Fin 32 => iprop(∃ f, wLoc d ↦[pset j]{fullShare} f) :=
    bigSep_mono fun j _ => exists_intro (Φ := fun f => (wLoc d ↦[pset j]{fullShare} f : sProp 𝕄)) fw
  have hv : (bigSep Finset.univ fun j : Fin 32 => (vLoc d ↦[pset j]{fullShare} fv : sProp 𝕄))
      ⊢ bigSep Finset.univ fun j : Fin 32 => iprop(∃ f, vLoc d ↦[pset j]{fullShare} f) :=
    bigSep_mono fun j _ => exists_intro (Φ := fun f => (vLoc d ↦[pset j]{fullShare} f : sProp 𝕄)) fv
  iintro ⟨Ht, Hr, Hw, Hv⟩
  isplitl [Ht]; · iexact Ht
  isplitl [Hr]; · iexact Hr
  isplitl [Hw]
  · iapply hw; iexact Hw
  · iapply hv; iexact Hv

theorem pieces_to_whole (d : Dev nD) :
    (bigSep (Finset.univ : Finset (Fin 32)) fun j => tdP m d j : sProp 𝕄)
      ⊢ iprop((tLoc d ↦{fullShare} T1 m d) ∗ (rLoc d ↦{fullShare} R1 m d) ∗ (wLoc d ↦{fullShare} Wf m d) ∗ (vLoc d ↦{fullShare} Vf m d)) := by
  unfold tdP
  rw [bigSep_sep', bigSep_sep', bigSep_sep', tPts_pieces, rPts_pieces, wPts_pieces, vPts_pieces]

end Cert.Proof.KI

end
-- ==== Proof.KITile.lean ====
/-
  The task of one vector subcore.

  Subcore `i` of SparseCore `c` is handed piece `2 i + c` of the flattened targets and rewards and of the two
  outputs.  It copies its piece of the targets and of the rewards into its first two scratch buffers, computes in two
  halves of sixteen lanes the validity flags `float (min t 1)` into the fourth scratch buffer and the weights
  `r * flag` into the third, and copies those two buffers onto its piece of the weights and of the flags.  Each copy
  is waited for at once on a semaphore of its own, so nothing is read or written while a copy is under way.  Element `y`
  of the piece is element `32 (2 i + c) + y` of the array, so the piece of the outputs ends at the weights and flags
  of the whole arrays there.
-/
import proofs.«213067_g2224793059754_cont_8to1_1641_35_alg».proof.Proof.KITileSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The arrays and scratch buffers as a vector subcore's memrefs -/

abbrev tV : Memref sig .scVector .hbm S1024 .i32 := Memref.whole main_v1_scv
abbrev rV : Memref sig .scVector .hbm S1024 .f32 := Memref.whole main_v2_scv
abbrev wV : Memref sig .scVector .hbm S1024 .f32 := Memref.whole main_v3_0_scv
abbrev vV : Memref sig .scVector .hbm S1024 .f32 := Memref.whole main_v3_1_scv
abbrev s0 : Memref sig .scVector .vmem S32 .i32 := Memref.whole cc0_scratch0
abbrev s1 : Memref sig .scVector .vmem S32 .f32 := Memref.whole cc0_scratch1
abbrev s2 : Memref sig .scVector .vmem S32 .f32 := Memref.whole cc0_scratch2
abbrev s3 : Memref sig .scVector .vmem S32 .f32 := Memref.whole cc0_scratch3

/-! ## What the subcore computes, lane by lane -/

/-- A shape cast to the same shape changes nothing. -/
theorem shapeCast_same {s : Shape} {α : Type} (v : s.Idx → α) (h : s.ShapeCasts s) : shapeCast s v h = v :=
  funext fun i => congrArg v (Shape.reshapeEquiv_self _ i)

theorem cast_cancel {α β : Type} (h : α = β) {a b : α} (e : cast h a = cast h b) : a = b := by
  subst h; exact e

section Value

variable [FloatOps F]

theorem pay2_apply (v3 : Vec F S16 .i32) (x : S16.Idx) : k0_pay2 v3 x = KVal.validAt (v3 x) := by
  unfold k0_pay2 k0_pay1; simp only [shapeCast_same]; rfl
theorem pay3_apply (v3 : Vec F S16 .i32) (v11 : Vec F S16 .f32) (x : S16.Idx) :
    k0_pay3 v3 v11 x = FloatOps.mulf (v11 x) (KVal.validAt (v3 x)) := by
  unfold k0_pay3 k0_pay1; simp only [shapeCast_same]; rfl
theorem pay5_apply (v17 : Vec F S16 .i32) (x : S16.Idx) : k0_pay5 v17 x = KVal.validAt (v17 x) := by
  unfold k0_pay5 k0_pay4; simp only [shapeCast_same]; rfl
theorem pay6_apply (v17 : Vec F S16 .i32) (v25 : Vec F S16 .f32) (x : S16.Idx) :
    k0_pay6 v17 v25 x = FloatOps.mulf (v25 x) (KVal.validAt (v17 x)) := by
  unfold k0_pay6 k0_pay4; simp only [shapeCast_same]; rfl

end Value

/-- Lanes 0–15 and lanes 16–31 of a scratch buffer. -/
abbrev rLo : Rect S32 := Rect.unit (s := S32) ![0] S16.size inb_S32_S16_0
abbrev rHi : Rect S32 := Rect.unit (s := S32) ![16] S16.size inb_S32_S16_16

theorem halves_cover (y : S32.Idx) : y ∈ rLo.set ∨ y ∈ rHi.set := by
  rw [Rect.mem_set_unit, Rect.mem_set_unit]
  have hy : (y 0).val < 32 := (y 0).isLt
  by_cases h : (y 0).val < 16
  · left; exact Fin.forall_fin_one.mpr ⟨Nat.zero_le _, (show (y 0).val < 0 + 16 by omega)⟩
  · right; exact Fin.forall_fin_one.mpr ⟨(show 16 ≤ (y 0).val by omega), (show (y 0).val < 16 + 16 by omega)⟩

section Reads

variable {κ : Kind} {sp : Space} {Val : EltTy → Type}

/-- After the two half stores every lane reads its half's payload: whatever function of the lane both halves agree with. -/
theorem read_halves {e : EltTy} (v : View sig κ sp S32 e) (f : v.ty.Contents Val) (wlo : rLo.shape.Idx → Val e) (whi : rHi.shape.Idx → Val e)
    (G : S32.Idx → Val e) (hlo : ∀ x, wlo x = G (rLo.emb x)) (hhi : ∀ x, whi x = G (rHi.emb x)) (y : S32.Idx) :
    v.read Val (v.writes Val f [⟨rHi, whi⟩, ⟨rLo, wlo⟩]) y = G y := by
  refine View.read_writes_apply_of_pieces v f G _ ?_ y ?_
  · intro p hp x
    rcases List.mem_cons.mp hp with rfl | hp
    · exact hhi x
    rcases List.mem_cons.mp hp with rfl | hp
    · exact hlo x
    · exact absurd hp List.not_mem_nil
  · rcases halves_cover y with h | h
    · exact ⟨⟨rLo, wlo⟩, List.mem_cons_of_mem _ List.mem_cons_self, h⟩
    · exact ⟨⟨rHi, whi⟩, List.mem_cons_self, h⟩

/-- A load from a buffer a copy has filled whole reads the copy's payload at the lanes loaded. -/
theorem readCov_whole_apply [∀ e, Nonempty (Val e)] {s : Shape} {e : EltTy} (v : View sig κ sp s e) (g : s.Idx → Val e) (B : LoadRect s) (j : B.shape.Idx) :
    v.readCov [⟨Rect.whole s, g⟩] B j = g (B.idx j) := by
  have h := View.read_writes_cons_emb v v.junk (Rect.whole s) g [] (B.idx j)
  rw [Rect.emb_whole_apply] at h
  exact h

/-- A piece a copy has filled whole holds, element by element, what the copy carried. -/
theorem writes_whole_congr {s : Shape} {e : EltTy} (v : View sig κ sp s e) (f G : v.ty.Contents Val) (g : s.Idx → Val e)
    (h : ∀ y, g y = v.read Val G y) : ∀ i ∈ v.set, v.writes Val f [⟨Rect.whole s, g⟩] i = G i := by
  intro i hi
  obtain ⟨y, -, rfl⟩ := Finset.mem_map.mp hi
  have h1 : v.read Val (v.writes Val f [⟨Rect.whole s, g⟩]) y = v.read Val G y := by
    have h2 := View.read_writes_cons_emb v f (Rect.whole s) g [] y
    rw [Rect.emb_whole_apply] at h2
    rw [h2, h y]
  rw [View.read_apply, View.read_apply] at h1
  exact cast_cancel _ h1

end Reads

section Scratch

variable [FloatOps F] {κ : Kind} {sp : Space}

/-- The flags' scratch buffer after its two half stores, read back: each lane is the flag of the target word there. -/
theorem scr3_read (v0 : View sig κ sp S32 .i32) (v3 : View sig κ sp S32 .f32) (tt : S32.Idx → Elt F .i32) (f3 : v3.ty.Contents (Elt F)) (y : S32.Idx) :
    v3.read (Elt F) (v3.writes (Elt F) f3
      [⟨rHi, k0_pay5 (v0.readCov [⟨Rect.whole S32, tt⟩] rHi.toLoadRect)⟩,
        ⟨rLo, k0_pay2 (v0.readCov [⟨Rect.whole S32, tt⟩] rLo.toLoadRect)⟩]) y = KVal.validAt (F := F) (tt y) :=
  read_halves v3 f3 _ _ (fun y => KVal.validAt (F := F) (tt y))
    (fun x => by rw [pay2_apply, readCov_whole_apply]; rfl) (fun x => by rw [pay5_apply, readCov_whole_apply]; rfl) y

/-- The weights' scratch buffer after its two half stores, read back: each lane is the reward there times that flag. -/
theorem scr2_read (v0 : View sig κ sp S32 .i32) (v1 v2 : View sig κ sp S32 .f32) (tt : S32.Idx → Elt F .i32) (rr : S32.Idx → Elt F .f32)
    (f2 : v2.ty.Contents (Elt F)) (y : S32.Idx) :
    v2.read (Elt F) (v2.writes (Elt F) f2
      [⟨rHi, k0_pay6 (v0.readCov [⟨Rect.whole S32, tt⟩] rHi.toLoadRect) (v1.readCov [⟨Rect.whole S32, rr⟩] rHi.toLoadRect)⟩,
        ⟨rLo, k0_pay3 (v0.readCov [⟨Rect.whole S32, tt⟩] rLo.toLoadRect) (v1.readCov [⟨Rect.whole S32, rr⟩] rLo.toLoadRect)⟩]) y
      = FloatOps.mulf (rr y) (KVal.validAt (F := F) (tt y)) :=
  read_halves v2 f2 _ _ (fun y => FloatOps.mulf (rr y) (KVal.validAt (F := F) (tt y)))
    (fun x => by rw [pay3_apply, readCov_whole_apply, readCov_whole_apply]; rfl)
    (fun x => by rw [pay6_apply, readCov_whole_apply, readCov_whole_apply]; rfl) y

end Scratch

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The piece of the subcore at grid point `L`. -/
abbrev jL (L : grid0.Coords) : Fin 32 := jOf (Fin.cast bound_zero (L 0)) (Fin.cast bound_one (L 1))

/-- The piece as the program slices it. -/
abbrev pieceK (L : grid0.Coords) : Rect S1024 := Rect.unit (s := S1024) (k0_off1 L) S32.size (k0_off1_inb L)
abbrev tK (L : grid0.Coords) : Memref sig .scVector .hbm S32 .i32 := (tV : Memref sig .scVector .hbm S1024 .i32).slice (pieceK L) (fun _ => rfl)
abbrev rK (L : grid0.Coords) : Memref sig .scVector .hbm S32 .f32 := (rV : Memref sig .scVector .hbm S1024 .f32).slice (pieceK L) (fun _ => rfl)
abbrev wK (L : grid0.Coords) : Memref sig .scVector .hbm S32 .f32 := (wV : Memref sig .scVector .hbm S1024 .f32).slice (pieceK L) (fun _ => rfl)
abbrev vK (L : grid0.Coords) : Memref sig .scVector .hbm S32 .f32 := (vV : Memref sig .scVector .hbm S1024 .f32).slice (pieceK L) (fun _ => rfl)

theorem pieceK_eq : pieceK L = piece (jL L) := by
  unfold pieceK piece Rect.part Rect.block
  congr 1 <;> funext a
  · rw [k0_off1_eq]
    match a with
    | 0 => show 64 * (L 1).val + 32 * (L 0).val = (2 * (L 1).val + (L 0).val) * 32; omega
  · match a with
    | 0 => simp [Shape.partSize]

theorem set_tK : (tK L).view.set = pset (jL L) := by
  show ((View.whole (main_v1_scv : Ref sig .scVector)).slice (pieceK L)).set = _
  rw [View.set_slice, pieceK_eq]; exact Finset.map_refl
theorem set_rK : (rK L).view.set = pset (jL L) := by
  show ((View.whole (main_v2_scv : Ref sig .scVector)).slice (pieceK L)).set = _
  rw [View.set_slice, pieceK_eq]; exact Finset.map_refl
theorem set_wK : (wK L).view.set = pset (jL L) := by
  show ((View.whole (main_v3_0_scv : Ref sig .scVector)).slice (pieceK L)).set = _
  rw [View.set_slice, pieceK_eq]; exact Finset.map_refl
theorem set_vK : (vK L).view.set = pset (jL L) := by
  show ((View.whole (main_v3_1_scv : Ref sig .scVector)).slice (pieceK L)).set = _
  rw [View.set_slice, pieceK_eq]; exact Finset.map_refl

theorem pts_tK (f : Buf (Elt F) (tLoc d)) :
    ((tK L).view.loc (V d (cV L) (jV L)) ↦[(tK L).view.set]{fullShare} f : sProp 𝕄) = tLoc d ↦[pset (jL L)]{fullShare} f := by
  rw [set_tK]
theorem pts_rK (f : Buf (Elt F) (rLoc d)) :
    ((rK L).view.loc (V d (cV L) (jV L)) ↦[(rK L).view.set]{fullShare} f : sProp 𝕄) = rLoc d ↦[pset (jL L)]{fullShare} f := by
  rw [set_rK]
theorem pts_wK (f : Buf (Elt F) (wLoc d)) :
    ((wK L).view.loc (V d (cV L) (jV L)) ↦[(wK L).view.set]{fullShare} f : sProp 𝕄) = wLoc d ↦[pset (jL L)]{fullShare} f := by
  rw [set_wK]
theorem pts_vK (f : Buf (Elt F) (vLoc d)) :
    ((vK L).view.loc (V d (cV L) (jV L)) ↦[(vK L).view.set]{fullShare} f : sProp 𝕄) = vLoc d ↦[pset (jL L)]{fullShare} f := by
  rw [set_vK]

theorem pts_s0 (f : Buf (Elt F) ((V d (cV L) (jV L)).loc cc0_scratch0)) :
    ((s0 : Memref sig .scVector .vmem S32 .i32).view.loc (V d (cV L) (jV L)) ↦[(s0 : Memref sig .scVector .vmem S32 .i32).view.set]{fullShare} f : sProp 𝕄)
      = (V d (cV L) (jV L)).loc cc0_scratch0 ↦{fullShare} f := by
  simp only [Memref.view_whole, View.set_whole]
theorem pts_s1 (f : Buf (Elt F) ((V d (cV L) (jV L)).loc cc0_scratch1)) :
    ((s1 : Memref sig .scVector .vmem S32 .f32).view.loc (V d (cV L) (jV L)) ↦[(s1 : Memref sig .scVector .vmem S32 .f32).view.set]{fullShare} f : sProp 𝕄)
      = (V d (cV L) (jV L)).loc cc0_scratch1 ↦{fullShare} f := by
  simp only [Memref.view_whole, View.set_whole]
theorem pts_s2 (f : Buf (Elt F) ((V d (cV L) (jV L)).loc cc0_scratch2)) :
    ((s2 : Memref sig .scVector .vmem S32 .f32).view.loc (V d (cV L) (jV L)) ↦[(s2 : Memref sig .scVector .vmem S32 .f32).view.set]{fullShare} f : sProp 𝕄)
      = (V d (cV L) (jV L)).loc cc0_scratch2 ↦{fullShare} f := by
  simp only [Memref.view_whole, View.set_whole]
theorem pts_s3 (f : Buf (Elt F) ((V d (cV L) (jV L)).loc cc0_scratch3)) :
    ((s3 : Memref sig .scVector .vmem S32 .f32).view.loc (V d (cV L) (jV L)) ↦[(s3 : Memref sig .scVector .vmem S32 .f32).view.set]{fullShare} f : sProp 𝕄)
      = (V d (cV L) (jV L)).loc cc0_scratch3 ↦{fullShare} f := by
  simp only [Memref.view_whole, View.set_whole]

/-! ## The subcore's four semaphores and four scratch buffers among its own -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

/-- Element `y` of the subcore's piece of the flags is the flag of element `y` of its piece of the targets. -/
theorem Vf_read (y : S32.Idx) :
    (vK L).view.read (Elt F) (Vf m d) y = KVal.validAt (F := F) (ReadAs.same.apply ((tK L).view.read (Elt F) (T1 m d)) y) := rfl
/-- Element `y` of its piece of the weights is element `y` of its piece of the rewards times that flag. -/
theorem Wf_read (y : S32.Idx) :
    (wK L).view.read (Elt F) (Wf m d) y
      = FloatOps.mulf (ReadAs.same.apply ((rK L).view.read (Elt F) (R1 m d)) y) (KVal.validAt (F := F) (ReadAs.same.apply ((tK L).view.read (Elt F) (T1 m d)) y)) := rfl

theorem tile_body (hF : (K (F := F)).Facts) (O : CellTallies nD τ sig (HIx 1)) (W : Waits sig (HIx 1)) (hO : ∀ g, O g none = 0) :
    iprop(levAts (K (F := F)).L (K (F := F)).lev ∗ emp ∗ goP m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) rV (Memref.isWhole_whole _) wV (Memref.isWhole_whole _) vV (Memref.isWhole_whole _)
            s0 (Memref.isWhole_whole _) s1 (Memref.isWhole_whole _) s2 (Memref.isWhole_whole _) s3 (Memref.isWhole_whole _)
            cc0_scoped0 cc0_scoped1 cc0_scoped2 cc0_scoped3)
          fun _ => iprop(tdP m d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goP tdP
  iintro ⟨#Hlv, -, ⟨Ht, Hr, ⟨%fw, Hw⟩, ⟨%fv, Hv⟩⟩, ⟨⟨%f0, H0⟩, ⟨%f1, H1⟩, ⟨%f2, H2⟩, ⟨%f3, H3⟩, Hbufs⟩, ⟨Hsem0, Hsem1, Hsem2, Hsem3, Hsems⟩, HO⟩
  ihave Hmw := ((K (F := F)).mayWaits_none (thr := V d (cV L) (jV L)) hO) $$ Hlv
  ihave Ht' := (Entails.of_eq (pts_tK (F := F) d L _).symm) $$ Ht
  ihave Hr' := (Entails.of_eq (pts_rK (F := F) d L _).symm) $$ Hr
  ihave Hw' := (Entails.of_eq (pts_wK (F := F) d L _).symm) $$ Hw
  ihave Hv' := (Entails.of_eq (pts_vK (F := F) d L _).symm) $$ Hv
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  sl_exec
  sl_step
  -- what the two outbound copies carried, lane by lane
  have hw : ∀ y, tile_body.sl.dma12 m d L f2 y = (wK L).view.read (Elt F) (Wf m d) y := fun y =>
    (scr2_read (F := F) s0.view s1.view s2.view (tile_body.sl.dma0 m d L) (tile_body.sl.dma0_1 m d L) f2 y).trans (Wf_read m d L y).symm
  have hv : ∀ y, tile_body.sl.dma12_1 m d L f3 y = (vK L).view.read (Elt F) (Vf m d) y := fun y =>
    (scr3_read (F := F) s0.view s3.view (tile_body.sl.dma0 m d L) f3 y).trans (Vf_read m d L y).symm
  isplitl [Ht' Hr' Hw' Hv']
  · isplitl [Ht']; · iapply (Entails.of_eq (pts_tK (F := F) d L _)); iexact Ht'
    isplitl [Hr']; · iapply (Entails.of_eq (pts_rK (F := F) d L _)); iexact Hr'
    isplitl [Hw']
    · iapply (Entails.of_eq (pts_wK (F := F) d L _))
      iapply (Entails.of_eq (pointsTo_congr (writes_whole_congr (wK L).view fw (Wf m d) _ hw))); iexact Hw'
    · iapply (Entails.of_eq (pts_vK (F := F) d L _))
      iapply (Entails.of_eq (pointsTo_congr (writes_whole_congr (vK L).view fv (Vf m d) _ hv))); iexact Hv'
  isplitl [H0' H1' H2' H3' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, none) (insert (SemLoc.dma cc0_scoped2.sem, none)
    (insert (SemLoc.dma cc0_scoped1.sem, none) (insert (SemLoc.dma cc0_scoped0.sem, none) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation for the vector subcores -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_k (coordsV c s)
          tV (Memref.isWhole_whole _) rV (Memref.isWhole_whole _) wV (Memref.isWhole_whole _) vV (Memref.isWhole_whole _)
          s0 (Memref.isWhole_whole _) s1 (Memref.isWhole_whole _) s2 (Memref.isWhole_whole _) s3 (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KI

end
-- ==== Proof.KIBody.lean ====
/-
  The body obligation of the TensorCore kernel's pipeline.

  At grid point `t` the body is handed the four input blocks (rows `64 t … 64 t + 63` of the logits, the target column,
  the weight column and the validity column), the output's one word and the scratch's two words.  It adds the block's
  contribution to the two words: word 0 gains the sum over the block's rows of the weighted log-probabilities (`k1_pay3`), word 1
  the sum of its validity flags (`k1_pay1` of `k1_pay4`): `stepBuf`.  At the first point it stores zero into both words before; at the last point it also stores zero minus
  word 0 divided by the larger of word 1 and one into the output word (`k1_pay2`).  So there are three cases of the two conditionals — first point,
  a middle point, last point (the grid has sixteen points, so the first is not the last) —, each run on whole memrefs
  at named contents (`runA`, `runB`, `runC`).

  The pipeline's proof data say the scratch holds `accBuf n` — the running sums after `n` blocks — between points; one
  step of the recursion defining the sums is `stepBuf` over the blocks of 64 rows (`accBuf_succ`), and the windows'
  blocks are those blocks (`iblk0_eq` … `iblk3_eq`: a block's coordinate is index × size + the coordinate inside the
  block, and the index maps send point `t` to block row `t`, block column 0).  The output window is idle before the
  last point: there the body hands its buffer back as it found it.
-/
import proofs.«213067_g2224793059754_cont_8to1_1641_35_alg».proof.Proof.KIRegion
import Idealize.ShloMosaic.Lib.WritesUnit
import Idealize.ShloMosaic.Lib.WholeRead
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The condition of the first conditional: the point is the first. -/
abbrev cond1 (i : grid1.Coords) : Prop := (Scalar.cmpi .ne (Scalar.extui (Scalar.cmpi .eq (BitVec.ofNat 32 (i 0).val) 0#32)) 0#32) = 1#1
/-- The condition of the second conditional: the point is the last. -/
abbrev cond2 (i : grid1.Coords) : Prop := k1_cond2 i = 1#1

/-- The scratch's two words after the body's two accumulating stores, from the four blocks and the two words before. -/
def stepBuf (x0 : Vec F S64x100000 .f32) (x1 : Vec F S64x1 .i32) (x2 x3 : Vec F S64x1 .f32) (s : Vec F S2 .f32) : Vec F S2 .f32 :=
  fun j => if (j 0).val = 0 then k1_pay3 x0 x1 (s (ValueIdx.ix1 (0 : Fin 2))) x2 else k1_pay1 (s (ValueIdx.ix1 (1 : Fin 2))) (k1_pay4 x3)

theorem stepBuf_word0 (x0 : Vec F S64x100000 .f32) (x1 : Vec F S64x1 .i32) (x2 x3 : Vec F S64x1 .f32) (s : Vec F S2 .f32) :
    stepBuf x0 x1 x2 x3 s (ValueIdx.ix1 (0 : Fin 2)) = k1_pay3 x0 x1 (s (ValueIdx.ix1 (0 : Fin 2))) x2 := by
  unfold stepBuf; exact if_pos rfl
theorem stepBuf_word1 (x0 : Vec F S64x100000 .f32) (x1 : Vec F S64x1 .i32) (x2 x3 : Vec F S64x1 .f32) (s : Vec F S2 .f32) :
    stepBuf x0 x1 x2 x3 s (ValueIdx.ix1 (1 : Fin 2)) = k1_pay1 (s (ValueIdx.ix1 (1 : Fin 2))) (k1_pay4 x3) := by
  unfold stepBuf; exact if_neg (by decide)
theorem stepBuf_congr {x0 x0' : Vec F S64x100000 .f32} {x1 x1' : Vec F S64x1 .i32} {x2 x2' x3 x3' : Vec F S64x1 .f32} (h0 : x0 = x0') (h1 : x1 = x1') (h2 : x2 = x2') (h3 : x3 = x3')
    (s : Vec F S2 .f32) : stepBuf x0 x1 x2 x3 s = stepBuf x0' x1' x2' x3' s := by
  subst h0 h1 h2 h3; rfl

/-! ## Reads through whole memrefs and of the two scratch words -/

theorem hz2 : (![0, 0] : Fin 2 → Nat) = fun _ => 0 := funext fun a => by fin_cases a <;> rfl

/-- A load of a whole memref's full rectangle at zero offsets, the memref held at the contents that read `X`, reads `X`. -/
theorem readAt_full_unread {Val : EltTy → Type} {sg : RefSig} {κ : Kind} {sp : Space} {S : Shape} {e : EltTy} {mr : Memref sg κ sp S e} (h : mr.IsWhole)
    {off : Fin S.rank → Nat} (hz : off = fun _ => 0) (inb : ∀ a, off a + S.size a ≤ S.size a) (X : S.Idx → Val e) :
    View.readAt Val mr.view (Rect.unit off S.size inb).toLoadRect (h.unread X) = X := by
  subst hz; funext y; rw [h.readAt_unread]; show X ((Rect.whole S).emb y) = X y; rw [Rect.emb_whole_apply]

section Words
variable {Val : EltTy → Type} {sg : RefSig} {κ : Kind} {sp : Space} (v : View sg κ sp S2 .f32) (f : v.ty.Contents Val)

/-- The index a one-word load at offset `o` of the two-word buffer reads. -/
theorem idx_word (o : ℕ) (ho : o < 2) (inb : ∀ a, (![o] : Fin 1 → Nat) a + S1.size a ≤ S2.size a) (x : (Rect.unit (s := S2) ![o] S1.size inb).toLoadRect.shape.Idx) :
    (Rect.unit (s := S2) ![o] S1.size inb).toLoadRect.idx x = ValueIdx.ix1 (⟨o, ho⟩ : Fin 2) := by
  funext a; apply Fin.ext
  match a with
  | ⟨0, _⟩ =>
    show o + 1 * (x 0).val = o
    have : (x 0).val < 1 := (x 0).isLt
    omega

theorem idx_word0 (inb : ∀ a, (![0] : Fin 1 → Nat) a + S1.size a ≤ S2.size a) (x : (Rect.unit (s := S2) ![0] S1.size inb).toLoadRect.shape.Idx) :
    (Rect.unit (s := S2) ![0] S1.size inb).toLoadRect.idx x = ValueIdx.ix1 (0 : Fin 2) := idx_word 0 (by decide) inb x
theorem idx_word1 (inb : ∀ a, (![1] : Fin 1 → Nat) a + S1.size a ≤ S2.size a) (x : (Rect.unit (s := S2) ![1] S1.size inb).toLoadRect.shape.Idx) :
    (Rect.unit (s := S2) ![1] S1.size inb).toLoadRect.idx x = ValueIdx.ix1 (1 : Fin 2) := idx_word 1 (by decide) inb x

/-- After a store of word 0, word 1 reads as before. -/
theorem read_word1_after0 (inb0 : ∀ a, (![0] : Fin 1 → Nat) a + S1.size a ≤ S2.size a) (w : (Rect.unit (s := S2) ![0] S1.size inb0).shape.Idx → Val .f32) (L : List (View.Piece Val S2 .f32)) :
    v.read Val (v.writes Val f ((⟨Rect.unit (s := S2) ![0] S1.size inb0, w⟩ : View.Piece Val S2 .f32) :: L)) (ValueIdx.ix1 (1 : Fin 2))
      = v.read Val (v.writes Val f L) (ValueIdx.ix1 (1 : Fin 2)) :=
  View.read_writes_cons_unit_of_not_mem v f inb0 w L _ rfl 0 (Or.inr (by decide))

/-- After a store of word 1, word 0 reads as before. -/
theorem read_word0_after1 (inb1 : ∀ a, (![1] : Fin 1 → Nat) a + S1.size a ≤ S2.size a) (w : (Rect.unit (s := S2) ![1] S1.size inb1).shape.Idx → Val .f32) (L : List (View.Piece Val S2 .f32)) :
    v.read Val (v.writes Val f ((⟨Rect.unit (s := S2) ![1] S1.size inb1, w⟩ : View.Piece Val S2 .f32) :: L)) (ValueIdx.ix1 (0 : Fin 2))
      = v.read Val (v.writes Val f L) (ValueIdx.ix1 (0 : Fin 2)) :=
  View.read_writes_cons_unit_of_not_mem v f inb1 w L _ rfl 0 (Or.inl (by decide))

/-- A store of word 0 is what word 0 reads. -/
theorem read_word0_at0 (inb0 : ∀ a, (![0] : Fin 1 → Nat) a + S1.size a ≤ S2.size a) (a : Val .f32) (L : List (View.Piece Val S2 .f32)) :
    v.read Val (v.writes Val f ((⟨Rect.unit (s := S2) ![0] S1.size inb0, fun _ => a⟩ : View.Piece Val S2 .f32) :: L)) (ValueIdx.ix1 (0 : Fin 2)) = a :=
  View.read_writes_cons_unit_of_mem v f inb0 (fun _ => a) L _ (ValueIdx.ix1 (0 : Fin 1)) rfl (fun a => by match a with | ⟨0, _⟩ => rfl)

/-- A store of word 1 is what word 1 reads. -/
theorem read_word1_at1 (inb1 : ∀ a, (![1] : Fin 1 → Nat) a + S1.size a ≤ S2.size a) (b : Val .f32) (L : List (View.Piece Val S2 .f32)) :
    v.read Val (v.writes Val f ((⟨Rect.unit (s := S2) ![1] S1.size inb1, fun _ => b⟩ : View.Piece Val S2 .f32) :: L)) (ValueIdx.ix1 (1 : Fin 2)) = b :=
  View.read_writes_cons_unit_of_mem v f inb1 (fun _ => b) L _ (ValueIdx.ix1 (0 : Fin 1)) rfl (fun a => by match a with | ⟨0, _⟩ => rfl)

/-- Every index of the two-word buffer is word 0 or word 1. -/
theorem idx_S2_cases (j : S2.Idx) : (j = ValueIdx.ix1 (0 : Fin 2) ∧ (j 0).val = 0) ∨ (j = ValueIdx.ix1 (1 : Fin 2) ∧ (j 0).val ≠ 0) := by
  have hj : (j 0).val < 2 := (j 0).isLt
  rcases Nat.lt_or_ge (j 0).val 1 with h | h
  · left; refine ⟨?_, by omega⟩; rw [ValueIdx.eq_ix1 j]; congr 1; apply Fin.ext; show (j 0).val = 0; omega
  · right; refine ⟨?_, by omega⟩; rw [ValueIdx.eq_ix1 j]; congr 1; apply Fin.ext; show (j 0).val = 1; omega
end Words

set_option maxHeartbeats 1000000 in
theorem runB (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : ¬cond1 i) (hc2 : ¬cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d5 ∗ owns (c : Thread nD τ) arg6 fullShare (stepBuf x0 x1 x2 x3 s)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf6
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; · ipureintro; exact hf5
    iexact H5
  iexists _; isplitr; swap; · iexact H6
  ipureintro
  funext j
  unfold runB.sl.r runB.sl.r_1 runB.sl.f
  rw [readAt_full_unread harg1 hz2, readAt_full_unread harg2 hz2, readAt_full_unread harg3 hz2, readAt_full_unread harg4 hz2]
  rw [harg6.readAt_unread, harg6.readAt_unread, idx_word0, idx_word1]
  rcases idx_S2_cases j with ⟨rfl, h⟩ | ⟨rfl, h⟩
  · rw [read_word0_after1, read_word0_at0]; unfold stepBuf; rw [if_pos h]
  · rw [read_word1_at1]; unfold stepBuf; rw [if_neg h]

set_option maxHeartbeats 1000000 in
theorem runA (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : cond1 i) (hc2 : ¬cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ (∃ s0, owns (c : Thread nD τ) arg6 fullShare s0)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d5 ∗ owns (c : Thread nD τ) arg6 fullShare (stepBuf x0 x1 x2 x3 (fun _ => Scalar.ofBits .f32 0x00000000#32))) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%s0, %f6, -, H6⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; · ipureintro; exact hf5
    iexact H5
  iexists _; isplitr; swap; · iexact H6
  ipureintro
  funext j
  rw [readAt_full_unread harg1 hz2, readAt_full_unread harg2 hz2, readAt_full_unread harg3 hz2, readAt_full_unread harg4 hz2]
  rcases idx_S2_cases j with ⟨rfl, h⟩ | ⟨rfl, h⟩
  · rw [read_word0_after1, read_word0_at0]; unfold stepBuf; rw [if_pos h]; rfl
  · rw [read_word1_at1]; unfold stepBuf; rw [if_neg h]; rfl

set_option maxHeartbeats 1000000 in
theorem runC (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : ¬cond1 i) (hc2 : cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (fun _ => k1_pay2 (stepBuf x0 x1 x2 x3 s (ValueIdx.ix1 (0 : Fin 2))) (stepBuf x0 x1 x2 x3 s (ValueIdx.ix1 (1 : Fin 2)))) ∗ owns (c : Thread nD τ) arg6 fullShare (stepBuf x0 x1 x2 x3 s)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf6
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; swap; · iexact H5
    ipureintro
    funext j
    rw [View.read_writes_cons_unit_of_mem arg5.view f5 inb_S1x1_S1x1_0_0 _ [] j j rfl (fun a => by match a with | ⟨0, _⟩ => exact (Nat.zero_add _).symm | ⟨1, _⟩ => exact (Nat.zero_add _).symm)]
    unfold runC.sl.r_3 runC.sl.r_4 runC.sl.r runC.sl.r_1 runC.sl.f
    rw [readAt_full_unread harg1 hz2, readAt_full_unread harg2 hz2, readAt_full_unread harg3 hz2, readAt_full_unread harg4 hz2,
      harg6.readAt_unread, harg6.readAt_unread, idx_word0, idx_word1, stepBuf_word0, stepBuf_word1]
  iexists _; isplitr; swap; · iexact H6
  ipureintro
  funext j
  unfold runC.sl.r runC.sl.r_1 runC.sl.f
  rw [readAt_full_unread harg1 hz2, readAt_full_unread harg2 hz2, readAt_full_unread harg3 hz2, readAt_full_unread harg4 hz2]
  rw [harg6.readAt_unread, harg6.readAt_unread, idx_word0, idx_word1]
  rcases idx_S2_cases j with ⟨rfl, h⟩ | ⟨rfl, h⟩
  · rw [read_word0_after1, read_word0_at0]; unfold stepBuf; rw [if_pos h]
  · rw [read_word1_at1]; unfold stepBuf; rw [if_neg h]

/-! ## The windows' blocks are the blocks of 64 rows -/

/-- The printed index maps, decided over the grid: at point `t` every input window is on block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (m : (ℓ : Loc nD τ sig) → Buf (Elt F) ℓ)

/-- Window 0's block at point `t` is rows `64 t … 64 t + 63` of the logits. -/
theorem iblk0_eq (c : Dev nD) (t : Fin cfg1.N) (ht : t.val < 16) :
    iblk m c 0 t = KVal.blockOf (VRr m c main_v0) ⟨t.val, ht⟩ := by
  obtain ⟨e0, e1, -⟩ := idx_facts t
  funext y
  unfold iblk KVal.blockOf
  show VRr m c main_v0 (((cfg1.win 0).blk t).view.emb y) = VRr m c main_v0 (ValueIdx.ix2 (KVal.rowOf ⟨t.val, ht⟩ (y 0)) (y 1))
  refine congrArg _ ?_
  funext a; apply Fin.ext
  match a with
  | ⟨0, _⟩ => show win1_0.index t (0 : Fin 2) * 64 + 1 * (y 0).val = 64 * t.val + (y 0).val; omega
  | ⟨1, _⟩ => show win1_0.index t (1 : Fin 2) * 100000 + 1 * (y 1).val = (y 1).val; omega

/-- Window 1's block at point `t` is rows `64 t … 64 t + 63` of the target column. -/
theorem iblk1_eq (c : Dev nD) (t : Fin cfg1.N) (ht : t.val < 16) :
    iblk m c 1 t = KVal.blockOf (VRr m c main_v4) ⟨t.val, ht⟩ := by
  obtain ⟨-, -, e0, e1, -⟩ := idx_facts t
  funext y
  unfold iblk KVal.blockOf
  show VRr m c main_v4 (((cfg1.win 1).blk t).view.emb y) = VRr m c main_v4 (ValueIdx.ix2 (KVal.rowOf ⟨t.val, ht⟩ (y 0)) (y 1))
  refine congrArg _ ?_
  funext a; apply Fin.ext
  match a with
  | ⟨0, _⟩ => show win1_1.index t (0 : Fin 2) * 64 + 1 * (y 0).val = 64 * t.val + (y 0).val; omega
  | ⟨1, _⟩ => show win1_1.index t (1 : Fin 2) * 1 + 1 * (y 1).val = (y 1).val; omega

/-- Window 2's block at point `t` is rows `64 t … 64 t + 63` of the weight column. -/
theorem iblk2_eq (c : Dev nD) (t : Fin cfg1.N) (ht : t.val < 16) :
    iblk m c 2 t = KVal.blockOf (VRr m c main_v5) ⟨t.val, ht⟩ := by
  obtain ⟨-, -, -, -, e0, e1, -⟩ := idx_facts t
  funext y
  unfold iblk KVal.blockOf
  show VRr m c main_v5 (((cfg1.win 2).blk t).view.emb y) = VRr m c main_v5 (ValueIdx.ix2 (KVal.rowOf ⟨t.val, ht⟩ (y 0)) (y 1))
  refine congrArg _ ?_
  funext a; apply Fin.ext
  match a with
  | ⟨0, _⟩ => show win1_2.index t (0 : Fin 2) * 64 + 1 * (y 0).val = 64 * t.val + (y 0).val; omega
  | ⟨1, _⟩ => show win1_2.index t (1 : Fin 2) * 1 + 1 * (y 1).val = (y 1).val; omega

/-- Window 3's block at point `t` is rows `64 t … 64 t + 63` of the validity column. -/
theorem iblk3_eq (c : Dev nD) (t : Fin cfg1.N) (ht : t.val < 16) :
    iblk m c 3 t = KVal.blockOf (VRr m c main_v6) ⟨t.val, ht⟩ := by
  obtain ⟨-, -, -, -, -, -, e0, e1⟩ := idx_facts t
  funext y
  unfold iblk KVal.blockOf
  show VRr m c main_v6 (((cfg1.win 3).blk t).view.emb y) = VRr m c main_v6 (ValueIdx.ix2 (KVal.rowOf ⟨t.val, ht⟩ (y 0)) (y 1))
  refine congrArg _ ?_
  funext a; apply Fin.ext
  match a with
  | ⟨0, _⟩ => show win1_3.index t (0 : Fin 2) * 64 + 1 * (y 0).val = 64 * t.val + (y 0).val; omega
  | ⟨1, _⟩ => show win1_3.index t (1 : Fin 2) * 1 + 1 * (y 1).val = (y 1).val; omega

/-! ## What the pipeline hands the body -/

/-- Each input's current staging buffer holds its block at every point, fetched there or not. -/
theorem before1_0 (c : Dev nD) (t : Fin cfg1.N) (d) : (dats m 0 c).before 0 t d = iblk m c 0 t :=
  ((dats m 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats m 0 c).before 1 t d = iblk m c 1 t :=
  ((dats m 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats m 0 c).before 2 t d = iblk m c 2 t :=
  ((dats m 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats m 0 c).before 3 t d = iblk m c 3 t :=
  ((dats m 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)

/-! ## The two conditions and the output window's idle points, decided over the grid -/

/-- The first conditional is taken at the first point only. -/
theorem hcond1 : ∀ t : Fin cfg1.N, cond1 (grid1.coords t) ↔ t.val = 0 :=
  (by decide +kernel : ∀ t : Fin grid1.N, cond1 (grid1.coords t) ↔ t.val = 0)
/-- The second conditional is taken at the last point only. -/
theorem hcond2 : ∀ t : Fin cfg1.N, cond2 (grid1.coords t) ↔ t.val = 15 :=
  (by decide +kernel : ∀ t : Fin grid1.N, cond2 (grid1.coords t) ↔ t.val = 15)
/-- The output window is idle everywhere but at the last point. -/
theorem idle4 : ∀ t : Fin cfg1.N, cfg1.idle 4 (cfg1.grid.coords t) = !decide (t.val = 15) :=
  (by decide +kernel : ∀ t : Fin grid1.N, idle1 4 (grid1.coords t) = !decide (t.val = 15))

/-! ## The running sums, one point on -/

/-- One more block: the scratch's words after block `n` are the body's two accumulating stores over the words before. -/
theorem accBuf_succ' (c : Dev nD) (n : ℕ) (hn : n < 16) :
    accBuf m c (n + 1) = stepBuf (KVal.blockOf (VRr m c main_v0) ⟨n, hn⟩) (KVal.blockOf (VRr m c main_v4) ⟨n, hn⟩)
      (KVal.blockOf (VRr m c main_v5) ⟨n, hn⟩) (KVal.blockOf (VRr m c main_v6) ⟨n, hn⟩) (accBuf m c n) := by
  funext j
  unfold accBuf stepBuf accAt
  rw [KVal.accs, dif_pos hn]
  rfl

/-- The same over the windows' blocks at point `t`. -/
theorem accBuf_succ (c : Dev nD) (t : Fin cfg1.N) (ht : t.val < 16) :
    accBuf m c (t.val + 1) = stepBuf (iblk m c 0 t) (iblk m c 1 t) (iblk m c 2 t) (iblk m c 3 t) (accBuf m c t.val) :=
  (accBuf_succ' m c t.val ht).trans
    (stepBuf_congr (iblk0_eq m c t ht).symm (iblk1_eq m c t ht).symm (iblk2_eq m c t ht).symm (iblk3_eq m c t ht).symm _)

/-- Before the first block both sums are zero. -/
theorem stepBuf_acc0 (c : Dev nD) (x0 : Vec F S64x100000 .f32) (x1 : Vec F S64x1 .i32) (x2 x3 : Vec F S64x1 .f32) (n : ℕ) (hn : n = 0) :
    stepBuf x0 x1 x2 x3 (accBuf m c n) = stepBuf x0 x1 x2 x3 (fun _ => Scalar.ofBits .f32 0x00000000#32) := by
  subst hn; funext j; rfl

/-- The output word is the negated quotient of the two words after the last block. -/
theorem outWord_eq (c : Dev nD) :
    outWord m c = k1_pay2 (accBuf m c 16 (ValueIdx.ix1 (0 : Fin 2))) (accBuf m c 16 (ValueIdx.ix1 (1 : Fin 2))) := rfl

/-! ## The body obligation, at a generic point -/

/-- The scratch operand: the whole scoped buffer of two words. -/
abbrev scrM : Memref sig .tc .smem S2 .f32 := Memref.whole cc1_scratch0
/-- Each window's current staging memref at point `t`, as the pipeline passes it, and its wholeness. -/
abbrev ms1_0 (t : Fin cfg1.N) : Memref sig .tc .vmem S64x100000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S1x1 .f32 := win1_4.stage (cfg1.slots t 4)
abbrev hs1_4 (t : Fin cfg1.N) : (ms1_4 t).IsWhole := hstage1_4 ((cfg1.slots t 4).cast nbuf1_4)

/-- The invariant before the first point: the scratch at anything. -/
theorem Φ_first (c : Dev nD) (t : Fin cfg1.N) (h0 : t.val = 0) :
    (dats m 0 c).Φ t.castSucc = iprop(∃ f, owns (c : Thread nD τ) scrM fullShare f) := by
  have e : (dats m 0 c).Φ t.castSucc = iprop(∃ f, scrLoc c ↦{fullShare} f) := by dsimp only [dats]; exact if_pos h0
  rw [e]; simp only [owns_whole]; rfl
/-- The invariant before a later point: the scratch at the running sums. -/
theorem Φ_later (c : Dev nD) (t : Fin cfg1.N) (h0 : ¬t.val = 0) :
    (dats m 0 c).Φ t.castSucc = owns (c : Thread nD τ) scrM fullShare (accBuf m c t.val) := by
  have e : (dats m 0 c).Φ t.castSucc = (scrLoc c ↦{fullShare} accBuf m c t.val) := by dsimp only [dats]; exact if_neg h0
  rw [e, owns_whole]
/-- The invariant after a point. -/
theorem Φ_after (c : Dev nD) (t : Fin cfg1.N) :
    (dats m 0 c).Φ t.succ = owns (c : Thread nD τ) scrM fullShare (accBuf m c (t.val + 1)) := by
  rw [Φ_succ, owns_whole]

/-- What the body returns of the output window: at a point idle for it what it was handed, at the last point the output word. -/
def post4 (c : Dev nD) (t : Fin cfg1.N) : sProp 𝕄 :=
  match cfg1.idle 4 (cfg1.grid.coords t) with
  | true =>
    match (cfg1.win 4).flush t with
    | false => iprop(∃ d, owns (c : Thread nD τ) (ms1_4 t) fullShare ((dats m 0 c).before 4 t d))
    | true => owns (c : Thread nD τ) (ms1_4 t) fullShare ((dats m 0 c).after 4 t)
  | false => owns (c : Thread nD τ) (ms1_4 t) fullShare ((dats m 0 c).after 4 t)

theorem post4_idle (c : Dev nD) (t : Fin cfg1.N) (h : ¬t.val = 15) :
    post4 m c t = iprop(∃ d, owns (c : Thread nD τ) (ms1_4 t) fullShare ((dats m 0 c).before 4 t d)) := by
  have hN : t.val < 16 := lt_of_lt_of_eq t.isLt (show cfg1.N = 16 from N_1)
  have hi : cfg1.idle 4 (cfg1.grid.coords t) = true := by rw [idle4, decide_eq_false h]; rfl
  have hf : (cfg1.win 4).flush t = false := Bool.eq_false_iff.mpr fun hh => by have := (flush1_4 t).mp hh; omega
  unfold post4; rw [hi, hf]

theorem post4_last (c : Dev nD) (t : Fin cfg1.N) (h : t.val = 15) :
    post4 m c t = owns (c : Thread nD τ) (ms1_4 t) fullShare (fun _ => outWord m c) := by
  have hi : cfg1.idle 4 (cfg1.grid.coords t) = false := by rw [idle4, decide_eq_true h]; rfl
  unfold post4; rw [hi, after1_4]; rfl

/-- What the body is called with at point `t`, the windows one by one, -/
def bodyPre (c : Dev nD) (t : Fin cfg1.N) : sProp 𝕄 :=
  iprop((dats m 0 c).Φ t.castSucc ∗ (dats m 0 c).owesAt none t.castSucc
    ∗ (∃ d, owns (c : Thread nD τ) (ms1_0 t) fullShare ((dats m 0 c).before 0 t d))
    ∗ (∃ d, owns (c : Thread nD τ) (ms1_1 t) fullShare ((dats m 0 c).before 1 t d))
    ∗ (∃ d, owns (c : Thread nD τ) (ms1_2 t) fullShare ((dats m 0 c).before 2 t d))
    ∗ (∃ d, owns (c : Thread nD τ) (ms1_3 t) fullShare ((dats m 0 c).before 3 t d))
    ∗ (∃ d, owns (c : Thread nD τ) (ms1_4 t) fullShare ((dats m 0 c).before 4 t d)))

/-- and what it returns. -/
def bodyPost (c : Dev nD) (t : Fin cfg1.N) : sProp 𝕄 :=
  iprop((dats m 0 c).Φ t.succ ∗ (dats m 0 c).owesAt none t.succ
    ∗ owns (c : Thread nD τ) (ms1_0 t) fullShare ((dats m 0 c).after 0 t)
    ∗ owns (c : Thread nD τ) (ms1_1 t) fullShare ((dats m 0 c).after 1 t)
    ∗ owns (c : Thread nD τ) (ms1_2 t) fullShare ((dats m 0 c).after 2 t)
    ∗ owns (c : Thread nD τ) (ms1_3 t) fullShare ((dats m 0 c).after 3 t)
    ∗ post4 m c t)

set_option maxHeartbeats 1000000 in
/-- The body at any point: the inputs' memrefs hold their blocks; the closed forms say which of the three cases the point
    is in; the run of that case applies; one block on, the scratch's words are the next running sums; the core owes
    nothing throughout. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3]
  rw [show (dats m 0 c).owesAt none t.succ = (dats m 0 c).owesAt none t.castSucc from rfl,
    after1_0, after1_1, after1_2, after1_3, Φ_after]
  have hN : t.val < 16 := lt_of_lt_of_eq t.isLt (show cfg1.N = 16 from N_1)
  by_cases h0 : t.val = 0
  · rw [Φ_first m c t h0, post4_idle m c t (by omega),
      (accBuf_succ m c t hN).trans (stepBuf_acc0 m c _ _ _ _ t.val h0)]
    iintro ⟨⟨%f, HΦ⟩, Ho, ⟨%d0, H0⟩, ⟨%d1, H1⟩, ⟨%d2, H2⟩, ⟨%d3, H3⟩, ⟨%d4, H4⟩⟩
    iapply (runA c (grid1.coords t) _ _ _ _ _ _ _ _ _ _ _ _ ((hcond1 t).mpr h0) (fun h => by have := (hcond2 t).mp h; omega)
      (iblk m c 0 t) (iblk m c 1 t) (iblk m c 2 t) (iblk m c 3 t) ((dats m 0 c).before 4 t d4) f Set.univ _)
    isplitl [H0]; · iexact H0
    isplitl [H1]; · iexact H1
    isplitl [H2]; · iexact H2
    isplitl [H3]; · iexact H3
    isplitl [H4]; · iexact H4
    isplitl [HΦ]; · iexists f; iexact HΦ
    iintro ⟨H0, H1, H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexists d4; iexact H4
  · rw [Φ_later m c t h0, accBuf_succ m c t hN]
    by_cases h15 : t.val = 15
    · rw [post4_last m c t h15, outWord_eq, ← (show t.val + 1 = 16 by omega), accBuf_succ m c t hN]
      iintro ⟨HΦ, Ho, ⟨%d0, H0⟩, ⟨%d1, H1⟩, ⟨%d2, H2⟩, ⟨%d3, H3⟩, ⟨%d4, H4⟩⟩
      iapply (runC c (grid1.coords t) _ _ _ _ _ _ _ _ _ _ _ _ (fun h => h0 ((hcond1 t).mp h)) ((hcond2 t).mpr h15)
        (iblk m c 0 t) (iblk m c 1 t) (iblk m c 2 t) (iblk m c 3 t) ((dats m 0 c).before 4 t d4) (accBuf m c t.val) Set.univ _)
      isplitl [H0]; · iexact H0
      isplitl [H1]; · iexact H1
      isplitl [H2]; · iexact H2
      isplitl [H3]; · iexact H3
      isplitl [H4]; · iexact H4
      isplitl [HΦ]; · iexact HΦ
      iintro ⟨H0, H1, H2, H3, H4, HΦ⟩
      isplitl [HΦ]; · iexact HΦ
      isplitl [Ho]; · iexact Ho
      isplitl [H0]; · iexact H0
      isplitl [H1]; · iexact H1
      isplitl [H2]; · iexact H2
      isplitl [H3]; · iexact H3
      iexact H4
    · rw [post4_idle m c t h15]
      iintro ⟨HΦ, Ho, ⟨%d0, H0⟩, ⟨%d1, H1⟩, ⟨%d2, H2⟩, ⟨%d3, H3⟩, ⟨%d4, H4⟩⟩
      iapply (runB c (grid1.coords t) _ _ _ _ _ _ _ _ _ _ _ _ (fun h => h0 ((hcond1 t).mp h)) (fun h => h15 ((hcond2 t).mp h))
        (iblk m c 0 t) (iblk m c 1 t) (iblk m c 2 t) (iblk m c 3 t) ((dats m 0 c).before 4 t d4) (accBuf m c t.val) Set.univ _)
      isplitl [H0]; · iexact H0
      isplitl [H1]; · iexact H1
      isplitl [H2]; · iexact H2
      isplitl [H3]; · iexact H3
      isplitl [H4]; · iexact H4
      isplitl [HΦ]; · iexact HΦ
      iintro ⟨H0, H1, H2, H3, H4, HΦ⟩
      isplitl [HΦ]; · iexact HΦ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : Pipeline.BodyObligation (dats (F := F) m 0 c) (defs₀ (F := F)) Variants.none (none : HIx 1) Set.univ := fun t => by
  rw [bigSep_W1, bigSep_W1]
  exact sound_body m c t

end Cert.Proof.KI

end
-- ==== Proof.KIElem.lean ====
/-
  The launch element of the ghost state and what it pays for.

  The element is a pair: the rounds of the SparseCore call's handshakes, and beside them the rounds of the TensorCore
  pipeline's staging cells with the transfers' counters at their unit.  Owning it gives the handshakes' rounds whole;
  the staging cells' rounds pay, on every device, for the cells' ghost state and the launch tokens of the one pipeline;
  the counters' unit is dropped; no thread is handed anything of the kernels' own.
-/
import proofs.«213067_g2224793059754_cont_8to1_1641_35_alg».proof.Proof.KISeg

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- What the pipeline's staging cells start from on device `d`: their ghost state and their launch tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes' rounds, the staging cells' rounds, the counters' unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] in
theorem bigSep_one (X : Fin 1 → sProp 𝕄) : bigSep Finset.univ X = X 0 := bigSep_univ_of_subsingleton 0

omit [FloatOps F] in
theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 1 => (P (F := F) m).x q thr) = (iprop(emp) : sProp 𝕄) := by
  unfold P; dsimp only
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have hG : (bigSep Finset.univ fun d : Dev nD => G (F := F) d)
      = iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) := by
    unfold G
    rw [bigSep_sep', bigSep_congr fun d _ => bigSep_one (F := F) fun p => Pipeline.cellsGhost (Pipeline.pin (pcfgs (F := F)) adm) EP p d,
      bigSep_congr fun d _ => bigSep_one (F := F) fun p => Pipeline.toksInit (Pipeline.pin (pcfgs (F := F)) adm) EP p d]
  rw [Px_emp, hG]
  iintro Hu
  ihave H := (ownU_pair _ _) $$ Hu
  icases H with ⟨HH, HR⟩
  ihave HR' := (own_pair_emb embR _ _) $$ HR
  icases HR' with ⟨HP, -⟩
  ihave HP := (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
    ⊢ BI.own (EP (initOf (Pipeline.cells (Pipeline.pin (pcfgs (F := F)) adm) cellOf_inj) (Pipeline.launchToks (Pipeline.pin (pcfgs (F := F)) adm) cellOf_inj))) from .rfl) $$ HP
  imod (Pipeline.fund_ghost (Pipeline.pin (pcfgs (F := F)) adm) EP cellOf_inj) $$ HP with ⟨Hc, Ht⟩
  imodintro
  isplitl [HH]; · iexact HH
  isplitl [Hc Ht]
  · isplitl [Hc]
    · iexact Hc
    · iexact Ht
  iempintro

end Cert.Proof.KI

end
-- ==== Proof.KIValue.lean ====
/-
  What the TensorCore kernel's region leaves and finds, in terms of the launch memory.

  The output array is one word; the pipeline writes its window back at the last grid point only, and every index of the
  array lies in that point's block, so the array ends holding the output word (`arrAt_out`).  The four arrays the region
  reads are host reshapes: the logits flattened to 1024 rows; the flattened targets as a column; the weights and the
  validity flags the vector subcores wrote, as columns (`VRr_v0`, `VRr_v4`, `VRr_v5`, `VRr_v6`: each read off the chain of
  host operations and the two arrays the subcores' call updates).  With these the output word, reshaped to a scalar, is
  the program's result as one function of its three argument arrays (`out_kernelOut`).
-/
import proofs.«213067_g2224793059754_cont_8to1_1641_35_alg».proof.Proof.KIBody
import Idealize.ShloMosaic.Lib.Pipeline.Value
import Idealize.ShloMosaic.Lib.StableHlo.Run

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after_cons after_nil reshape_result reshape_result_ne)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The output array after the run -/

/-- The output window's index map is constant: block 0, 0. -/
theorem idx_out : ∀ t : Fin cfg1.N, win1_4.index t (0 : Fin 2) = 0 ∧ win1_4.index t (1 : Fin 2) = 0 :=
  (by decide +kernel : ∀ t : Fin grid1.N, _)

/-- The output array is one word, written back at the last point only: it ends holding the output word. -/
theorem arrAt_out (c : Dev nD) : (dats m 0 c).arrAt 4 cfg1.N = fun _ => outWord m c := by
  refine (dats m 0 c).arrAt_eq_of_cover 4 (fun _ => outWord m c) (fun t hf => ?_) (fun i => ?_)
  · show (cfg1.win 4).cut (grid1.coords t) ((dats m 0 c).after 4 t) = _
    rw [after1_4]; rfl
  · refine ⟨t1_15, (flush1_4 t1_15).mpr rfl, ?_⟩
    obtain ⟨e0, e1⟩ := idx_out t1_15
    have hi : ((cfg1.win 4).blk t1_15).view.emb (fun a => ⟨(i a).val, (i a).isLt⟩) = i := by
      funext a; apply Fin.ext
      match a with
      | ⟨0, _⟩ => show win1_4.index t1_15 (0 : Fin 2) * 1 + 1 * (i 0).val = (i 0).val; omega
      | ⟨1, _⟩ => show win1_4.index t1_15 (1 : Fin 2) * 1 + 1 * (i 1).val = (i 1).val; omega
    rw [← hi]; exact View.emb_mem_set _ _

/-! ## The arrays the region finds, from the launch memory -/

/-- The logits as the region finds them: the argument flattened to 1024 rows. -/
theorem VRr_v0 (c : Dev nD) : VRr m c main_v0 = shapeCast S1024x100000 (m (a0Loc c)) shapeCasts_S32x32x100000_S1024x100000 := by
  show StableHlo.after [op4, op5, op6] (V4 m c) (Proc.devRef .tc main_v0) = _
  after_results
  unfold V4
  rw [Function.update_of_ne (by decide), Function.update_of_ne (by decide)]
  unfold V3
  after_results
  rfl

/-- The target column: the flattened targets as a column. -/
theorem VRr_v4 (c : Dev nD) : VRr m c main_v4 = shapeCast S1024x1 (T1 m c) shapeCasts_S1024_S1024x1 := by
  show StableHlo.after [op4, op5, op6] (V4 m c) (Proc.devRef .tc main_v4) = _
  after_results
  unfold V4
  rw [Function.update_of_ne (by decide), Function.update_of_ne (by decide)]
  unfold V3
  after_results
  rfl

/-- The weight column: what the subcores wrote, as a column. -/
theorem VRr_v5 (c : Dev nD) : VRr m c main_v5 = shapeCast S1024x1 (Wf m c) shapeCasts_S1024_S1024x1 := by
  show StableHlo.after [op4, op5, op6] (V4 m c) (Proc.devRef .tc main_v5) = _
  after_results
  unfold V4
  rw [Function.update_of_ne (by decide), Function.update_self]
  rfl

/-- The validity column: what the subcores wrote, as a column. -/
theorem VRr_v6 (c : Dev nD) : VRr m c main_v6 = shapeCast S1024x1 (Vf m c) shapeCasts_S1024_S1024x1 := by
  show StableHlo.after [op4, op5, op6] (V4 m c) (Proc.devRef .tc main_v6) = _
  after_results
  unfold V4
  rw [Function.update_self]
  rfl

/-- The output word, as a scalar, is the program's result from its argument arrays. -/
theorem out_kernelOut (c : Dev nD) :
    shapeCast S_ (fun _ : S1x1.Idx => outWord m c) shapeCasts_S1x1_S_ = KVal.kernelOut (m (a0Loc c)) (m (a1Loc c)) (m (a3Loc c)) := by
  unfold outWord
  rw [VRr_v0, VRr_v4, VRr_v5, VRr_v6]
  rfl

end Cert.Proof.KI

end
-- ==== Proof.KIMain.lean ====
/-
  @main on the TensorCore: three reshapes, the SparseCore call, three reshapes, the kernel region, one reshape; the
  launch element of the ghost state; the program's run with its result named.
-/
import proofs.«213067_g2224793059754_cont_8to1_1641_35_alg».proof.Proof.KISeg
import proofs.«213067_g2224793059754_cont_8to1_1641_35_alg».proof.Proof.KITile
import proofs.«213067_g2224793059754_cont_8to1_1641_35_alg».proof.Proof.KIBody
import proofs.«213067_g2224793059754_cont_8to1_1641_35_alg».proof.Proof.KIElem
import proofs.«213067_g2224793059754_cont_8to1_1641_35_alg».proof.Proof.KIValue

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays between the host operations -/

theorem V3_v1 (d : Dev nD) : V3 m d (dr main_v1) = T1 m d := by
  unfold V3 T1; after_results; rfl
theorem V3_v2 (d : Dev nD) : V3 m d (dr main_v2) = R1 m d := by
  unfold V3 R1; after_results; rfl
theorem V4_v1 (d : Dev nD) : V4 m d (dr main_v1) = T1 m d := by
  unfold V4
  rw [Function.update_of_ne (show dr main_v1 ≠ dr main_v3_1 by decide), Function.update_of_ne (show dr main_v1 ≠ dr main_v3_0 by decide)]
  exact V3_v1 m d
theorem V4_v2 (d : Dev nD) : V4 m d (dr main_v2) = R1 m d := by
  unfold V4
  rw [Function.update_of_ne (show dr main_v2 ≠ dr main_v3_1 by decide), Function.update_of_ne (show dr main_v2 ≠ dr main_v3_0 by decide)]
  exact V3_v2 m d
theorem V4_w (d : Dev nD) : V4 m d (dr main_v3_0) = Wf m d := by
  unfold V4
  rw [Function.update_of_ne (show dr main_v3_0 ≠ dr main_v3_1 by decide), Function.update_self]
theorem V4_v (d : Dev nD) : V4 m d (dr main_v3_1) = Vf m d := by
  unfold V4; rw [Function.update_self]
theorem V4_of_ne (d : Dev nD) (b : DevRef τ sig) (h0 : b ≠ dr main_v3_0) (h1 : b ≠ dr main_v3_1) : V4 m d b = V3 m d b := by
  unfold V4; rw [Function.update_of_ne h1, Function.update_of_ne h0]

/-- The final contents: the output word reshaped to the scalar result. -/
def VF (d : Dev nD) : Valuation τ sig (Elt F) := StableHlo.after [op7] (VX m d)

/-! ## @main on the TensorCore -/

abbrev T4 : Finset (DevRef τ sig) := {dr main_v1, dr main_v2, dr main_v3_0, dr main_v3_1}
theorem T4_sub : T4 ⊆ Pipeline.ucRefs τ sig := by decide

omit [FloatOps F] in
theorem held_T4 (d : Dev nD) (W : Valuation τ sig (Elt F)) :
    (held (SparseCore.T d) T4 W : sProp 𝕄) = iprop((tLoc d ↦{fullShare} W (dr main_v1)) ∗ (rLoc d ↦{fullShare} W (dr main_v2))
      ∗ (wLoc d ↦{fullShare} W (dr main_v3_0)) ∗ (vLoc d ↦{fullShare} W (dr main_v3_1))) := by
  unfold held T4
  rw [SparseCore.bigSep_insert' (by decide), SparseCore.bigSep_insert' (by decide), SparseCore.bigSep_insert' (by decide), bigSep_singleton]

theorem hS1 : (op1 (F := F)).bufs ⊆ Pipeline.ucRefs τ sig := Pipeline.sub_ucRefs _ (StableHlo.reshape_bufs_sub ..)
theorem hS2 : (op2 (F := F)).bufs ⊆ Pipeline.ucRefs τ sig := Pipeline.sub_ucRefs _ (StableHlo.reshape_bufs_sub ..)
theorem hS3 : (op3 (F := F)).bufs ⊆ Pipeline.ucRefs τ sig := Pipeline.sub_ucRefs _ (StableHlo.reshape_bufs_sub ..)
theorem hS4 : (op4 (F := F)).bufs ⊆ Pipeline.ucRefs τ sig := Pipeline.sub_ucRefs _ (StableHlo.reshape_bufs_sub ..)
theorem hS5 : (op5 (F := F)).bufs ⊆ Pipeline.ucRefs τ sig := Pipeline.sub_ucRefs _ (StableHlo.reshape_bufs_sub ..)
theorem hS6 : (op6 (F := F)).bufs ⊆ Pipeline.ucRefs τ sig := Pipeline.sub_ucRefs _ (StableHlo.reshape_bufs_sub ..)
theorem hS7 : (op7 (F := F)).bufs ⊆ Pipeline.ucRefs τ sig := Pipeline.sub_ucRefs _ (StableHlo.reshape_bufs_sub ..)

theorem V3_eq (d : Dev nD) : V3 m d = (op3 (F := F)).result ((op2 (F := F)).result ((op1 (F := F)).result (V0 m d))) := rfl
theorem VR_eq (d : Dev nD) : VR m d = (op6 (F := F)).result ((op5 (F := F)).result ((op4 (F := F)).result (V4 m d))) := rfl
theorem VF_eq (d : Dev nD) : VF m d = (op7 (F := F)).result (VX m d) := rfl

theorem held_V4_join (d : Dev nD) :
    iprop(((tLoc d ↦{fullShare} T1 m d) ∗ (rLoc d ↦{fullShare} R1 m d) ∗ (wLoc d ↦{fullShare} Wf m d) ∗ (vLoc d ↦{fullShare} Vf m d))
        ∗ held (SparseCore.T d) (Pipeline.ucRefs τ sig \ T4) (V3 m d))
      ⊢ (held (SparseCore.T d) (Pipeline.ucRefs τ sig) (V4 m d) : sProp 𝕄) := by
  rw [held_sub_split (SparseCore.T d) T4_sub (V4 m d), held_T4, V4_v1, V4_v2, V4_w, V4_v,
    held_congr (SparseCore.T d) (V := V4 m d) (V' := V3 m d) fun b hb => V4_of_ne m d b
      (fun e => (Finset.mem_sdiff.mp hb).2 (e ▸ by decide)) (fun e => (Finset.mem_sdiff.mp hb).2 (e ▸ by decide))]

/-- What @main leaves the claim: every unscoped buffer at the final contents. -/
abbrev FIN (d : Dev nD) : sProp 𝕄 := held (SparseCore.T d) (Pipeline.ucRefs τ sig) (VF m d)

omit [FloatOps F] in
theorem wbelow_all (d : Dev nD) (W : Waits sig (HIx 1)) : (K (F := F)).WBelow (SparseCore.T d) W (8 * 1) := fun p _ => by
  cases h : p.2 with
  | none => rw [SparseCore.Cfg.lev_none]; exact Nat.zero_le _
  | some q => exact ((K (F := F)).lev_some_le _ q).trans (by have := q.isLt; omega)

omit [FloatOps F] in
theorem entry_eq : (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩) := rfl

/-- The region's call in the SparseCore program's body table is the call in the pipeline's, lifted. -/
theorem lift_entry (d : Dev nD) (Q : PUnit.{1} → sProp 𝕄) :
    wp frame (wpE (D (F := F)) 𝒱 (SparseCore.T d) none) Set.univ (.op (.customCall (Pipeline.entry 0) ()) fun _ => .ret ⟨⟩) Q
      ⊢ wp frame (wpE ((K (F := F)).defs (D (F := F))) 𝒱 (SparseCore.T d) none) Set.univ
          (Prog.lift (.customCall (SparseCore.inner (Pipeline.entry 0)) ())) Q := by
  rw [entry_eq]
  exact (K (F := F)).wp_liftProg (D (F := F)) 𝒱 (SparseCore.T d) Set.univ none _ Q

theorem reg_pre (hb : ∀ c, BodyObligation (dats (F := F) m 0 c) (defs₀ (F := F)) Variants.none (none : HIx 1) Set.univ) (d : Dev nD) :
    (reg m hb).pre d = iprop(held (d : Thread nD τ) (Pipeline.ucRefs τ sig) (VR m d) ∗ RO d) := rfl
theorem reg_post (hb : ∀ c, BodyObligation (dats (F := F) m 0 c) (defs₀ (F := F)) Variants.none (none : HIx 1) Set.univ) (d : Dev nD) :
    (reg m hb).post d = iprop(held (d : Thread nD τ) (Pipeline.ucRefs τ sig) (VX m d) ∗ RO d) := rfl

set_option backward.isDefEq.respectTransparency.types false in
theorem hmain (hb : ∀ c, BodyObligation (dats (F := F) m 0 c) (defs₀ (F := F)) Variants.none (none : HIx 1) Set.univ)
    (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  have hreg := fun (Q : PUnit.{1} → sProp 𝕄) => Pipeline.RegionSeg.wp (pcfgs (F := F)) adm (pdats m) (none : HIx 1) cellOf_inj EP defs₀ 𝒱₀
      (K (F := F)).L (K (F := F)).lev (reg m hb) d none (fun _ h => nomatch h) (fun _ => .ret ⟨⟩) Q
  simp only [reg_pre m hb d, reg_post m hb d] at hreg
  have hR := fun (Q : PUnit.{1} → sProp 𝕄) => (hreg Q).trans (lift_entry d Q)
  clear hreg
  unfold SparseCore.Cfg.tcRes
  rw [show unscopedBufs d (fun b => m ((SparseCore.T d).loc b)) = held (SparseCore.T d) (Pipeline.ucRefs τ sig) (V0 m d)
    from Pipeline.unscopedBufs_held d (V0 m d)]
  simp only [main, wp_bind, wp_pure]
  iintro ⟨#Hctx, Hst, ⟨Hb, Hheld, -, -⟩, ⟨Hg, Htk⟩⟩
  -- the three reshapes before the call
  iapply (wp_hlo_within 𝒱 (SparseCore.T d) none Set.univ (op := op1) (S := Pipeline.ucRefs τ sig) hS1 (V := V0 m d)) $$ [Hb Hheld]
  · isplitl [Hb] <;> iassumption
  iintro ⟨Hb, Hheld⟩
  rw [wp_ret]; imodintro
  iapply (wp_hlo_within 𝒱 (SparseCore.T d) none Set.univ (op := op2) (S := Pipeline.ucRefs τ sig) hS2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := Pipeline.ucRefs τ sig) hS3 (V := (op2 (F := F)).result ((op1 (F := F)).result (V0 m d)))) $$ [Hb Hheld]
  · isplitl [Hb] <;> iassumption
  iintro ⟨Hb, Hheld⟩
  rw [wp_ret]; imodintro
  -- the call: the four arrays out of the unscoped buffers, cut into the tasks' pieces, and back
  rw [← V3_eq m d]
  ihave Hh := (Entails.of_eq (held_sub_split (SparseCore.T d) T4_sub (V3 m d))) $$ Hheld
  icases Hh with ⟨H4, Hrest⟩
  ihave H4' := (Entails.of_eq (held_T4 d (V3 m d))) $$ H4
  icases H4' with ⟨Ht, Hr, Hw, Hv⟩
  rw [V3_v1, V3_v2]
  iapply ((K (F := F)).wp_run (D (F := F)) 𝒱 (EH := EH) (P := P m) κ d 0) $$ [Hst Ht Hr Hw Hv Hb Hrest Hg Htk]
  isplitr; · iexact Hctx
  isplitl [Hst]; · iexact Hst
  isplitl [Ht Hr Hw Hv]
  · rw [st0_eq]
    iapply (whole_to_pieces m d _ _)
    isplitl [Ht]; · iexact Ht
    isplitl [Hr]; · iexact Hr
    isplitl [Hw]; · iexact Hw
    iexact Hv
  iintro ⟨Hst, Hdn⟩
  ihave Hdn' := (Entails.of_eq (dn0_eq m d)) $$ Hdn
  ihave H4 := (pieces_to_whole m d) $$ Hdn'
  ihave Hheld := (held_V4_join m d) $$ [H4 Hrest]
  · isplitl [H4] <;> iassumption
  -- the three reshapes after the call
  iapply (wp_hlo_within 𝒱 (SparseCore.T d) none Set.univ (op := op4) (S := Pipeline.ucRefs τ sig) hS4 (V := V4 m d)) $$ [Hb Hheld]
  · isplitl [Hb] <;> iassumption
  iintro ⟨Hb, Hheld⟩
  rw [wp_ret]; imodintro
  iapply (wp_hlo_within 𝒱 (SparseCore.T d) none Set.univ (op := op5) (S := Pipeline.ucRefs τ sig) hS5 (V := (op4 (F := F)).result (V4 m d))) $$ [Hb Hheld]
  · isplitl [Hb] <;> iassumption
  iintro ⟨Hb, Hheld⟩
  rw [wp_ret]; imodintro
  iapply (wp_hlo_within 𝒱 (SparseCore.T d) none Set.univ (op := op6) (S := Pipeline.ucRefs τ sig) hS6 (V := (op5 (F := F)).result ((op4 (F := F)).result (V4 m d)))) $$ [Hb Hheld]
  · isplitl [Hb] <;> iassumption
  iintro ⟨Hb, Hheld⟩
  rw [wp_ret]; imodintro
  rw [← VR_eq m d]
  -- the region: the core owes nothing any more
  ihave Hlev := (SparseCore.Cfg.ctx_levAts κ) $$ Hctx
  unfold SparseCore.Cfg.tcSt
  icases Hst with ⟨⟨%W, -, HO⟩, Hat, #Hrd, #Hrs, Htoks⟩
  rw [show (K (F := F)).Otc d ((0 : Fin 1).val + 1) = 0 from (K (F := F)).Otc_end d le_rfl, show (K (F := F)).Otc d 1 = 0 from (K (F := F)).Otc_end d le_rfl]
  iapply (hR _) $$ [Hb Hheld HO Hg Htk Hat Htoks]
  isplitr [Hb Hheld HO Hg Htk]
  swap
  · isplitl [Hb]; · iexact Hb
    isplitl [Hheld HO]
    · isplitl [Hheld]; · iexact Hheld
      iexists W; iexact HO
    isplitr; · iexact Hlev
    isplitl [Hg] <;> iassumption
  iintro ⟨Hb, Hheld, %W', HO⟩
  rw [wp_ret]; imodintro
  iapply (wp_hlo_within 𝒱 (SparseCore.T d) none Set.univ (op := op7) (S := Pipeline.ucRefs τ sig) hS7 (V := VX m d)) $$ [Hb Hheld]
  · isplitl [Hb] <;> iassumption
  iintro ⟨Hb, Hheld⟩
  rw [wp_ret]; imodintro; imodintro
  isplitl [HO Hat Htoks]
  · isplitl [HO]
    · iexists W'; isplitr; · ipureintro; exact wbelow_all d W'
      iexact HO
    isplitl [Hat]; · iexact Hat
    isplitr; · iexact Hrd
    isplitr; · iexact Hrs
    iexact Htoks
  iexact Hheld

/-! ## The program's run -/

/-- What the claim reads off the final memory: every unscoped buffer at the final contents. -/
def fq (d : Dev nD) (s' : Phys nD τ sig (Elt F)) : Prop := ∀ b ∈ Pipeline.ucRefs τ sig, s'.mem.mem ((d, b) : Loc nD τ sig) = VF m d b

theorem hfin (d : Dev nD) (s' : Phys nD τ sig (Elt F)) : iprop(FIN m d ∗ SI s') ⊢ (⌜fq m d s'⌝ : sProp 𝕄) := by
  show iprop(held (SparseCore.T d) (Pipeline.ucRefs τ sig) (VF m d) ∗ SI s') ⊢ _
  unfold StableHlo.held
  iintro ⟨Hh, HSI⟩
  ihave H := (pointsTo_read_all (Pipeline.ucRefs τ sig) (fun b => ((d, b) : Loc nD τ sig)) (VF m d) s') $$ [Hh HSI]
  · isplitl [Hh]; · iexact Hh
    iexact HSI
  icases H with ⟨%h, -⟩
  ipureintro; exact h

def QC : PUnit × MemSt nD τ sig (Elt F) → Prop := fun r => ∀ c : Dev nD, ∀ b ∈ Pipeline.ucRefs τ sig, r.2.mem (c, b) = VF m c b

/-- Every weakly fair execution of the program's threads terminates, nothing faulting, with every unscoped buffer of the
    TensorCore at the final contents. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ (body_obligation m)) (fq m) (hfin m) (QC m)
    (fun s' h c => h c)

/-! ## The final contents: the result and the arguments -/

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result buffer ends at the kernel's function of the three argument arrays. -/
theorem VF_out (d : Dev nD) : VF m d (dr main_v8) = KVal.kernelOut (m (a0Loc d)) (m (a1Loc d)) (m (a3Loc d)) := by
  have h1 : VF m d (dr main_v8) = shapeCast S_ (VX m d (dr main_v7)) shapeCasts_S1x1_S_ := by
    unfold VF; after_results; rfl
  rw [h1, show VX m d (dr main_v7) = (dats m 0 d).arrAt 4 cfg1.N from VX_arr m d 4, arrAt_out]
  exact out_kernelOut m d

/-- No operation and no kernel writes an argument. -/
theorem VF_arg (d : Dev nD) (b : Ref sig .tc) (h7 : b ≠ main_v8) (hx : ∀ w, Pipeline.arrRef spec1 w ≠ b)
    (h4 : b ≠ main_v4) (h5 : b ≠ main_v5) (h6 : b ≠ main_v6) (hw : b ≠ main_v3_0) (hv : b ≠ main_v3_1)
    (h0 : b ≠ main_v0) (h1 : b ≠ main_v1) (h2 : b ≠ main_v2) : VF m d (dr b) = m (d, dr b) := by
  have e1 : VF m d (dr b) = VX m d (dr b) := by
    unfold VF; simp only [StableHlo.after_cons, StableHlo.after_nil]; rw [StableHlo.reshape_result_ne]; exact h7
  have e2 : VR m d (dr b) = V4 m d (dr b) := by
    unfold VR; simp only [StableHlo.after_cons, StableHlo.after_nil]
    rw [StableHlo.reshape_result_ne, StableHlo.reshape_result_ne, StableHlo.reshape_result_ne]
    · exact h4
    · exact h5
    · exact h6
  have e3 : V3 m d (dr b) = V0 m d (dr b) := by
    unfold V3; simp only [StableHlo.after_cons, StableHlo.after_nil]
    rw [StableHlo.reshape_result_ne, StableHlo.reshape_result_ne, StableHlo.reshape_result_ne]
    · exact h0
    · exact h1
    · exact h2
  rw [e1, VX_of_ne m d b hx, e2, V4_of_ne m d _ (fun e => hw (Proc.devRef_injective _ e)) (fun e => hv (Proc.devRef_injective _ e)), e3]
  rfl

/-- THE RUN WITH ITS VALUE: every weakly fair execution of the program's threads terminates, nothing faulting; the result
    buffer ends at the kernel's function of the argument arrays, and the four argument arrays end as launched. -/
theorem run_value [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_v8) = KVal.kernelOut (m (a0Loc c)) (m (a1Loc c)) (m (a3Loc c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono (fun r h c =>
    ⟨(h c _ (mem_uc main_v8 (by decide))).trans (VF_out m c),
      (h c _ (mem_uc main_arg0 (by decide))).trans (VF_arg m c main_arg0 (by decide) (by decide) (by decide) (by decide) (by decide) (by decide) (by decide) (by decide) (by decide) (by decide)),
      (h c _ (mem_uc main_arg1 (by decide))).trans (VF_arg m c main_arg1 (by decide) (by decide) (by decide) (by decide) (by decide) (by decide) (by decide) (by decide) (by decide) (by decide)),
      (h c _ (mem_uc main_arg2 (by decide))).trans (VF_arg m c main_arg2 (by decide) (by decide) (by decide) (by decide) (by decide) (by decide) (by decide) (by decide) (by decide) (by decide)),
      (h c _ (mem_uc main_arg3 (by decide))).trans (VF_arg m c main_arg3 (by decide) (by decide) (by decide) (by decide) (by decide) (by decide) (by decide) (by decide) (by decide) (by decide))⟩)
    (run_main m ρ)

end Cert.Proof.KI

end
-- ==== Proof.KValB.lean ====
/-
  What the kernel computes, as one function of its three argument arrays.

  The vector subcores turn the flattened targets `t` and rewards `r` (1024 entries each) into a validity flag
  `valid e = float (min (t e) 1)` and a weight `w e = r e * valid e`.  The TensorCore kernel then walks the 1024 rows of
  the logits in 16 blocks of 64 rows, keeping two running sums: the first gains, per block, the sum over its rows of
  `(x[row, t row] - (16 + log (Σ_v exp (x[row, v] - 16)))) * w row`, the second the sum of `valid row`.  After the last
  block the result is `0 - (first / max second 1)`.  Everything is stated over the body's own arithmetic (the payload
  terms of the skeleton), for any float instance.
-/
import proofs.«213067_g2224793059754_cont_8to1_1641_35_alg».proof.Proof.Gen.Kernel.Skeleton
import Idealize.ShloMosaic.Lib.ValueIdx

noncomputable section

namespace Cert.Kernel.KVal

open Idealize.ShloMosaic Idealize.ShloMosaic.ValueIdx Cert.Kernel Cert.Kernel.Gen

variable {F : FTy → Type} [FloatOps F]

/-- The validity flag of one target word: `float (min t 1)` (signed minimum, signed conversion). -/
def validAt (t : BitVec 32) : F .f32 := FloatOps.sitofp .f32 (IntOp.minsi t 1#32)

/-- The validity flags of all 1024 flattened targets. -/
def validOf (t : IVec S1024 32) : FVec F S1024 .f32 := fun i => validAt (t i)

/-- The weights: each reward times its validity flag. -/
def weightOf (t : IVec S1024 32) (r : FVec F S1024 .f32) : FVec F S1024 .f32 := fun i => FloatOps.mulf (r i) (validAt (t i))

/-- Row `r` of block `n` is row `64 n + r` of the array. -/
def rowOf (n : Fin 16) (r : Fin 64) : Fin 1024 := ⟨64 * n.val + r.val, by omega⟩

/-- Block `n` (rows `64 n … 64 n + 63`) of an array of 1024 rows. -/
def blockOf {α : Type} {C : ℕ} (A : (⟨2, ![1024, C]⟩ : Shape).Idx → α) (n : Fin 16) : (⟨2, ![64, C]⟩ : Shape).Idx → α :=
  fun y => A (ix2 (rowOf n (y 0)) (y 1))

/-- The two running sums after the first `n` blocks: both start at zero; block `n` adds its rows' weighted
    log-probabilities to the first and its rows' validity flags to the second. -/
def accs (X : Vec F S1024x100000 .f32) (Tg : Vec F S1024x1 .i32) (Wt Vd : Vec F S1024x1 .f32) : ℕ → Elt F .f32 × Elt F .f32
  | 0 => (Scalar.ofBits .f32 0x00000000#32, Scalar.ofBits .f32 0x00000000#32)
  | n + 1 =>
    if h : n < 16 then
      (k1_pay3 (blockOf X ⟨n, h⟩) (blockOf Tg ⟨n, h⟩) (accs X Tg Wt Vd n).1 (blockOf Wt ⟨n, h⟩),
        k1_pay1 (accs X Tg Wt Vd n).2 (k1_pay4 (blockOf Vd ⟨n, h⟩)))
    else accs X Tg Wt Vd n

/-- The kernel's one output word: the negated quotient of the two sums after all 16 blocks. -/
def result (X : Vec F S1024x100000 .f32) (Tg : Vec F S1024x1 .i32) (Wt Vd : Vec F S1024x1 .f32) : Elt F .f32 :=
  k1_pay2 (accs X Tg Wt Vd 16).1 (accs X Tg Wt Vd 16).2

/-- The whole program's result from its argument arrays: the logits, targets and rewards reshaped to 1024 rows, the
    subcores' weights and flags as columns, the TensorCore kernel's word, reshaped to a scalar. -/
def kernelOut (x0 : Vec F S32x32x100000 .f32) (x1 : Vec F S32x32 .i32) (x3 : Vec F S32x32 .f32) : Vec F S_ .f32 :=
  let t1 : IVec S1024 32 := shapeCast S1024 x1 shapeCasts_S32x32_S1024
  let r1 : FVec F S1024 .f32 := shapeCast S1024 x3 shapeCasts_S32x32_S1024
  shapeCast S_ (fun _ : S1x1.Idx =>
    result (shapeCast S1024x100000 x0 shapeCasts_S32x32x100000_S1024x100000)
      (shapeCast S1024x1 t1 shapeCasts_S1024_S1024x1)
      (shapeCast S1024x1 (weightOf t1 r1) shapeCasts_S1024_S1024x1)
      (shapeCast S1024x1 (validOf (F := F) t1) shapeCasts_S1024_S1024x1)) shapeCasts_S1x1_S_

end Cert.Kernel.KVal

end
-- ==== Proof.KBCommon.lean ====
/-
  The program as the SparseCore launch theorem sees it, and what its handshakes carry.

  The 1024 flattened positions are cut into 32 consecutive pieces of 32; vector subcore `s` of SparseCore `c` works on
  piece `2 s + c`: it reads that piece of the flattened targets and rewards and writes the same piece of the weights and
  of the validity flags.  The call hands each SparseCore its sixteen pieces of the four arrays and takes them back with
  the two written arrays at `weightOf` / `validOf` of the flattened targets and rewards, piece by piece.
-/
import proofs.«213067_g2224793059754_cont_8to1_1641_35_alg».proof.Proof.KValB
import proofs.«213067_g2224793059754_cont_8to1_1641_35_alg».proof.Proof.Gen.Kernel.Launch
import proofs.«213067_g2224793059754_cont_8to1_1641_35_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the four arrays of the call, and the pieces -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev tLoc (d : Dev nD) : Loc nD τ sig := (SparseCore.T d).loc main_v1
abbrev rLoc (d : Dev nD) : Loc nD τ sig := (SparseCore.T d).loc main_v2
abbrev wLoc (d : Dev nD) : Loc nD τ sig := (SparseCore.T d).loc main_v3_0
abbrev vLoc (d : Dev nD) : Loc nD τ sig := (SparseCore.T d).loc main_v3_1

/-- The flattened targets and rewards, as @main's reshapes leave them. -/
def T1 (d : Dev nD) : Buf (Elt F) (tLoc d) := shapeCast S1024 (m (a1Loc d)) shapeCasts_S32x32_S1024
def R1 (d : Dev nD) : Buf (Elt F) (rLoc d) := shapeCast S1024 (m (a3Loc d)) shapeCasts_S32x32_S1024

variable [FloatOps F]

/-- What the subcores leave in the weights and in the validity flags. -/
def Wf (d : Dev nD) : Buf (Elt F) (wLoc d) := KVal.weightOf (T1 m d) (R1 m d)
def Vf (d : Dev nD) : Buf (Elt F) (vLoc d) := KVal.validOf (F := F) (T1 m d)

theorem hdiv : 32 ∣ S1024.size 0 := ⟨32, rfl⟩
/-- Piece `j` of the 1024 positions: positions `32 j … 32 j + 31`. -/
abbrev piece (j : Fin 32) : Rect S1024 := Rect.part (s := S1024) (a₀ := 0) hdiv j
abbrev pset (j : Fin 32) : Finset S1024.Idx := (piece j).set
/-- The piece of vector subcore `i` of SparseCore `c`. -/
def jOf (c : Fin 2) (i : Fin 16) : Fin 32 := ⟨2 * i.val + c.val, by omega⟩

/-- What a task is handed: its piece of the targets and rewards at their contents, of the two outputs at any. -/
def goP (d : Dev nD) (j : Fin 32) : sProp 𝕄 :=
  iprop((tLoc d ↦[pset j]{fullShare} T1 m d) ∗ (rLoc d ↦[pset j]{fullShare} R1 m d)
    ∗ (∃ f, wLoc d ↦[pset j]{fullShare} f) ∗ (∃ f, vLoc d ↦[pset j]{fullShare} f))
/-- What it hands back: the outputs' piece at the weights and the flags. -/
def tdP (d : Dev nD) (j : Fin 32) : sProp 𝕄 :=
  iprop((tLoc d ↦[pset j]{fullShare} T1 m d) ∗ (rLoc d ↦[pset j]{fullShare} R1 m d)
    ∗ (wLoc d ↦[pset j]{fullShare} Wf m d) ∗ (vLoc d ↦[pset j]{fullShare} Vf m d))

/-- The one call's payloads: each SparseCore its sixteen pieces, both ways. -/
def P : (K (F := F)).Pay (nD := nD) (Val := Elt F) (Name := ℕ) (U := UU) where
  st := fun q d c => match q with | 0 => bigSep Finset.univ fun i : Fin 16 => goP m d (jOf (Fin.cast nCore_zero c) i)
  dn := fun q d c => match q with | 0 => bigSep Finset.univ fun i : Fin 16 => tdP m d (jOf (Fin.cast nCore_zero c) i)
  go := fun q d c i => match q with | 0 => goP m d (jOf (Fin.cast nCore_zero c) (Fin.cast nSub_zero i))
  td := fun q d c i => match q with | 0 => tdP m d (jOf (Fin.cast nCore_zero c) (Fin.cast nSub_zero i))
  x := fun _ _ => iprop(emp)

instance goP_storable (d : Dev nD) (j : Fin 32) : BI.Storable (upEmb : UEmb _ 𝕄) (goP m d j) := by unfold goP; infer_instance
instance tdP_storable (d : Dev nD) (j : Fin 32) : BI.Storable (upEmb : UEmb _ 𝕄) (tdP m d j) := by unfold tdP; infer_instance

instance P_storable : (P (F := F) m).IsStorable where
  st q d c := match q with | 0 => (inferInstance : BI.Storable (upEmb : UEmb _ 𝕄) (bigSep Finset.univ fun i : Fin 16 => goP m d (jOf (Fin.cast nCore_zero c) i)))
  dn q d c := match q with | 0 => (inferInstance : BI.Storable (upEmb : UEmb _ 𝕄) (bigSep Finset.univ fun i : Fin 16 => tdP m d (jOf (Fin.cast nCore_zero c) i)))
  go q d c i := match q with | 0 => (inferInstance : BI.Storable (upEmb : UEmb _ 𝕄) (goP m d (jOf (Fin.cast nCore_zero c) (Fin.cast nSub_zero i))))
  td q d c i := match q with | 0 => (inferInstance : BI.Storable (upEmb : UEmb _ 𝕄) (tdP m d (jOf (Fin.cast nCore_zero c) (Fin.cast nSub_zero i))))

end Cert.Proof.KB

end
-- ==== Proof.KBRegion.lean ====
/-
  The TensorCore kernel's region: the arrays as the region finds them, the blocks of its windows, the two running sums
  its scratch words carry from one grid point to the next, and the proof data of the pipeline.

  Before the region @main has flattened the logits, targets and rewards, the vector subcores have written the weights
  and the validity flags, and three more reshapes have made columns of the targets, weights and flags.  At grid point
  `n` (block `n` of 64 rows) the body adds the block's contribution to the two scratch words; they hold `accs (n + 1)`
  afterwards.  The output word is written at the last point only.
-/
import proofs.«213067_g2224793059754_cont_8to1_1641_35_alg».proof.Proof.KBCommon

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations and the arrays between them -/

abbrev dr (b : Ref sig .tc) : DevRef τ sig := Proc.devRef .tc b

abbrev op1 : HloOp τ sig (Elt F) := StableHlo.reshape main_arg0 main_v0 rfl shapeCasts_S32x32x100000_S1024x100000
abbrev op2 : HloOp τ sig (Elt F) := StableHlo.reshape main_arg1 main_v1 rfl shapeCasts_S32x32_S1024
abbrev op3 : HloOp τ sig (Elt F) := StableHlo.reshape main_arg3 main_v2 rfl shapeCasts_S32x32_S1024
abbrev op4 : HloOp τ sig (Elt F) := StableHlo.reshape main_v1 main_v4 rfl shapeCasts_S1024_S1024x1
abbrev op5 : HloOp τ sig (Elt F) := StableHlo.reshape main_v3_0 main_v5 rfl shapeCasts_S1024_S1024x1
abbrev op6 : HloOp τ sig (Elt F) := StableHlo.reshape main_v3_1 main_v6 rfl shapeCasts_S1024_S1024x1
abbrev op7 : HloOp τ sig (Elt F) := StableHlo.reshape main_v7 main_v8 rfl shapeCasts_S1x1_S_

/-- The launch contents; -/
def V0 (d : Dev nD) : Valuation τ sig (Elt F) := fun b => m (d, b)
/-- after the three reshapes before the SparseCore call; -/
def V3 (d : Dev nD) : Valuation τ sig (Elt F) := StableHlo.after [op1, op2, op3] (V0 m d)
/-- after the call: the weights and the flags written; -/
def V4 (d : Dev nD) : Valuation τ sig (Elt F) := Function.update (Function.update (V3 m d) (dr main_v3_0) (Wf m d)) (dr main_v3_1) (Vf m d)
/-- as the region finds them: the three columns made. -/
def VR (d : Dev nD) : Valuation τ sig (Elt F) := StableHlo.after [op4, op5, op6] (V4 m d)

/-- The TensorCore's view of them. -/
abbrev VRr (c : Dev nD) (b : Ref sig .tc) : Buf (Elt F) ((c : Thread nD τ).loc b) := VR m c (Proc.devRef .tc b)

/-! ## The windows' blocks, the running sums, the proof data -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VRr m c (Pipeline.arrRef spec1 w))

/-- The two running sums after the first `n` blocks, over the arrays the region finds. -/
def accAt (c : Dev nD) (n : ℕ) : Elt F .f32 × Elt F .f32 :=
  KVal.accs (VRr m c main_v0) (VRr m c main_v4) (VRr m c main_v5) (VRr m c main_v6) n

/-- The scratch's two words holding them. -/
def accBuf (c : Dev nD) (n : ℕ) : Buf (Elt F) ((c : Thread nD τ).loc cc1_scratch0) :=
  fun j => if (j 0).val = 0 then (accAt m c n).1 else (accAt m c n).2

/-- The output word. -/
def outWord (c : Dev nD) : Elt F .f32 :=
  KVal.result (VRr m c main_v0) (VRr m c main_v4) (VRr m c main_v5) (VRr m c main_v6)

abbrev scrLoc (c : Dev nD) : Loc nD τ sig := (c : Thread nD τ).loc cc1_scratch0

/-- The proof data of the pipeline on core `c`: the arrays as the region finds them; after the body at point `t` each
    input's buffer at its block and the output's at the output word (consulted at the last point only: the window is
    idle before); between points the scratch's two words at the running sums (at anything before the first point);
    nothing owed; full shares. -/
def dats (_ : Fin 1) (c : Dev nD) : Dat τ (Elt F) (HIx 1) ℕ UU ℕ cfg1 c where
  A w := VRr m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => outWord m c
  Φ n := if n.val = 0 then iprop(∃ f, scrLoc c ↦{fullShare} f) else (scrLoc c ↦{fullShare} accBuf m c n.val)
  q _ := fullShare
  owed _ := 0

theorem A_eq (c : Dev nD) (w : Fin cfg1.W) : (dats m 0 c).A w = VRr m c (Pipeline.arrRef spec1 w) := by
  dsimp only [dats]

theorem after1_0 (c : Dev nD) (t : Fin cfg1.N) : (dats m 0 c).after 0 t = iblk m c 0 t := by dsimp only [dats]
theorem after1_1 (c : Dev nD) (t : Fin cfg1.N) : (dats m 0 c).after 1 t = iblk m c 1 t := by dsimp only [dats]
theorem after1_2 (c : Dev nD) (t : Fin cfg1.N) : (dats m 0 c).after 2 t = iblk m c 2 t := by dsimp only [dats]
theorem after1_3 (c : Dev nD) (t : Fin cfg1.N) : (dats m 0 c).after 3 t = iblk m c 3 t := by dsimp only [dats]
theorem after1_4 (c : Dev nD) (t : Fin cfg1.N) : (dats m 0 c).after 4 t = fun _ => outWord m c := by dsimp only [dats]

theorem Φ_zero (c : Dev nD) : (dats m 0 c).Φ 0 = iprop(∃ f, scrLoc c ↦{fullShare} f) := by
  dsimp only [dats]; rfl
theorem Φ_succ (c : Dev nD) (t : Fin cfg1.N) : (dats m 0 c).Φ t.succ = (scrLoc c ↦{fullShare} accBuf m c (t.val + 1)) := by
  dsimp only [dats]; exact if_neg (Nat.succ_ne_zero _)

end Cert.Proof.KB

end
-- ==== Proof.KBSeg.lean ====
/-
  The TensorCore region as a segment of @main, over the thread state "every unscoped buffer at a valuation": the
  region's arrays split out of the unscoped buffers at the entry and put back at the exit, the output array then holding
  the output word; the scratch words enter and leave through the pipeline's invariant; nothing is owed.
-/
import proofs.«213067_g2224793059754_cont_8to1_1641_35_alg».proof.Proof.KBRegion
import Idealize.ShloMosaic.Lib.Pipeline.FrameSuffix
import Idealize.ShloMosaic.Lib.Pipeline.RegionsLoop

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- No pipeline has a prefetched table. -/
abbrev adm : (p : Fin 1) → (pcfgs (F := F) p).Adm := fun p => (cfgs p).toPCfg_adm

/-- The proof data family: the one pipeline's. -/
def pdats : (p : Fin 1) → (c : Dev nD) → Dat τ (Elt F) (HIx 1) ℕ UU ℕ (Pipeline.pin (pcfgs (F := F)) adm p) c
  | ⟨0, _⟩ => fun c => dats m 0 c

/-- The buffers at the region's exit: its arrays at what the pipeline leaves, every other buffer as entered. -/
def VX (c : Dev nD) : Valuation τ sig (Elt F) :=
  Pipeline.withArrays spec1 c (VR m c) fun w => (dats m 0 c).arrAt w cfg1.N
abbrev VXr (c : Dev nD) (b : Ref sig .tc) : Buf (Elt F) ((c : Thread nD τ).loc b) := VX m c (Proc.devRef .tc b)

theorem VX_arr (c : Dev nD) (w : Fin cfg1.W) :
    VX m c (Proc.devRef .tc (Pipeline.arrRef spec1 w)) = (dats m 0 c).arrAt w cfg1.N := by
  unfold VX; exact Pipeline.withArrays_arr spec1 launch1.win.arr_inj c _ _ w
theorem VX_of_ne (c : Dev nD) (b : Ref sig .tc) (hb : ∀ w, Pipeline.arrRef spec1 w ≠ b) :
    VX m c (Proc.devRef .tc b) = VR m c (Proc.devRef .tc b) := by
  unfold VX; exact Pipeline.withArrays_of_ne spec1 c _ _ b hb
theorem hFX (c : Dev nD) (w : Fin cfg1.W) : (dats m 0 c).arrAt w cfg1.N = VXr m c (Pipeline.arrRef spec1 w) :=
  (VX_arr m c w).symm
theorem hrestX (c : Dev nD) : ∀ b, b ∉ Finset.univ.image (Pipeline.arrRef spec1) → VXr m c b = VRr m c b :=
  fun b hb => VX_of_ne m c b fun w e => hb (Finset.mem_image.mpr ⟨w, Finset.mem_univ _, e⟩)

/-- What rides beside the buffers: the core owing nothing. -/
abbrev RO (c : Dev nD) : sProp 𝕄 := iprop(∃ W, owes (c : Thread nD τ) (0 : CellTallies nD τ sig (HIx 1)) W)

set_option backward.isDefEq.respectTransparency.types false in
/-- The region over the thread state: entered from every unscoped buffer at `VR`, left at `VX`. -/
def reg (hb : ∀ c, BodyObligation (dats (F := F) m 0 c) (defs₀ (F := F)) Variants.none (none : HIx 1) Set.univ) :
    Pipeline.RegionSeg (pcfgs (F := F)) adm (pdats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ (K (F := F)).L (K (F := F)).lev 0 fun _ _ => rfl
  pre c := iprop(StableHlo.held (c : Thread nD τ) (Pipeline.ucRefs τ sig) (VR m c) ∗ RO c)
  post c := iprop(StableHlo.held (c : Thread nD τ) (Pipeline.ucRefs τ sig) (VX m c) ∗ RO c)
  X c := iprop(emp)
  Y c := iprop(emp)
  Z c := Pipeline.unscopedRest (Ix := HIx 1) (Name := ℕ) (U := UU) (Lvl := ℕ) spec1 c (VRr m c)
  hentry c := by
    rw [Pipeline.ownSems0_none]
    have hsplit := Pipeline.arrays_of_unscopedBufs (p := 0) (pcfgs (F := F)) adm (pdats m) launch1.win launch1.arr_whole c
      ((pdats m 0 c).share_full fun _ => rfl) (VRr m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = iprop(∃ f, scrLoc c ↦{fullShare} f) from Φ_zero m c, scopedRest1_eq]
    iintro ⟨-, -, Hr⟩
    iexact Hr
  hout c := by
    rw [Pipeline.ownSems0_none, scopedRest1_eq,
      show (pdats m 0 c).Φ (Fin.last _) = (scrLoc c ↦{fullShare} accBuf m c 16) from Φ_succ m c ⟨15, by decide⟩]
    iintro Hr
    isplitr; · iempintro
    isplitr; · iempintro
    iexists _; iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (VRr m c) (VXr m c) ((pdats m 0 c).arrAt · cfg1.N) (hFX m c) (hrestX m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KB

end
-- ==== Proof.KBTileSplit.lean ====
/-
  How the four arrays of the call are cut into the thirty-two pieces of the vector subcores and joined again.

  The pieces are the parts of the 1024 positions into 32 consecutive runs of 32: pairwise disjoint, and together all
  positions.  An array held whole is therefore the same as its 32 pieces held side by side, each at the one function of
  the whole array.  Subcore `i` of SparseCore `c` takes piece `2 i + c`; the pairs `(c, i)` name every piece once.
-/
import proofs.«213067_g2224793059754_cont_8to1_1641_35_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The pieces are disjoint and cover -/

theorem psets_disjoint : ∀ i ∈ (Finset.univ : Finset (Fin 32)), ∀ j ∈ (Finset.univ : Finset (Fin 32)), i ≠ j → Disjoint (pset i) (pset j) :=
  fun _ _ _ _ h => Rect.part_disjoint hdiv h

theorem psets_cover : (Finset.univ : Finset (Fin 32)).biUnion pset = Finset.univ := Rect.biUnion_part hdiv

/-! ## The pairs (SparseCore, subcore) name every piece once -/

theorem jOf_injOn : Set.InjOn (fun p : Fin 2 × Fin 16 => jOf p.1 p.2) ((Finset.univ : Finset (Fin 2)) ×ˢ (Finset.univ : Finset (Fin 16)) : Finset (Fin 2 × Fin 16)) := by
  rintro ⟨c, i⟩ - ⟨c', i'⟩ - h
  have h' : 2 * i.val + c.val = 2 * i'.val + c'.val := congrArg Fin.val h
  have hc := c.isLt; have hc' := c'.isLt
  have e1 : c = c' := Fin.ext (by omega)
  have e2 : i = i' := Fin.ext (by omega)
  rw [e1, e2]

theorem jOf_image : (((Finset.univ : Finset (Fin 2)) ×ˢ (Finset.univ : Finset (Fin 16))).image fun p : Fin 2 × Fin 16 => jOf p.1 p.2) = (Finset.univ : Finset (Fin 32)) := by
  ext j
  simp only [Finset.mem_image, Finset.mem_product, Finset.mem_univ, and_self, true_and, iff_true]
  exact ⟨(⟨j.val % 2, Nat.mod_lt _ (by omega)⟩, ⟨j.val / 2, by have := j.isLt; omega⟩), Fin.ext (by show 2 * (j.val / 2) + j.val % 2 = j.val; omega)⟩

/-- A family over the 32 pieces, gathered per SparseCore and per subcore. -/
theorem bigSep_pairs {M : Type} [URA M] (Φ : Fin 32 → sProp M) :
    (bigSep Finset.univ fun c : Fin 2 => bigSep Finset.univ fun i : Fin 16 => Φ (jOf c i)) = bigSep Finset.univ Φ := by
  rw [← SparseCore.bigSep_product Finset.univ Finset.univ (fun p : Fin 2 × Fin 16 => Φ (jOf p.1 p.2)),
    ← SparseCore.bigSep_image_of_injOn jOf_injOn Φ, jOf_image]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## The split of a SparseCore's operands among its subcores -/

theorem vecSplit : (K (F := F)).VecSplit' (P m) 0 := by
  intro d c
  show (bigSep Finset.univ fun i : Fin 16 => goP m d (jOf (Fin.cast nCore_zero c) i)) ⊢ |={Set.univ}=> iprop(
      (bigSep Finset.univ fun i : Fin ((K (F := F)).nSub 0) => goP m d (jOf (Fin.cast nCore_zero c) (Fin.cast nSub_zero i)))
      ∗ ((bigSep Finset.univ fun i : Fin ((K (F := F)).nSub 0) => tdP m d (jOf (Fin.cast nCore_zero c) (Fin.cast nSub_zero i)))
          -∗ (bigSep Finset.univ fun i : Fin 16 => tdP m d (jOf (Fin.cast nCore_zero c) i))))
  rw [bigSep_tasks (F := F) (fun i => goP m d (jOf (Fin.cast nCore_zero c) i)),
    bigSep_tasks (F := F) (fun i => tdP m d (jOf (Fin.cast nCore_zero c) i))]
  iintro H; imodintro
  isplitl [H]; · iexact H
  iintro H; iexact H

/-! ## The call's operands and results, per piece -/

theorem st0_eq (d : Dev nD) :
    (bigSep Finset.univ fun c : Fin ((K (F := F)).nCore 0) => (P m).st 0 d c) = bigSep (Finset.univ : Finset (Fin 32)) fun j => goP m d j := by
  show (bigSep Finset.univ fun c : Fin ((K (F := F)).nCore 0) => bigSep Finset.univ fun i : Fin 16 => goP m d (jOf (Fin.cast nCore_zero c) i)) = _
  rw [bigSep_cores (F := F) (fun c => bigSep Finset.univ fun i : Fin 16 => goP m d (jOf c i)), bigSep_pairs]

theorem dn0_eq (d : Dev nD) :
    (bigSep Finset.univ fun c : Fin ((K (F := F)).nCore 0) => (P m).dn 0 d c) = bigSep (Finset.univ : Finset (Fin 32)) fun j => tdP m d j := by
  show (bigSep Finset.univ fun c : Fin ((K (F := F)).nCore 0) => bigSep Finset.univ fun i : Fin 16 => tdP m d (jOf (Fin.cast nCore_zero c) i)) = _
  rw [bigSep_cores (F := F) (fun c => bigSep Finset.univ fun i : Fin 16 => tdP m d (jOf c i)), bigSep_pairs]

/-! ## Whole arrays and their pieces -/

omit [FloatOps F] in
theorem tPts_pieces (d : Dev nD) (f : Buf (Elt F) (tLoc d)) :
    (tLoc d ↦{fullShare} f : sProp 𝕄) = bigSep Finset.univ fun j : Fin 32 => tLoc d ↦[pset j]{fullShare} f := by
  rw [← pointsTo_biUnion Finset.univ (ℓ := tLoc d) pset psets_disjoint, psets_cover]; try rfl
omit [FloatOps F] in
theorem rPts_pieces (d : Dev nD) (f : Buf (Elt F) (rLoc d)) :
    (rLoc d ↦{fullShare} f : sProp 𝕄) = bigSep Finset.univ fun j : Fin 32 => rLoc d ↦[pset j]{fullShare} f := by
  rw [← pointsTo_biUnion Finset.univ (ℓ := rLoc d) pset psets_disjoint, psets_cover]; try rfl
omit [FloatOps F] in
theorem wPts_pieces (d : Dev nD) (f : Buf (Elt F) (wLoc d)) :
    (wLoc d ↦{fullShare} f : sProp 𝕄) = bigSep Finset.univ fun j : Fin 32 => wLoc d ↦[pset j]{fullShare} f := by
  rw [← pointsTo_biUnion Finset.univ (ℓ := wLoc d) pset psets_disjoint, psets_cover]; try rfl
omit [FloatOps F] in
theorem vPts_pieces (d : Dev nD) (f : Buf (Elt F) (vLoc d)) :
    (vLoc d ↦{fullShare} f : sProp 𝕄) = bigSep Finset.univ fun j : Fin 32 => vLoc d ↦[pset j]{fullShare} f := by
  rw [← pointsTo_biUnion Finset.univ (ℓ := vLoc d) pset psets_disjoint, psets_cover]; try rfl

theorem whole_to_pieces (d : Dev nD) (fw : Buf (Elt F) (wLoc d)) (fv : Buf (Elt F) (vLoc d)) :
    iprop((tLoc d ↦{fullShare} T1 m d) ∗ (rLoc d ↦{fullShare} R1 m d) ∗ (wLoc d ↦{fullShare} fw) ∗ (vLoc d ↦{fullShare} fv))
      ⊢ (bigSep (Finset.univ : Finset (Fin 32)) fun j => goP m d j : sProp 𝕄) := by
  unfold goP
  rw [bigSep_sep', bigSep_sep', bigSep_sep', tPts_pieces, rPts_pieces, wPts_pieces, vPts_pieces]
  have hw : (bigSep Finset.univ fun j : Fin 32 => (wLoc d ↦[pset j]{fullShare} fw : sProp 𝕄))
      ⊢ bigSep Finset.univ fun j : Fin 32 => iprop(∃ f, wLoc d ↦[pset j]{fullShare} f) :=
    bigSep_mono fun j _ => exists_intro (Φ := fun f => (wLoc d ↦[pset j]{fullShare} f : sProp 𝕄)) fw
  have hv : (bigSep Finset.univ fun j : Fin 32 => (vLoc d ↦[pset j]{fullShare} fv : sProp 𝕄))
      ⊢ bigSep Finset.univ fun j : Fin 32 => iprop(∃ f, vLoc d ↦[pset j]{fullShare} f) :=
    bigSep_mono fun j _ => exists_intro (Φ := fun f => (vLoc d ↦[pset j]{fullShare} f : sProp 𝕄)) fv
  iintro ⟨Ht, Hr, Hw, Hv⟩
  isplitl [Ht]; · iexact Ht
  isplitl [Hr]; · iexact Hr
  isplitl [Hw]
  · iapply hw; iexact Hw
  · iapply hv; iexact Hv

theorem pieces_to_whole (d : Dev nD) :
    (bigSep (Finset.univ : Finset (Fin 32)) fun j => tdP m d j : sProp 𝕄)
      ⊢ iprop((tLoc d ↦{fullShare} T1 m d) ∗ (rLoc d ↦{fullShare} R1 m d) ∗ (wLoc d ↦{fullShare} Wf m d) ∗ (vLoc d ↦{fullShare} Vf m d)) := by
  unfold tdP
  rw [bigSep_sep', bigSep_sep', bigSep_sep', tPts_pieces, rPts_pieces, wPts_pieces, vPts_pieces]

end Cert.Proof.KB

end
-- ==== Proof.KBTile.lean ====
/-
  The task of one vector subcore.

  Subcore `i` of SparseCore `c` is handed piece `2 i + c` of the flattened targets and rewards and of the two
  outputs.  It copies its piece of the targets and of the rewards into its first two scratch buffers, computes in two
  halves of sixteen lanes the validity flags `float (min t 1)` into the fourth scratch buffer and the weights
  `r * flag` into the third, and copies those two buffers onto its piece of the weights and of the flags.  Each copy
  is waited for at once on a semaphore of its own, so nothing is read or written while a copy is under way.  Element `y`
  of the piece is element `32 (2 i + c) + y` of the array, so the piece of the outputs ends at the weights and flags
  of the whole arrays there.
-/
import proofs.«213067_g2224793059754_cont_8to1_1641_35_alg».proof.Proof.KBTileSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The arrays and scratch buffers as a vector subcore's memrefs -/

abbrev tV : Memref sig .scVector .hbm S1024 .i32 := Memref.whole main_v1_scv
abbrev rV : Memref sig .scVector .hbm S1024 .f32 := Memref.whole main_v2_scv
abbrev wV : Memref sig .scVector .hbm S1024 .f32 := Memref.whole main_v3_0_scv
abbrev vV : Memref sig .scVector .hbm S1024 .f32 := Memref.whole main_v3_1_scv
abbrev s0 : Memref sig .scVector .vmem S32 .i32 := Memref.whole cc0_scratch0
abbrev s1 : Memref sig .scVector .vmem S32 .f32 := Memref.whole cc0_scratch1
abbrev s2 : Memref sig .scVector .vmem S32 .f32 := Memref.whole cc0_scratch2
abbrev s3 : Memref sig .scVector .vmem S32 .f32 := Memref.whole cc0_scratch3

/-! ## What the subcore computes, lane by lane -/

/-- A shape cast to the same shape changes nothing. -/
theorem shapeCast_same {s : Shape} {α : Type} (v : s.Idx → α) (h : s.ShapeCasts s) : shapeCast s v h = v :=
  funext fun i => congrArg v (Shape.reshapeEquiv_self _ i)

theorem cast_cancel {α β : Type} (h : α = β) {a b : α} (e : cast h a = cast h b) : a = b := by
  subst h; exact e

section Value

variable [FloatOps F]

theorem pay2_apply (v3 : Vec F S16 .i32) (x : S16.Idx) : k0_pay2 v3 x = KVal.validAt (v3 x) := by
  unfold k0_pay2 k0_pay1; simp only [shapeCast_same]; rfl
theorem pay3_apply (v3 : Vec F S16 .i32) (v11 : Vec F S16 .f32) (x : S16.Idx) :
    k0_pay3 v3 v11 x = FloatOps.mulf (v11 x) (KVal.validAt (v3 x)) := by
  unfold k0_pay3 k0_pay1; simp only [shapeCast_same]; rfl
theorem pay5_apply (v17 : Vec F S16 .i32) (x : S16.Idx) : k0_pay5 v17 x = KVal.validAt (v17 x) := by
  unfold k0_pay5 k0_pay4; simp only [shapeCast_same]; rfl
theorem pay6_apply (v17 : Vec F S16 .i32) (v25 : Vec F S16 .f32) (x : S16.Idx) :
    k0_pay6 v17 v25 x = FloatOps.mulf (v25 x) (KVal.validAt (v17 x)) := by
  unfold k0_pay6 k0_pay4; simp only [shapeCast_same]; rfl

end Value

/-- Lanes 0–15 and lanes 16–31 of a scratch buffer. -/
abbrev rLo : Rect S32 := Rect.unit (s := S32) ![0] S16.size inb_S32_S16_0
abbrev rHi : Rect S32 := Rect.unit (s := S32) ![16] S16.size inb_S32_S16_16

theorem halves_cover (y : S32.Idx) : y ∈ rLo.set ∨ y ∈ rHi.set := by
  rw [Rect.mem_set_unit, Rect.mem_set_unit]
  have hy : (y 0).val < 32 := (y 0).isLt
  by_cases h : (y 0).val < 16
  · left; exact Fin.forall_fin_one.mpr ⟨Nat.zero_le _, (show (y 0).val < 0 + 16 by omega)⟩
  · right; exact Fin.forall_fin_one.mpr ⟨(show 16 ≤ (y 0).val by omega), (show (y 0).val < 16 + 16 by omega)⟩

section Reads

variable {κ : Kind} {sp : Space} {Val : EltTy → Type}

/-- After the two half stores every lane reads its half's payload: whatever function of the lane both halves agree with. -/
theorem read_halves {e : EltTy} (v : View sig κ sp S32 e) (f : v.ty.Contents Val) (wlo : rLo.shape.Idx → Val e) (whi : rHi.shape.Idx → Val e)
    (G : S32.Idx → Val e) (hlo : ∀ x, wlo x = G (rLo.emb x)) (hhi : ∀ x, whi x = G (rHi.emb x)) (y : S32.Idx) :
    v.read Val (v.writes Val f [⟨rHi, whi⟩, ⟨rLo, wlo⟩]) y = G y := by
  refine View.read_writes_apply_of_pieces v f G _ ?_ y ?_
  · intro p hp x
    rcases List.mem_cons.mp hp with rfl | hp
    · exact hhi x
    rcases List.mem_cons.mp hp with rfl | hp
    · exact hlo x
    · exact absurd hp List.not_mem_nil
  · rcases halves_cover y with h | h
    · exact ⟨⟨rLo, wlo⟩, List.mem_cons_of_mem _ List.mem_cons_self, h⟩
    · exact ⟨⟨rHi, whi⟩, List.mem_cons_self, h⟩

/-- A load from a buffer a copy has filled whole reads the copy's payload at the lanes loaded. -/
theorem readCov_whole_apply [∀ e, Nonempty (Val e)] {s : Shape} {e : EltTy} (v : View sig κ sp s e) (g : s.Idx → Val e) (B : LoadRect s) (j : B.shape.Idx) :
    v.readCov [⟨Rect.whole s, g⟩] B j = g (B.idx j) := by
  have h := View.read_writes_cons_emb v v.junk (Rect.whole s) g [] (B.idx j)
  rw [Rect.emb_whole_apply] at h
  exact h

/-- A piece a copy has filled whole holds, element by element, what the copy carried. -/
theorem writes_whole_congr {s : Shape} {e : EltTy} (v : View sig κ sp s e) (f G : v.ty.Contents Val) (g : s.Idx → Val e)
    (h : ∀ y, g y = v.read Val G y) : ∀ i ∈ v.set, v.writes Val f [⟨Rect.whole s, g⟩] i = G i := by
  intro i hi
  obtain ⟨y, -, rfl⟩ := Finset.mem_map.mp hi
  have h1 : v.read Val (v.writes Val f [⟨Rect.whole s, g⟩]) y = v.read Val G y := by
    have h2 := View.read_writes_cons_emb v f (Rect.whole s) g [] y
    rw [Rect.emb_whole_apply] at h2
    rw [h2, h y]
  rw [View.read_apply, View.read_apply] at h1
  exact cast_cancel _ h1

end Reads

section Scratch

variable [FloatOps F] {κ : Kind} {sp : Space}

/-- The flags' scratch buffer after its two half stores, read back: each lane is the flag of the target word there. -/
theorem scr3_read (v0 : View sig κ sp S32 .i32) (v3 : View sig κ sp S32 .f32) (tt : S32.Idx → Elt F .i32) (f3 : v3.ty.Contents (Elt F)) (y : S32.Idx) :
    v3.read (Elt F) (v3.writes (Elt F) f3
      [⟨rHi, k0_pay5 (v0.readCov [⟨Rect.whole S32, tt⟩] rHi.toLoadRect)⟩,
        ⟨rLo, k0_pay2 (v0.readCov [⟨Rect.whole S32, tt⟩] rLo.toLoadRect)⟩]) y = KVal.validAt (F := F) (tt y) :=
  read_halves v3 f3 _ _ (fun y => KVal.validAt (F := F) (tt y))
    (fun x => by rw [pay2_apply, readCov_whole_apply]; rfl) (fun x => by rw [pay5_apply, readCov_whole_apply]; rfl) y

/-- The weights' scratch buffer after its two half stores, read back: each lane is the reward there times that flag. -/
theorem scr2_read (v0 : View sig κ sp S32 .i32) (v1 v2 : View sig κ sp S32 .f32) (tt : S32.Idx → Elt F .i32) (rr : S32.Idx → Elt F .f32)
    (f2 : v2.ty.Contents (Elt F)) (y : S32.Idx) :
    v2.read (Elt F) (v2.writes (Elt F) f2
      [⟨rHi, k0_pay6 (v0.readCov [⟨Rect.whole S32, tt⟩] rHi.toLoadRect) (v1.readCov [⟨Rect.whole S32, rr⟩] rHi.toLoadRect)⟩,
        ⟨rLo, k0_pay3 (v0.readCov [⟨Rect.whole S32, tt⟩] rLo.toLoadRect) (v1.readCov [⟨Rect.whole S32, rr⟩] rLo.toLoadRect)⟩]) y
      = FloatOps.mulf (rr y) (KVal.validAt (F := F) (tt y)) :=
  read_halves v2 f2 _ _ (fun y => FloatOps.mulf (rr y) (KVal.validAt (F := F) (tt y)))
    (fun x => by rw [pay3_apply, readCov_whole_apply, readCov_whole_apply]; rfl)
    (fun x => by rw [pay6_apply, readCov_whole_apply, readCov_whole_apply]; rfl) y

end Scratch

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The piece of the subcore at grid point `L`. -/
abbrev jL (L : grid0.Coords) : Fin 32 := jOf (Fin.cast bound_zero (L 0)) (Fin.cast bound_one (L 1))

/-- The piece as the program slices it. -/
abbrev pieceK (L : grid0.Coords) : Rect S1024 := Rect.unit (s := S1024) (k0_off1 L) S32.size (k0_off1_inb L)
abbrev tK (L : grid0.Coords) : Memref sig .scVector .hbm S32 .i32 := (tV : Memref sig .scVector .hbm S1024 .i32).slice (pieceK L) (fun _ => rfl)
abbrev rK (L : grid0.Coords) : Memref sig .scVector .hbm S32 .f32 := (rV : Memref sig .scVector .hbm S1024 .f32).slice (pieceK L) (fun _ => rfl)
abbrev wK (L : grid0.Coords) : Memref sig .scVector .hbm S32 .f32 := (wV : Memref sig .scVector .hbm S1024 .f32).slice (pieceK L) (fun _ => rfl)
abbrev vK (L : grid0.Coords) : Memref sig .scVector .hbm S32 .f32 := (vV : Memref sig .scVector .hbm S1024 .f32).slice (pieceK L) (fun _ => rfl)

theorem pieceK_eq : pieceK L = piece (jL L) := by
  unfold pieceK piece Rect.part Rect.block
  congr 1 <;> funext a
  · rw [k0_off1_eq]
    match a with
    | 0 => show 64 * (L 1).val + 32 * (L 0).val = (2 * (L 1).val + (L 0).val) * 32; omega
  · match a with
    | 0 => simp [Shape.partSize]

theorem set_tK : (tK L).view.set = pset (jL L) := by
  show ((View.whole (main_v1_scv : Ref sig .scVector)).slice (pieceK L)).set = _
  rw [View.set_slice, pieceK_eq]; exact Finset.map_refl
theorem set_rK : (rK L).view.set = pset (jL L) := by
  show ((View.whole (main_v2_scv : Ref sig .scVector)).slice (pieceK L)).set = _
  rw [View.set_slice, pieceK_eq]; exact Finset.map_refl
theorem set_wK : (wK L).view.set = pset (jL L) := by
  show ((View.whole (main_v3_0_scv : Ref sig .scVector)).slice (pieceK L)).set = _
  rw [View.set_slice, pieceK_eq]; exact Finset.map_refl
theorem set_vK : (vK L).view.set = pset (jL L) := by
  show ((View.whole (main_v3_1_scv : Ref sig .scVector)).slice (pieceK L)).set = _
  rw [View.set_slice, pieceK_eq]; exact Finset.map_refl

theorem pts_tK (f : Buf (Elt F) (tLoc d)) :
    ((tK L).view.loc (V d (cV L) (jV L)) ↦[(tK L).view.set]{fullShare} f : sProp 𝕄) = tLoc d ↦[pset (jL L)]{fullShare} f := by
  rw [set_tK]
theorem pts_rK (f : Buf (Elt F) (rLoc d)) :
    ((rK L).view.loc (V d (cV L) (jV L)) ↦[(rK L).view.set]{fullShare} f : sProp 𝕄) = rLoc d ↦[pset (jL L)]{fullShare} f := by
  rw [set_rK]
theorem pts_wK (f : Buf (Elt F) (wLoc d)) :
    ((wK L).view.loc (V d (cV L) (jV L)) ↦[(wK L).view.set]{fullShare} f : sProp 𝕄) = wLoc d ↦[pset (jL L)]{fullShare} f := by
  rw [set_wK]
theorem pts_vK (f : Buf (Elt F) (vLoc d)) :
    ((vK L).view.loc (V d (cV L) (jV L)) ↦[(vK L).view.set]{fullShare} f : sProp 𝕄) = vLoc d ↦[pset (jL L)]{fullShare} f := by
  rw [set_vK]

theorem pts_s0 (f : Buf (Elt F) ((V d (cV L) (jV L)).loc cc0_scratch0)) :
    ((s0 : Memref sig .scVector .vmem S32 .i32).view.loc (V d (cV L) (jV L)) ↦[(s0 : Memref sig .scVector .vmem S32 .i32).view.set]{fullShare} f : sProp 𝕄)
      = (V d (cV L) (jV L)).loc cc0_scratch0 ↦{fullShare} f := by
  simp only [Memref.view_whole, View.set_whole]
theorem pts_s1 (f : Buf (Elt F) ((V d (cV L) (jV L)).loc cc0_scratch1)) :
    ((s1 : Memref sig .scVector .vmem S32 .f32).view.loc (V d (cV L) (jV L)) ↦[(s1 : Memref sig .scVector .vmem S32 .f32).view.set]{fullShare} f : sProp 𝕄)
      = (V d (cV L) (jV L)).loc cc0_scratch1 ↦{fullShare} f := by
  simp only [Memref.view_whole, View.set_whole]
theorem pts_s2 (f : Buf (Elt F) ((V d (cV L) (jV L)).loc cc0_scratch2)) :
    ((s2 : Memref sig .scVector .vmem S32 .f32).view.loc (V d (cV L) (jV L)) ↦[(s2 : Memref sig .scVector .vmem S32 .f32).view.set]{fullShare} f : sProp 𝕄)
      = (V d (cV L) (jV L)).loc cc0_scratch2 ↦{fullShare} f := by
  simp only [Memref.view_whole, View.set_whole]
theorem pts_s3 (f : Buf (Elt F) ((V d (cV L) (jV L)).loc cc0_scratch3)) :
    ((s3 : Memref sig .scVector .vmem S32 .f32).view.loc (V d (cV L) (jV L)) ↦[(s3 : Memref sig .scVector .vmem S32 .f32).view.set]{fullShare} f : sProp 𝕄)
      = (V d (cV L) (jV L)).loc cc0_scratch3 ↦{fullShare} f := by
  simp only [Memref.view_whole, View.set_whole]

/-! ## The subcore's four semaphores and four scratch buffers among its own -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

/-- Element `y` of the subcore's piece of the flags is the flag of element `y` of its piece of the targets. -/
theorem Vf_read (y : S32.Idx) :
    (vK L).view.read (Elt F) (Vf m d) y = KVal.validAt (F := F) (ReadAs.same.apply ((tK L).view.read (Elt F) (T1 m d)) y) := rfl
/-- Element `y` of its piece of the weights is element `y` of its piece of the rewards times that flag. -/
theorem Wf_read (y : S32.Idx) :
    (wK L).view.read (Elt F) (Wf m d) y
      = FloatOps.mulf (ReadAs.same.apply ((rK L).view.read (Elt F) (R1 m d)) y) (KVal.validAt (F := F) (ReadAs.same.apply ((tK L).view.read (Elt F) (T1 m d)) y)) := rfl

theorem tile_body (hF : (K (F := F)).Facts) (O : CellTallies nD τ sig (HIx 1)) (W : Waits sig (HIx 1)) (hO : ∀ g, O g none = 0) :
    iprop(levAts (K (F := F)).L (K (F := F)).lev ∗ emp ∗ goP m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) rV (Memref.isWhole_whole _) wV (Memref.isWhole_whole _) vV (Memref.isWhole_whole _)
            s0 (Memref.isWhole_whole _) s1 (Memref.isWhole_whole _) s2 (Memref.isWhole_whole _) s3 (Memref.isWhole_whole _)
            cc0_scoped0 cc0_scoped1 cc0_scoped2 cc0_scoped3)
          fun _ => iprop(tdP m d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goP tdP
  iintro ⟨#Hlv, -, ⟨Ht, Hr, ⟨%fw, Hw⟩, ⟨%fv, Hv⟩⟩, ⟨⟨%f0, H0⟩, ⟨%f1, H1⟩, ⟨%f2, H2⟩, ⟨%f3, H3⟩, Hbufs⟩, ⟨Hsem0, Hsem1, Hsem2, Hsem3, Hsems⟩, HO⟩
  ihave Hmw := ((K (F := F)).mayWaits_none (thr := V d (cV L) (jV L)) hO) $$ Hlv
  ihave Ht' := (Entails.of_eq (pts_tK (F := F) d L _).symm) $$ Ht
  ihave Hr' := (Entails.of_eq (pts_rK (F := F) d L _).symm) $$ Hr
  ihave Hw' := (Entails.of_eq (pts_wK (F := F) d L _).symm) $$ Hw
  ihave Hv' := (Entails.of_eq (pts_vK (F := F) d L _).symm) $$ Hv
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  sl_exec
  sl_step
  -- what the two outbound copies carried, lane by lane
  have hw : ∀ y, tile_body.sl.dma12 m d L f2 y = (wK L).view.read (Elt F) (Wf m d) y := fun y =>
    (scr2_read (F := F) s0.view s1.view s2.view (tile_body.sl.dma0 m d L) (tile_body.sl.dma0_1 m d L) f2 y).trans (Wf_read m d L y).symm
  have hv : ∀ y, tile_body.sl.dma12_1 m d L f3 y = (vK L).view.read (Elt F) (Vf m d) y := fun y =>
    (scr3_read (F := F) s0.view s3.view (tile_body.sl.dma0 m d L) f3 y).trans (Vf_read m d L y).symm
  isplitl [Ht' Hr' Hw' Hv']
  · isplitl [Ht']; · iapply (Entails.of_eq (pts_tK (F := F) d L _)); iexact Ht'
    isplitl [Hr']; · iapply (Entails.of_eq (pts_rK (F := F) d L _)); iexact Hr'
    isplitl [Hw']
    · iapply (Entails.of_eq (pts_wK (F := F) d L _))
      iapply (Entails.of_eq (pointsTo_congr (writes_whole_congr (wK L).view fw (Wf m d) _ hw))); iexact Hw'
    · iapply (Entails.of_eq (pts_vK (F := F) d L _))
      iapply (Entails.of_eq (pointsTo_congr (writes_whole_congr (vK L).view fv (Vf m d) _ hv))); iexact Hv'
  isplitl [H0' H1' H2' H3' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, none) (insert (SemLoc.dma cc0_scoped2.sem, none)
    (insert (SemLoc.dma cc0_scoped1.sem, none) (insert (SemLoc.dma cc0_scoped0.sem, none) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation for the vector subcores -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_k (coordsV c s)
          tV (Memref.isWhole_whole _) rV (Memref.isWhole_whole _) wV (Memref.isWhole_whole _) vV (Memref.isWhole_whole _)
          s0 (Memref.isWhole_whole _) s1 (Memref.isWhole_whole _) s2 (Memref.isWhole_whole _) s3 (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KB

end
-- ==== Proof.KBBody.lean ====
/-
  The body obligation of the TensorCore kernel's pipeline.

  At grid point `t` the body is handed the four input blocks (rows `64 t … 64 t + 63` of the logits, the target column,
  the weight column and the validity column), the output's one word and the scratch's two words.  It adds the block's
  contribution to the two words: word 0 gains the sum over the block's rows of the weighted log-probabilities (`k1_pay3`), word 1
  the sum of its validity flags (`k1_pay1` of `k1_pay4`): `stepBuf`.  At the first point it stores zero into both words before; at the last point it also stores zero minus
  word 0 divided by the larger of word 1 and one into the output word (`k1_pay2`).  So there are three cases of the two conditionals — first point,
  a middle point, last point (the grid has sixteen points, so the first is not the last) —, each run on whole memrefs
  at named contents (`runA`, `runB`, `runC`).

  The pipeline's proof data say the scratch holds `accBuf n` — the running sums after `n` blocks — between points; one
  step of the recursion defining the sums is `stepBuf` over the blocks of 64 rows (`accBuf_succ`), and the windows'
  blocks are those blocks (`iblk0_eq` … `iblk3_eq`: a block's coordinate is index × size + the coordinate inside the
  block, and the index maps send point `t` to block row `t`, block column 0).  The output window is idle before the
  last point: there the body hands its buffer back as it found it.
-/
import proofs.«213067_g2224793059754_cont_8to1_1641_35_alg».proof.Proof.KBRegion
import Idealize.ShloMosaic.Lib.WritesUnit
import Idealize.ShloMosaic.Lib.WholeRead
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The condition of the first conditional: the point is the first. -/
abbrev cond1 (i : grid1.Coords) : Prop := (Scalar.cmpi .ne (Scalar.extui (Scalar.cmpi .eq (BitVec.ofNat 32 (i 0).val) 0#32)) 0#32) = 1#1
/-- The condition of the second conditional: the point is the last. -/
abbrev cond2 (i : grid1.Coords) : Prop := k1_cond2 i = 1#1

/-- The scratch's two words after the body's two accumulating stores, from the four blocks and the two words before. -/
def stepBuf (x0 : Vec F S64x100000 .f32) (x1 : Vec F S64x1 .i32) (x2 x3 : Vec F S64x1 .f32) (s : Vec F S2 .f32) : Vec F S2 .f32 :=
  fun j => if (j 0).val = 0 then k1_pay3 x0 x1 (s (ValueIdx.ix1 (0 : Fin 2))) x2 else k1_pay1 (s (ValueIdx.ix1 (1 : Fin 2))) (k1_pay4 x3)

theorem stepBuf_word0 (x0 : Vec F S64x100000 .f32) (x1 : Vec F S64x1 .i32) (x2 x3 : Vec F S64x1 .f32) (s : Vec F S2 .f32) :
    stepBuf x0 x1 x2 x3 s (ValueIdx.ix1 (0 : Fin 2)) = k1_pay3 x0 x1 (s (ValueIdx.ix1 (0 : Fin 2))) x2 := by
  unfold stepBuf; exact if_pos rfl
theorem stepBuf_word1 (x0 : Vec F S64x100000 .f32) (x1 : Vec F S64x1 .i32) (x2 x3 : Vec F S64x1 .f32) (s : Vec F S2 .f32) :
    stepBuf x0 x1 x2 x3 s (ValueIdx.ix1 (1 : Fin 2)) = k1_pay1 (s (ValueIdx.ix1 (1 : Fin 2))) (k1_pay4 x3) := by
  unfold stepBuf; exact if_neg (by decide)
theorem stepBuf_congr {x0 x0' : Vec F S64x100000 .f32} {x1 x1' : Vec F S64x1 .i32} {x2 x2' x3 x3' : Vec F S64x1 .f32} (h0 : x0 = x0') (h1 : x1 = x1') (h2 : x2 = x2') (h3 : x3 = x3')
    (s : Vec F S2 .f32) : stepBuf x0 x1 x2 x3 s = stepBuf x0' x1' x2' x3' s := by
  subst h0 h1 h2 h3; rfl

/-! ## Reads through whole memrefs and of the two scratch words -/

theorem hz2 : (![0, 0] : Fin 2 → Nat) = fun _ => 0 := funext fun a => by fin_cases a <;> rfl

/-- A load of a whole memref's full rectangle at zero offsets, the memref held at the contents that read `X`, reads `X`. -/
theorem readAt_full_unread {Val : EltTy → Type} {sg : RefSig} {κ : Kind} {sp : Space} {S : Shape} {e : EltTy} {mr : Memref sg κ sp S e} (h : mr.IsWhole)
    {off : Fin S.rank → Nat} (hz : off = fun _ => 0) (inb : ∀ a, off a + S.size a ≤ S.size a) (X : S.Idx → Val e) :
    View.readAt Val mr.view (Rect.unit off S.size inb).toLoadRect (h.unread X) = X := by
  subst hz; funext y; rw [h.readAt_unread]; show X ((Rect.whole S).emb y) = X y; rw [Rect.emb_whole_apply]

section Words
variable {Val : EltTy → Type} {sg : RefSig} {κ : Kind} {sp : Space} (v : View sg κ sp S2 .f32) (f : v.ty.Contents Val)

/-- The index a one-word load at offset `o` of the two-word buffer reads. -/
theorem idx_word (o : ℕ) (ho : o < 2) (inb : ∀ a, (![o] : Fin 1 → Nat) a + S1.size a ≤ S2.size a) (x : (Rect.unit (s := S2) ![o] S1.size inb).toLoadRect.shape.Idx) :
    (Rect.unit (s := S2) ![o] S1.size inb).toLoadRect.idx x = ValueIdx.ix1 (⟨o, ho⟩ : Fin 2) := by
  funext a; apply Fin.ext
  match a with
  | ⟨0, _⟩ =>
    show o + 1 * (x 0).val = o
    have : (x 0).val < 1 := (x 0).isLt
    omega

theorem idx_word0 (inb : ∀ a, (![0] : Fin 1 → Nat) a + S1.size a ≤ S2.size a) (x : (Rect.unit (s := S2) ![0] S1.size inb).toLoadRect.shape.Idx) :
    (Rect.unit (s := S2) ![0] S1.size inb).toLoadRect.idx x = ValueIdx.ix1 (0 : Fin 2) := idx_word 0 (by decide) inb x
theorem idx_word1 (inb : ∀ a, (![1] : Fin 1 → Nat) a + S1.size a ≤ S2.size a) (x : (Rect.unit (s := S2) ![1] S1.size inb).toLoadRect.shape.Idx) :
    (Rect.unit (s := S2) ![1] S1.size inb).toLoadRect.idx x = ValueIdx.ix1 (1 : Fin 2) := idx_word 1 (by decide) inb x

/-- After a store of word 0, word 1 reads as before. -/
theorem read_word1_after0 (inb0 : ∀ a, (![0] : Fin 1 → Nat) a + S1.size a ≤ S2.size a) (w : (Rect.unit (s := S2) ![0] S1.size inb0).shape.Idx → Val .f32) (L : List (View.Piece Val S2 .f32)) :
    v.read Val (v.writes Val f ((⟨Rect.unit (s := S2) ![0] S1.size inb0, w⟩ : View.Piece Val S2 .f32) :: L)) (ValueIdx.ix1 (1 : Fin 2))
      = v.read Val (v.writes Val f L) (ValueIdx.ix1 (1 : Fin 2)) :=
  View.read_writes_cons_unit_of_not_mem v f inb0 w L _ rfl 0 (Or.inr (by decide))

/-- After a store of word 1, word 0 reads as before. -/
theorem read_word0_after1 (inb1 : ∀ a, (![1] : Fin 1 → Nat) a + S1.size a ≤ S2.size a) (w : (Rect.unit (s := S2) ![1] S1.size inb1).shape.Idx → Val .f32) (L : List (View.Piece Val S2 .f32)) :
    v.read Val (v.writes Val f ((⟨Rect.unit (s := S2) ![1] S1.size inb1, w⟩ : View.Piece Val S2 .f32) :: L)) (ValueIdx.ix1 (0 : Fin 2))
      = v.read Val (v.writes Val f L) (ValueIdx.ix1 (0 : Fin 2)) :=
  View.read_writes_cons_unit_of_not_mem v f inb1 w L _ rfl 0 (Or.inl (by decide))

/-- A store of word 0 is what word 0 reads. -/
theorem read_word0_at0 (inb0 : ∀ a, (![0] : Fin 1 → Nat) a + S1.size a ≤ S2.size a) (a : Val .f32) (L : List (View.Piece Val S2 .f32)) :
    v.read Val (v.writes Val f ((⟨Rect.unit (s := S2) ![0] S1.size inb0, fun _ => a⟩ : View.Piece Val S2 .f32) :: L)) (ValueIdx.ix1 (0 : Fin 2)) = a :=
  View.read_writes_cons_unit_of_mem v f inb0 (fun _ => a) L _ (ValueIdx.ix1 (0 : Fin 1)) rfl (fun a => by match a with | ⟨0, _⟩ => rfl)

/-- A store of word 1 is what word 1 reads. -/
theorem read_word1_at1 (inb1 : ∀ a, (![1] : Fin 1 → Nat) a + S1.size a ≤ S2.size a) (b : Val .f32) (L : List (View.Piece Val S2 .f32)) :
    v.read Val (v.writes Val f ((⟨Rect.unit (s := S2) ![1] S1.size inb1, fun _ => b⟩ : View.Piece Val S2 .f32) :: L)) (ValueIdx.ix1 (1 : Fin 2)) = b :=
  View.read_writes_cons_unit_of_mem v f inb1 (fun _ => b) L _ (ValueIdx.ix1 (0 : Fin 1)) rfl (fun a => by match a with | ⟨0, _⟩ => rfl)

/-- Every index of the two-word buffer is word 0 or word 1. -/
theorem idx_S2_cases (j : S2.Idx) : (j = ValueIdx.ix1 (0 : Fin 2) ∧ (j 0).val = 0) ∨ (j = ValueIdx.ix1 (1 : Fin 2) ∧ (j 0).val ≠ 0) := by
  have hj : (j 0).val < 2 := (j 0).isLt
  rcases Nat.lt_or_ge (j 0).val 1 with h | h
  · left; refine ⟨?_, by omega⟩; rw [ValueIdx.eq_ix1 j]; congr 1; apply Fin.ext; show (j 0).val = 0; omega
  · right; refine ⟨?_, by omega⟩; rw [ValueIdx.eq_ix1 j]; congr 1; apply Fin.ext; show (j 0).val = 1; omega
end Words

set_option maxHeartbeats 1000000 in
theorem runB (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : ¬cond1 i) (hc2 : ¬cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d5 ∗ owns (c : Thread nD τ) arg6 fullShare (stepBuf x0 x1 x2 x3 s)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf6
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; · ipureintro; exact hf5
    iexact H5
  iexists _; isplitr; swap; · iexact H6
  ipureintro
  funext j
  unfold runB.sl.r runB.sl.r_1 runB.sl.f
  rw [readAt_full_unread harg1 hz2, readAt_full_unread harg2 hz2, readAt_full_unread harg3 hz2, readAt_full_unread harg4 hz2]
  rw [harg6.readAt_unread, harg6.readAt_unread, idx_word0, idx_word1]
  rcases idx_S2_cases j with ⟨rfl, h⟩ | ⟨rfl, h⟩
  · rw [read_word0_after1, read_word0_at0]; unfold stepBuf; rw [if_pos h]
  · rw [read_word1_at1]; unfold stepBuf; rw [if_neg h]

set_option maxHeartbeats 1000000 in
theorem runA (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : cond1 i) (hc2 : ¬cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ (∃ s0, owns (c : Thread nD τ) arg6 fullShare s0)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d5 ∗ owns (c : Thread nD τ) arg6 fullShare (stepBuf x0 x1 x2 x3 (fun _ => Scalar.ofBits .f32 0x00000000#32))) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%s0, %f6, -, H6⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; · ipureintro; exact hf5
    iexact H5
  iexists _; isplitr; swap; · iexact H6
  ipureintro
  funext j
  rw [readAt_full_unread harg1 hz2, readAt_full_unread harg2 hz2, readAt_full_unread harg3 hz2, readAt_full_unread harg4 hz2]
  rcases idx_S2_cases j with ⟨rfl, h⟩ | ⟨rfl, h⟩
  · rw [read_word0_after1, read_word0_at0]; unfold stepBuf; rw [if_pos h]; rfl
  · rw [read_word1_at1]; unfold stepBuf; rw [if_neg h]; rfl

set_option maxHeartbeats 1000000 in
theorem runC (c : Dev nD) (i : grid1.Coords) (arg1 : Memref sig .tc .vmem S64x100000 .f32) (harg1 : arg1.IsWhole) (arg2 : Memref sig .tc .vmem S64x1 .i32) (harg2 : arg2.IsWhole) (arg3 : Memref sig .tc .vmem S64x1 .f32) (harg3 : arg3.IsWhole) (arg4 : Memref sig .tc .vmem S64x1 .f32) (harg4 : arg4.IsWhole) (arg5 : Memref sig .tc .smem S1x1 .f32) (harg5 : arg5.IsWhole) (arg6 : Memref sig .tc .smem S2 .f32) (harg6 : arg6.IsWhole)
    (hc1 : ¬cond1 i) (hc2 : cond2 i)
    (x0 : Vec F S64x100000 .f32) (x1 : Vec F S64x1 .i32) (x2 : Vec F S64x1 .f32) (x3 : Vec F S64x1 .f32) (d5 : Vec F S1x1 .f32) (s : Vec F S2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d5 ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (fun _ => k1_pay2 (stepBuf x0 x1 x2 x3 s (ValueIdx.ix1 (0 : Fin 2))) (stepBuf x0 x1 x2 x3 s (ValueIdx.ix1 (1 : Fin 2)))) ∗ owns (c : Thread nD τ) arg6 fullShare (stepBuf x0 x1 x2 x3 s)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf6
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr; swap; · iexact H5
    ipureintro
    funext j
    rw [View.read_writes_cons_unit_of_mem arg5.view f5 inb_S1x1_S1x1_0_0 _ [] j j rfl (fun a => by match a with | ⟨0, _⟩ => exact (Nat.zero_add _).symm | ⟨1, _⟩ => exact (Nat.zero_add _).symm)]
    unfold runC.sl.r_3 runC.sl.r_4 runC.sl.r runC.sl.r_1 runC.sl.f
    rw [readAt_full_unread harg1 hz2, readAt_full_unread harg2 hz2, readAt_full_unread harg3 hz2, readAt_full_unread harg4 hz2,
      harg6.readAt_unread, harg6.readAt_unread, idx_word0, idx_word1, stepBuf_word0, stepBuf_word1]
  iexists _; isplitr; swap; · iexact H6
  ipureintro
  funext j
  unfold runC.sl.r runC.sl.r_1 runC.sl.f
  rw [readAt_full_unread harg1 hz2, readAt_full_unread harg2 hz2, readAt_full_unread harg3 hz2, readAt_full_unread harg4 hz2]
  rw [harg6.readAt_unread, harg6.readAt_unread, idx_word0, idx_word1]
  rcases idx_S2_cases j with ⟨rfl, h⟩ | ⟨rfl, h⟩
  · rw [read_word0_after1, read_word0_at0]; unfold stepBuf; rw [if_pos h]
  · rw [read_word1_at1]; unfold stepBuf; rw [if_neg h]

/-! ## The windows' blocks are the blocks of 64 rows -/

/-- The printed index maps, decided over the grid: at point `t` every input window is on block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (m : (ℓ : Loc nD τ sig) → Buf (Elt F) ℓ)

/-- Window 0's block at point `t` is rows `64 t … 64 t + 63` of the logits. -/
theorem iblk0_eq (c : Dev nD) (t : Fin cfg1.N) (ht : t.val < 16) :
    iblk m c 0 t = KVal.blockOf (VRr m c main_v0) ⟨t.val, ht⟩ := by
  obtain ⟨e0, e1, -⟩ := idx_facts t
  funext y
  unfold iblk KVal.blockOf
  show VRr m c main_v0 (((cfg1.win 0).blk t).view.emb y) = VRr m c main_v0 (ValueIdx.ix2 (KVal.rowOf ⟨t.val, ht⟩ (y 0)) (y 1))
  refine congrArg _ ?_
  funext a; apply Fin.ext
  match a with
  | ⟨0, _⟩ => show win1_0.index t (0 : Fin 2) * 64 + 1 * (y 0).val = 64 * t.val + (y 0).val; omega
  | ⟨1, _⟩ => show win1_0.index t (1 : Fin 2) * 100000 + 1 * (y 1).val = (y 1).val; omega

/-- Window 1's block at point `t` is rows `64 t … 64 t + 63` of the target column. -/
theorem iblk1_eq (c : Dev nD) (t : Fin cfg1.N) (ht : t.val < 16) :
    iblk m c 1 t = KVal.blockOf (VRr m c main_v4) ⟨t.val, ht⟩ := by
  obtain ⟨-, -, e0, e1, -⟩ := idx_facts t
  funext y
  unfold iblk KVal.blockOf
  show VRr m c main_v4 (((cfg1.win 1).blk t).view.emb y) = VRr m c main_v4 (ValueIdx.ix2 (KVal.rowOf ⟨t.val, ht⟩ (y 0)) (y 1))
  refine congrArg _ ?_
  funext a; apply Fin.ext
  match a with
  | ⟨0, _⟩ => show win1_1.index t (0 : Fin 2) * 64 + 1 * (y 0).val = 64 * t.val + (y 0).val; omega
  | ⟨1, _⟩ => show win1_1.index t (1 : Fin 2) * 1 + 1 * (y 1).val = (y 1).val; omega

/-- Window 2's block at point `t` is rows `64 t … 64 t + 63` of the weight column. -/
theorem iblk2_eq (c : Dev nD) (t : Fin cfg1.N) (ht : t.val < 16) :
    iblk m c 2 t = KVal.blockOf (VRr m c main_v5) ⟨t.val, ht⟩ := by
  obtain ⟨-, -, -, -, e0, e1, -⟩ := idx_facts t
  funext y
  unfold iblk KVal.blockOf
  show VRr m c main_v5 (((cfg1.win 2).blk t).view.emb y) = VRr m c main_v5 (ValueIdx.ix2 (KVal.rowOf ⟨t.val, ht⟩ (y 0)) (y 1))
  refine congrArg _ ?_
  funext a; apply Fin.ext
  match a with
  | ⟨0, _⟩ => show win1_2.index t (0 : Fin 2) * 64 + 1 * (y 0).val = 64 * t.val + (y 0).val; omega
  | ⟨1, _⟩ => show win1_2.index t (1 : Fin 2) * 1 + 1 * (y 1).val = (y 1).val; omega

/-- Window 3's block at point `t` is rows `64 t … 64 t + 63` of the validity column. -/
theorem iblk3_eq (c : Dev nD) (t : Fin cfg1.N) (ht : t.val < 16) :
    iblk m c 3 t = KVal.blockOf (VRr m c main_v6) ⟨t.val, ht⟩ := by
  obtain ⟨-, -, -, -, -, -, e0, e1⟩ := idx_facts t
  funext y
  unfold iblk KVal.blockOf
  show VRr m c main_v6 (((cfg1.win 3).blk t).view.emb y) = VRr m c main_v6 (ValueIdx.ix2 (KVal.rowOf ⟨t.val, ht⟩ (y 0)) (y 1))
  refine congrArg _ ?_
  funext a; apply Fin.ext
  match a with
  | ⟨0, _⟩ => show win1_3.index t (0 : Fin 2) * 64 + 1 * (y 0).val = 64 * t.val + (y 0).val; omega
  | ⟨1, _⟩ => show win1_3.index t (1 : Fin 2) * 1 + 1 * (y 1).val = (y 1).val; omega

/-! ## What the pipeline hands the body -/

/-- Each input's current staging buffer holds its block at every point, fetched there or not. -/
theorem before1_0 (c : Dev nD) (t : Fin cfg1.N) (d) : (dats m 0 c).before 0 t d = iblk m c 0 t :=
  ((dats m 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats m 0 c).before 1 t d = iblk m c 1 t :=
  ((dats m 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats m 0 c).before 2 t d = iblk m c 2 t :=
  ((dats m 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats m 0 c).before 3 t d = iblk m c 3 t :=
  ((dats m 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)

/-! ## The two conditions and the output window's idle points, decided over the grid -/

/-- The first conditional is taken at the first point only. -/
theorem hcond1 : ∀ t : Fin cfg1.N, cond1 (grid1.coords t) ↔ t.val = 0 :=
  (by decide +kernel : ∀ t : Fin grid1.N, cond1 (grid1.coords t) ↔ t.val = 0)
/-- The second conditional is taken at the last point only. -/
theorem hcond2 : ∀ t : Fin cfg1.N, cond2 (grid1.coords t) ↔ t.val = 15 :=
  (by decide +kernel : ∀ t : Fin grid1.N, cond2 (grid1.coords t) ↔ t.val = 15)
/-- The output window is idle everywhere but at the last point. -/
theorem idle4 : ∀ t : Fin cfg1.N, cfg1.idle 4 (cfg1.grid.coords t) = !decide (t.val = 15) :=
  (by decide +kernel : ∀ t : Fin grid1.N, idle1 4 (grid1.coords t) = !decide (t.val = 15))

/-! ## The running sums, one point on -/

/-- One more block: the scratch's words after block `n` are the body's two accumulating stores over the words before. -/
theorem accBuf_succ' (c : Dev nD) (n : ℕ) (hn : n < 16) :
    accBuf m c (n + 1) = stepBuf (KVal.blockOf (VRr m c main_v0) ⟨n, hn⟩) (KVal.blockOf (VRr m c main_v4) ⟨n, hn⟩)
      (KVal.blockOf (VRr m c main_v5) ⟨n, hn⟩) (KVal.blockOf (VRr m c main_v6) ⟨n, hn⟩) (accBuf m c n) := by
  funext j
  unfold accBuf stepBuf accAt
  rw [KVal.accs, dif_pos hn]
  rfl

/-- The same over the windows' blocks at point `t`. -/
theorem accBuf_succ (c : Dev nD) (t : Fin cfg1.N) (ht : t.val < 16) :
    accBuf m c (t.val + 1) = stepBuf (iblk m c 0 t) (iblk m c 1 t) (iblk m c 2 t) (iblk m c 3 t) (accBuf m c t.val) :=
  (accBuf_succ' m c t.val ht).trans
    (stepBuf_congr (iblk0_eq m c t ht).symm (iblk1_eq m c t ht).symm (iblk2_eq m c t ht).symm (iblk3_eq m c t ht).symm _)

/-- Before the first block both sums are zero. -/
theorem stepBuf_acc0 (c : Dev nD) (x0 : Vec F S64x100000 .f32) (x1 : Vec F S64x1 .i32) (x2 x3 : Vec F S64x1 .f32) (n : ℕ) (hn : n = 0) :
    stepBuf x0 x1 x2 x3 (accBuf m c n) = stepBuf x0 x1 x2 x3 (fun _ => Scalar.ofBits .f32 0x00000000#32) := by
  subst hn; funext j; rfl

/-- The output word is the negated quotient of the two words after the last block. -/
theorem outWord_eq (c : Dev nD) :
    outWord m c = k1_pay2 (accBuf m c 16 (ValueIdx.ix1 (0 : Fin 2))) (accBuf m c 16 (ValueIdx.ix1 (1 : Fin 2))) := rfl

/-! ## The body obligation, at a generic point -/

/-- The scratch operand: the whole scoped buffer of two words. -/
abbrev scrM : Memref sig .tc .smem S2 .f32 := Memref.whole cc1_scratch0
/-- Each window's current staging memref at point `t`, as the pipeline passes it, and its wholeness. -/
abbrev ms1_0 (t : Fin cfg1.N) : Memref sig .tc .vmem S64x100000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S1x1 .f32 := win1_4.stage (cfg1.slots t 4)
abbrev hs1_4 (t : Fin cfg1.N) : (ms1_4 t).IsWhole := hstage1_4 ((cfg1.slots t 4).cast nbuf1_4)

/-- The invariant before the first point: the scratch at anything. -/
theorem Φ_first (c : Dev nD) (t : Fin cfg1.N) (h0 : t.val = 0) :
    (dats m 0 c).Φ t.castSucc = iprop(∃ f, owns (c : Thread nD τ) scrM fullShare f) := by
  have e : (dats m 0 c).Φ t.castSucc = iprop(∃ f, scrLoc c ↦{fullShare} f) := by dsimp only [dats]; exact if_pos h0
  rw [e]; simp only [owns_whole]; rfl
/-- The invariant before a later point: the scratch at the running sums. -/
theorem Φ_later (c : Dev nD) (t : Fin cfg1.N) (h0 : ¬t.val = 0) :
    (dats m 0 c).Φ t.castSucc = owns (c : Thread nD τ) scrM fullShare (accBuf m c t.val) := by
  have e : (dats m 0 c).Φ t.castSucc = (scrLoc c ↦{fullShare} accBuf m c t.val) := by dsimp only [dats]; exact if_neg h0
  rw [e, owns_whole]
/-- The invariant after a point. -/
theorem Φ_after (c : Dev nD) (t : Fin cfg1.N) :
    (dats m 0 c).Φ t.succ = owns (c : Thread nD τ) scrM fullShare (accBuf m c (t.val + 1)) := by
  rw [Φ_succ, owns_whole]

/-- What the body returns of the output window: at a point idle for it what it was handed, at the last point the output word. -/
def post4 (c : Dev nD) (t : Fin cfg1.N) : sProp 𝕄 :=
  match cfg1.idle 4 (cfg1.grid.coords t) with
  | true =>
    match (cfg1.win 4).flush t with
    | false => iprop(∃ d, owns (c : Thread nD τ) (ms1_4 t) fullShare ((dats m 0 c).before 4 t d))
    | true => owns (c : Thread nD τ) (ms1_4 t) fullShare ((dats m 0 c).after 4 t)
  | false => owns (c : Thread nD τ) (ms1_4 t) fullShare ((dats m 0 c).after 4 t)

theorem post4_idle (c : Dev nD) (t : Fin cfg1.N) (h : ¬t.val = 15) :
    post4 m c t = iprop(∃ d, owns (c : Thread nD τ) (ms1_4 t) fullShare ((dats m 0 c).before 4 t d)) := by
  have hN : t.val < 16 := lt_of_lt_of_eq t.isLt (show cfg1.N = 16 from N_1)
  have hi : cfg1.idle 4 (cfg1.grid.coords t) = true := by rw [idle4, decide_eq_false h]; rfl
  have hf : (cfg1.win 4).flush t = false := Bool.eq_false_iff.mpr fun hh => by have := (flush1_4 t).mp hh; omega
  unfold post4; rw [hi, hf]

theorem post4_last (c : Dev nD) (t : Fin cfg1.N) (h : t.val = 15) :
    post4 m c t = owns (c : Thread nD τ) (ms1_4 t) fullShare (fun _ => outWord m c) := by
  have hi : cfg1.idle 4 (cfg1.grid.coords t) = false := by rw [idle4, decide_eq_true h]; rfl
  unfold post4; rw [hi, after1_4]; rfl

/-- What the body is called with at point `t`, the windows one by one, -/
def bodyPre (c : Dev nD) (t : Fin cfg1.N) : sProp 𝕄 :=
  iprop((dats m 0 c).Φ t.castSucc ∗ (dats m 0 c).owesAt none t.castSucc
    ∗ (∃ d, owns (c : Thread nD τ) (ms1_0 t) fullShare ((dats m 0 c).before 0 t d))
    ∗ (∃ d, owns (c : Thread nD τ) (ms1_1 t) fullShare ((dats m 0 c).before 1 t d))
    ∗ (∃ d, owns (c : Thread nD τ) (ms1_2 t) fullShare ((dats m 0 c).before 2 t d))
    ∗ (∃ d, owns (c : Thread nD τ) (ms1_3 t) fullShare ((dats m 0 c).before 3 t d))
    ∗ (∃ d, owns (c : Thread nD τ) (ms1_4 t) fullShare ((dats m 0 c).before 4 t d)))

/-- and what it returns. -/
def bodyPost (c : Dev nD) (t : Fin cfg1.N) : sProp 𝕄 :=
  iprop((dats m 0 c).Φ t.succ ∗ (dats m 0 c).owesAt none t.succ
    ∗ owns (c : Thread nD τ) (ms1_0 t) fullShare ((dats m 0 c).after 0 t)
    ∗ owns (c : Thread nD τ) (ms1_1 t) fullShare ((dats m 0 c).after 1 t)
    ∗ owns (c : Thread nD τ) (ms1_2 t) fullShare ((dats m 0 c).after 2 t)
    ∗ owns (c : Thread nD τ) (ms1_3 t) fullShare ((dats m 0 c).after 3 t)
    ∗ post4 m c t)

set_option maxHeartbeats 1000000 in
/-- The body at any point: the inputs' memrefs hold their blocks; the closed forms say which of the three cases the point
    is in; the run of that case applies; one block on, the scratch's words are the next running sums; the core owes
    nothing throughout. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3]
  rw [show (dats m 0 c).owesAt none t.succ = (dats m 0 c).owesAt none t.castSucc from rfl,
    after1_0, after1_1, after1_2, after1_3, Φ_after]
  have hN : t.val < 16 := lt_of_lt_of_eq t.isLt (show cfg1.N = 16 from N_1)
  by_cases h0 : t.val = 0
  · rw [Φ_first m c t h0, post4_idle m c t (by omega),
      (accBuf_succ m c t hN).trans (stepBuf_acc0 m c _ _ _ _ t.val h0)]
    iintro ⟨⟨%f, HΦ⟩, Ho, ⟨%d0, H0⟩, ⟨%d1, H1⟩, ⟨%d2, H2⟩, ⟨%d3, H3⟩, ⟨%d4, H4⟩⟩
    iapply (runA c (grid1.coords t) _ _ _ _ _ _ _ _ _ _ _ _ ((hcond1 t).mpr h0) (fun h => by have := (hcond2 t).mp h; omega)
      (iblk m c 0 t) (iblk m c 1 t) (iblk m c 2 t) (iblk m c 3 t) ((dats m 0 c).before 4 t d4) f Set.univ _)
    isplitl [H0]; · iexact H0
    isplitl [H1]; · iexact H1
    isplitl [H2]; · iexact H2
    isplitl [H3]; · iexact H3
    isplitl [H4]; · iexact H4
    isplitl [HΦ]; · iexists f; iexact HΦ
    iintro ⟨H0, H1, H2, H3, H4, HΦ⟩
    isplitl [HΦ]; · iexact HΦ
    isplitl [Ho]; · iexact Ho
    isplitl [H0]; · iexact H0
    isplitl [H1]; · iexact H1
    isplitl [H2]; · iexact H2
    isplitl [H3]; · iexact H3
    iexists d4; iexact H4
  · rw [Φ_later m c t h0, accBuf_succ m c t hN]
    by_cases h15 : t.val = 15
    · rw [post4_last m c t h15, outWord_eq, ← (show t.val + 1 = 16 by omega), accBuf_succ m c t hN]
      iintro ⟨HΦ, Ho, ⟨%d0, H0⟩, ⟨%d1, H1⟩, ⟨%d2, H2⟩, ⟨%d3, H3⟩, ⟨%d4, H4⟩⟩
      iapply (runC c (grid1.coords t) _ _ _ _ _ _ _ _ _ _ _ _ (fun h => h0 ((hcond1 t).mp h)) ((hcond2 t).mpr h15)
        (iblk m c 0 t) (iblk m c 1 t) (iblk m c 2 t) (iblk m c 3 t) ((dats m 0 c).before 4 t d4) (accBuf m c t.val) Set.univ _)
      isplitl [H0]; · iexact H0
      isplitl [H1]; · iexact H1
      isplitl [H2]; · iexact H2
      isplitl [H3]; · iexact H3
      isplitl [H4]; · iexact H4
      isplitl [HΦ]; · iexact HΦ
      iintro ⟨H0, H1, H2, H3, H4, HΦ⟩
      isplitl [HΦ]; · iexact HΦ
      isplitl [Ho]; · iexact Ho
      isplitl [H0]; · iexact H0
      isplitl [H1]; · iexact H1
      isplitl [H2]; · iexact H2
      isplitl [H3]; · iexact H3
      iexact H4
    · rw [post4_idle m c t h15]
      iintro ⟨HΦ, Ho, ⟨%d0, H0⟩, ⟨%d1, H1⟩, ⟨%d2, H2⟩, ⟨%d3, H3⟩, ⟨%d4, H4⟩⟩
      iapply (runB c (grid1.coords t) _ _ _ _ _ _ _ _ _ _ _ _ (fun h => h0 ((hcond1 t).mp h)) (fun h => h15 ((hcond2 t).mp h))
        (iblk m c 0 t) (iblk m c 1 t) (iblk m c 2 t) (iblk m c 3 t) ((dats m 0 c).before 4 t d4) (accBuf m c t.val) Set.univ _)
      isplitl [H0]; · iexact H0
      isplitl [H1]; · iexact H1
      isplitl [H2]; · iexact H2
      isplitl [H3]; · iexact H3
      isplitl [H4]; · iexact H4
      isplitl [HΦ]; · iexact HΦ
      iintro ⟨H0, H1, H2, H3, H4, HΦ⟩
      isplitl [HΦ]; · iexact HΦ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : Pipeline.BodyObligation (dats (F := F) m 0 c) (defs₀ (F := F)) Variants.none (none : HIx 1) Set.univ := fun t => by
  rw [bigSep_W1, bigSep_W1]
  exact sound_body m c t

end Cert.Proof.KB

end
-- ==== Proof.KBElem.lean ====
/-
  The launch element of the ghost state and what it pays for.

  The element is a pair: the rounds of the SparseCore call's handshakes, and beside them the rounds of the TensorCore
  pipeline's staging cells with the transfers' counters at their unit.  Owning it gives the handshakes' rounds whole;
  the staging cells' rounds pay, on every device, for the cells' ghost state and the launch tokens of the one pipeline;
  the counters' unit is dropped; no thread is handed anything of the kernels' own.
-/
import proofs.«213067_g2224793059754_cont_8to1_1641_35_alg».proof.Proof.KBSeg

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- What the pipeline's staging cells start from on device `d`: their ghost state and their launch tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes' rounds, the staging cells' rounds, the counters' unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] in
theorem bigSep_one (X : Fin 1 → sProp 𝕄) : bigSep Finset.univ X = X 0 := bigSep_univ_of_subsingleton 0

omit [FloatOps F] in
theorem bigSep_emp' {I : Type} (s : Finset I) : (bigSep s fun _ => iprop(emp)) = (iprop(emp) : sProp 𝕄) := bigSep_emp_const s

theorem Px_emp : (bigSep Finset.univ fun thr : Thread nD τ => bigSep Finset.univ fun q : Fin 1 => (P (F := F) m).x q thr) = (iprop(emp) : sProp 𝕄) := by
  unfold P; dsimp only
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have hG : (bigSep Finset.univ fun d : Dev nD => G (F := F) d)
      = iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) := by
    unfold G
    rw [bigSep_sep', bigSep_congr fun d _ => bigSep_one (F := F) fun p => Pipeline.cellsGhost (Pipeline.pin (pcfgs (F := F)) adm) EP p d,
      bigSep_congr fun d _ => bigSep_one (F := F) fun p => Pipeline.toksInit (Pipeline.pin (pcfgs (F := F)) adm) EP p d]
  rw [Px_emp, hG]
  iintro Hu
  ihave H := (ownU_pair _ _) $$ Hu
  icases H with ⟨HH, HR⟩
  ihave HR' := (own_pair_emb embR _ _) $$ HR
  icases HR' with ⟨HP, -⟩
  ihave HP := (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
    ⊢ BI.own (EP (initOf (Pipeline.cells (Pipeline.pin (pcfgs (F := F)) adm) cellOf_inj) (Pipeline.launchToks (Pipeline.pin (pcfgs (F := F)) adm) cellOf_inj))) from .rfl) $$ HP
  imod (Pipeline.fund_ghost (Pipeline.pin (pcfgs (F := F)) adm) EP cellOf_inj) $$ HP with ⟨Hc, Ht⟩
  imodintro
  isplitl [HH]; · iexact HH
  isplitl [Hc Ht]
  · isplitl [Hc]
    · iexact Hc
    · iexact Ht
  iempintro

end Cert.Proof.KB

end
-- ==== Proof.KBValue.lean ====
/-
  What the TensorCore kernel's region leaves and finds, in terms of the launch memory.

  The output array is one word; the pipeline writes its window back at the last grid point only, and every index of the
  array lies in that point's block, so the array ends holding the output word (`arrAt_out`).  The four arrays the region
  reads are host reshapes: the logits flattened to 1024 rows; the flattened targets as a column; the weights and the
  validity flags the vector subcores wrote, as columns (`VRr_v0`, `VRr_v4`, `VRr_v5`, `VRr_v6`: each read off the chain of
  host operations and the two arrays the subcores' call updates).  With these the output word, reshaped to a scalar, is
  the program's result as one function of its three argument arrays (`out_kernelOut`).
-/
import proofs.«213067_g2224793059754_cont_8to1_1641_35_alg».proof.Proof.KBBody
import Idealize.ShloMosaic.Lib.Pipeline.Value
import Idealize.ShloMosaic.Lib.StableHlo.Run

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after_cons after_nil reshape_result reshape_result_ne)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The output array after the run -/

/-- The output window's index map is constant: block 0, 0. -/
theorem idx_out : ∀ t : Fin cfg1.N, win1_4.index t (0 : Fin 2) = 0 ∧ win1_4.index t (1 : Fin 2) = 0 :=
  (by decide +kernel : ∀ t : Fin grid1.N, _)

/-- The output array is one word, written back at the last point only: it ends holding the output word. -/
theorem arrAt_out (c : Dev nD) : (dats m 0 c).arrAt 4 cfg1.N = fun _ => outWord m c := by
  refine (dats m 0 c).arrAt_eq_of_cover 4 (fun _ => outWord m c) (fun t hf => ?_) (fun i => ?_)
  · show (cfg1.win 4).cut (grid1.coords t) ((dats m 0 c).after 4 t) = _
    rw [after1_4]; rfl
  · refine ⟨t1_15, (flush1_4 t1_15).mpr rfl, ?_⟩
    obtain ⟨e0, e1⟩ := idx_out t1_15
    have hi : ((cfg1.win 4).blk t1_15).view.emb (fun a => ⟨(i a).val, (i a).isLt⟩) = i := by
      funext a; apply Fin.ext
      match a with
      | ⟨0, _⟩ => show win1_4.index t1_15 (0 : Fin 2) * 1 + 1 * (i 0).val = (i 0).val; omega
      | ⟨1, _⟩ => show win1_4.index t1_15 (1 : Fin 2) * 1 + 1 * (i 1).val = (i 1).val; omega
    rw [← hi]; exact View.emb_mem_set _ _

/-! ## The arrays the region finds, from the launch memory -/

/-- The logits as the region finds them: the argument flattened to 1024 rows. -/
theorem VRr_v0 (c : Dev nD) : VRr m c main_v0 = shapeCast S1024x100000 (m (a0Loc c)) shapeCasts_S32x32x100000_S1024x100000 := by
  show StableHlo.after [op4, op5, op6] (V4 m c) (Proc.devRef .tc main_v0) = _
  after_results
  unfold V4
  rw [Function.update_of_ne (by decide), Function.update_of_ne (by decide)]
  unfold V3
  after_results
  rfl

/-- The target column: the flattened targets as a column. -/
theorem VRr_v4 (c : Dev nD) : VRr m c main_v4 = shapeCast S1024x1 (T1 m c) shapeCasts_S1024_S1024x1 := by
  show StableHlo.after [op4, op5, op6] (V4 m c) (Proc.devRef .tc main_v4) = _
  after_results
  unfold V4
  rw [Function.update_of_ne (by decide), Function.update_of_ne (by decide)]
  unfold V3
  after_results
  rfl

/-- The weight column: what the subcores wrote, as a column. -/
theorem VRr_v5 (c : Dev nD) : VRr m c main_v5 = shapeCast S1024x1 (Wf m c) shapeCasts_S1024_S1024x1 := by
  show StableHlo.after [op4, op5, op6] (V4 m c) (Proc.devRef .tc main_v5) = _
  after_results
  unfold V4
  rw [Function.update_of_ne (by decide), Function.update_self]
  rfl

/-- The validity column: what the subcores wrote, as a column. -/
theorem VRr_v6 (c : Dev nD) : VRr m c main_v6 = shapeCast S1024x1 (Vf m c) shapeCasts_S1024_S1024x1 := by
  show StableHlo.after [op4, op5, op6] (V4 m c) (Proc.devRef .tc main_v6) = _
  after_results
  unfold V4
  rw [Function.update_self]
  rfl

/-- The output word, as a scalar, is the program's result from its argument arrays. -/
theorem out_kernelOut (c : Dev nD) :
    shapeCast S_ (fun _ : S1x1.Idx => outWord m c) shapeCasts_S1x1_S_ = KVal.kernelOut (m (a0Loc c)) (m (a1Loc c)) (m (a3Loc c)) := by
  unfold outWord
  rw [VRr_v0, VRr_v4, VRr_v5, VRr_v6]
  rfl

end Cert.Proof.KB

end
-- ==== Proof.KBMain.lean ====
/-
  @main on the TensorCore: three reshapes, the SparseCore call, three reshapes, the kernel region, one reshape; the
  launch element of the ghost state; the program's run with its result named.
-/
import proofs.«213067_g2224793059754_cont_8to1_1641_35_alg».proof.Proof.KBSeg
import proofs.«213067_g2224793059754_cont_8to1_1641_35_alg».proof.Proof.KBTile
import proofs.«213067_g2224793059754_cont_8to1_1641_35_alg».proof.Proof.KBBody
import proofs.«213067_g2224793059754_cont_8to1_1641_35_alg».proof.Proof.KBElem
import proofs.«213067_g2224793059754_cont_8to1_1641_35_alg».proof.Proof.KBValue

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays between the host operations -/

theorem V3_v1 (d : Dev nD) : V3 m d (dr main_v1) = T1 m d := by
  unfold V3 T1; after_results; rfl
theorem V3_v2 (d : Dev nD) : V3 m d (dr main_v2) = R1 m d := by
  unfold V3 R1; after_results; rfl
theorem V4_v1 (d : Dev nD) : V4 m d (dr main_v1) = T1 m d := by
  unfold V4
  rw [Function.update_of_ne (show dr main_v1 ≠ dr main_v3_1 by decide), Function.update_of_ne (show dr main_v1 ≠ dr main_v3_0 by decide)]
  exact V3_v1 m d
theorem V4_v2 (d : Dev nD) : V4 m d (dr main_v2) = R1 m d := by
  unfold V4
  rw [Function.update_of_ne (show dr main_v2 ≠ dr main_v3_1 by decide), Function.update_of_ne (show dr main_v2 ≠ dr main_v3_0 by decide)]
  exact V3_v2 m d
theorem V4_w (d : Dev nD) : V4 m d (dr main_v3_0) = Wf m d := by
  unfold V4
  rw [Function.update_of_ne (show dr main_v3_0 ≠ dr main_v3_1 by decide), Function.update_self]
theorem V4_v (d : Dev nD) : V4 m d (dr main_v3_1) = Vf m d := by
  unfold V4; rw [Function.update_self]
theorem V4_of_ne (d : Dev nD) (b : DevRef τ sig) (h0 : b ≠ dr main_v3_0) (h1 : b ≠ dr main_v3_1) : V4 m d b = V3 m d b := by
  unfold V4; rw [Function.update_of_ne h1, Function.update_of_ne h0]

/-- The final contents: the output word reshaped to the scalar result. -/
def VF (d : Dev nD) : Valuation τ sig (Elt F) := StableHlo.after [op7] (VX m d)

/-! ## @main on the TensorCore -/

abbrev T4 : Finset (DevRef τ sig) := {dr main_v1, dr main_v2, dr main_v3_0, dr main_v3_1}
theorem T4_sub : T4 ⊆ Pipeline.ucRefs τ sig := by decide

omit [FloatOps F] in
theorem held_T4 (d : Dev nD) (W : Valuation τ sig (Elt F)) :
    (held (SparseCore.T d) T4 W : sProp 𝕄) = iprop((tLoc d ↦{fullShare} W (dr main_v1)) ∗ (rLoc d ↦{fullShare} W (dr main_v2))
      ∗ (wLoc d ↦{fullShare} W (dr main_v3_0)) ∗ (vLoc d ↦{fullShare} W (dr main_v3_1))) := by
  unfold held T4
  rw [SparseCore.bigSep_insert' (by decide), SparseCore.bigSep_insert' (by decide), SparseCore.bigSep_insert' (by decide), bigSep_singleton]

theorem hS1 : (op1 (F := F)).bufs ⊆ Pipeline.ucRefs τ sig := Pipeline.sub_ucRefs _ (StableHlo.reshape_bufs_sub ..)
theorem hS2 : (op2 (F := F)).bufs ⊆ Pipeline.ucRefs τ sig := Pipeline.sub_ucRefs _ (StableHlo.reshape_bufs_sub ..)
theorem hS3 : (op3 (F := F)).bufs ⊆ Pipeline.ucRefs τ sig := Pipeline.sub_ucRefs _ (StableHlo.reshape_bufs_sub ..)
theorem hS4 : (op4 (F := F)).bufs ⊆ Pipeline.ucRefs τ sig := Pipeline.sub_ucRefs _ (StableHlo.reshape_bufs_sub ..)
theorem hS5 : (op5 (F := F)).bufs ⊆ Pipeline.ucRefs τ sig := Pipeline.sub_ucRefs _ (StableHlo.reshape_bufs_sub ..)
theorem hS6 : (op6 (F := F)).bufs ⊆ Pipeline.ucRefs τ sig := Pipeline.sub_ucRefs _ (StableHlo.reshape_bufs_sub ..)
theorem hS7 : (op7 (F := F)).bufs ⊆ Pipeline.ucRefs τ sig := Pipeline.sub_ucRefs _ (StableHlo.reshape_bufs_sub ..)

theorem V3_eq (d : Dev nD) : V3 m d = (op3 (F := F)).result ((op2 (F := F)).result ((op1 (F := F)).result (V0 m d))) := rfl
theorem VR_eq (d : Dev nD) : VR m d = (op6 (F := F)).result ((op5 (F := F)).result ((op4 (F := F)).result (V4 m d))) := rfl
theorem VF_eq (d : Dev nD) : VF m d = (op7 (F := F)).result (VX m d) := rfl

theorem held_V4_join (d : Dev nD) :
    iprop(((tLoc d ↦{fullShare} T1 m d) ∗ (rLoc d ↦{fullShare} R1 m d) ∗ (wLoc d ↦{fullShare} Wf m d) ∗ (vLoc d ↦{fullShare} Vf m d))
        ∗ held (SparseCore.T d) (Pipeline.ucRefs τ sig \ T4) (V3 m d))
      ⊢ (held (SparseCore.T d) (Pipeline.ucRefs τ sig) (V4 m d) : sProp 𝕄) := by
  rw [held_sub_split (SparseCore.T d) T4_sub (V4 m d), held_T4, V4_v1, V4_v2, V4_w, V4_v,
    held_congr (SparseCore.T d) (V := V4 m d) (V' := V3 m d) fun b hb => V4_of_ne m d b
      (fun e => (Finset.mem_sdiff.mp hb).2 (e ▸ by decide)) (fun e => (Finset.mem_sdiff.mp hb).2 (e ▸ by decide))]

/-- What @main leaves the claim: every unscoped buffer at the final contents. -/
abbrev FIN (d : Dev nD) : sProp 𝕄 := held (SparseCore.T d) (Pipeline.ucRefs τ sig) (VF m d)

omit [FloatOps F] in
theorem wbelow_all (d : Dev nD) (W : Waits sig (HIx 1)) : (K (F := F)).WBelow (SparseCore.T d) W (8 * 1) := fun p _ => by
  cases h : p.2 with
  | none => rw [SparseCore.Cfg.lev_none]; exact Nat.zero_le _
  | some q => exact ((K (F := F)).lev_some_le _ q).trans (by have := q.isLt; omega)

omit [FloatOps F] in
theorem entry_eq : (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩) := rfl

/-- The region's call in the SparseCore program's body table is the call in the pipeline's, lifted. -/
theorem lift_entry (d : Dev nD) (Q : PUnit.{1} → sProp 𝕄) :
    wp frame (wpE (D (F := F)) 𝒱 (SparseCore.T d) none) Set.univ (.op (.customCall (Pipeline.entry 0) ()) fun _ => .ret ⟨⟩) Q
      ⊢ wp frame (wpE ((K (F := F)).defs (D (F := F))) 𝒱 (SparseCore.T d) none) Set.univ
          (Prog.lift (.customCall (SparseCore.inner (Pipeline.entry 0)) ())) Q := by
  rw [entry_eq]
  exact (K (F := F)).wp_liftProg (D (F := F)) 𝒱 (SparseCore.T d) Set.univ none _ Q

theorem reg_pre (hb : ∀ c, BodyObligation (dats (F := F) m 0 c) (defs₀ (F := F)) Variants.none (none : HIx 1) Set.univ) (d : Dev nD) :
    (reg m hb).pre d = iprop(held (d : Thread nD τ) (Pipeline.ucRefs τ sig) (VR m d) ∗ RO d) := rfl
theorem reg_post (hb : ∀ c, BodyObligation (dats (F := F) m 0 c) (defs₀ (F := F)) Variants.none (none : HIx 1) Set.univ) (d : Dev nD) :
    (reg m hb).post d = iprop(held (d : Thread nD τ) (Pipeline.ucRefs τ sig) (VX m d) ∗ RO d) := rfl

set_option backward.isDefEq.respectTransparency.types false in
theorem hmain (hb : ∀ c, BodyObligation (dats (F := F) m 0 c) (defs₀ (F := F)) Variants.none (none : HIx 1) Set.univ)
    (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  have hreg := fun (Q : PUnit.{1} → sProp 𝕄) => Pipeline.RegionSeg.wp (pcfgs (F := F)) adm (pdats m) (none : HIx 1) cellOf_inj EP defs₀ 𝒱₀
      (K (F := F)).L (K (F := F)).lev (reg m hb) d none (fun _ h => nomatch h) (fun _ => .ret ⟨⟩) Q
  simp only [reg_pre m hb d, reg_post m hb d] at hreg
  have hR := fun (Q : PUnit.{1} → sProp 𝕄) => (hreg Q).trans (lift_entry d Q)
  clear hreg
  unfold SparseCore.Cfg.tcRes
  rw [show unscopedBufs d (fun b => m ((SparseCore.T d).loc b)) = held (SparseCore.T d) (Pipeline.ucRefs τ sig) (V0 m d)
    from Pipeline.unscopedBufs_held d (V0 m d)]
  simp only [main, wp_bind, wp_pure]
  iintro ⟨#Hctx, Hst, ⟨Hb, Hheld, -, -⟩, ⟨Hg, Htk⟩⟩
  -- the three reshapes before the call
  iapply (wp_hlo_within 𝒱 (SparseCore.T d) none Set.univ (op := op1) (S := Pipeline.ucRefs τ sig) hS1 (V := V0 m d)) $$ [Hb Hheld]
  · isplitl [Hb] <;> iassumption
  iintro ⟨Hb, Hheld⟩
  rw [wp_ret]; imodintro
  iapply (wp_hlo_within 𝒱 (SparseCore.T d) none Set.univ (op := op2) (S := Pipeline.ucRefs τ sig) hS2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := Pipeline.ucRefs τ sig) hS3 (V := (op2 (F := F)).result ((op1 (F := F)).result (V0 m d)))) $$ [Hb Hheld]
  · isplitl [Hb] <;> iassumption
  iintro ⟨Hb, Hheld⟩
  rw [wp_ret]; imodintro
  -- the call: the four arrays out of the unscoped buffers, cut into the tasks' pieces, and back
  rw [← V3_eq m d]
  ihave Hh := (Entails.of_eq (held_sub_split (SparseCore.T d) T4_sub (V3 m d))) $$ Hheld
  icases Hh with ⟨H4, Hrest⟩
  ihave H4' := (Entails.of_eq (held_T4 d (V3 m d))) $$ H4
  icases H4' with ⟨Ht, Hr, Hw, Hv⟩
  rw [V3_v1, V3_v2]
  iapply ((K (F := F)).wp_run (D (F := F)) 𝒱 (EH := EH) (P := P m) κ d 0) $$ [Hst Ht Hr Hw Hv Hb Hrest Hg Htk]
  isplitr; · iexact Hctx
  isplitl [Hst]; · iexact Hst
  isplitl [Ht Hr Hw Hv]
  · rw [st0_eq]
    iapply (whole_to_pieces m d _ _)
    isplitl [Ht]; · iexact Ht
    isplitl [Hr]; · iexact Hr
    isplitl [Hw]; · iexact Hw
    iexact Hv
  iintro ⟨Hst, Hdn⟩
  ihave Hdn' := (Entails.of_eq (dn0_eq m d)) $$ Hdn
  ihave H4 := (pieces_to_whole m d) $$ Hdn'
  ihave Hheld := (held_V4_join m d) $$ [H4 Hrest]
  · isplitl [H4] <;> iassumption
  -- the three reshapes after the call
  iapply (wp_hlo_within 𝒱 (SparseCore.T d) none Set.univ (op := op4) (S := Pipeline.ucRefs τ sig) hS4 (V := V4 m d)) $$ [Hb Hheld]
  · isplitl [Hb] <;> iassumption
  iintro ⟨Hb, Hheld⟩
  rw [wp_ret]; imodintro
  iapply (wp_hlo_within 𝒱 (SparseCore.T d) none Set.univ (op := op5) (S := Pipeline.ucRefs τ sig) hS5 (V := (op4 (F := F)).result (V4 m d))) $$ [Hb Hheld]
  · isplitl [Hb] <;> iassumption
  iintro ⟨Hb, Hheld⟩
  rw [wp_ret]; imodintro
  iapply (wp_hlo_within 𝒱 (SparseCore.T d) none Set.univ (op := op6) (S := Pipeline.ucRefs τ sig) hS6 (V := (op5 (F := F)).result ((op4 (F := F)).result (V4 m d)))) $$ [Hb Hheld]
  · isplitl [Hb] <;> iassumption
  iintro ⟨Hb, Hheld⟩
  rw [wp_ret]; imodintro
  rw [← VR_eq m d]
  -- the region: the core owes nothing any more
  ihave Hlev := (SparseCore.Cfg.ctx_levAts κ) $$ Hctx
  unfold SparseCore.Cfg.tcSt
  icases Hst with ⟨⟨%W, -, HO⟩, Hat, #Hrd, #Hrs, Htoks⟩
  rw [show (K (F := F)).Otc d ((0 : Fin 1).val + 1) = 0 from (K (F := F)).Otc_end d le_rfl, show (K (F := F)).Otc d 1 = 0 from (K (F := F)).Otc_end d le_rfl]
  iapply (hR _) $$ [Hb Hheld HO Hg Htk Hat Htoks]
  isplitr [Hb Hheld HO Hg Htk]
  swap
  · isplitl [Hb]; · iexact Hb
    isplitl [Hheld HO]
    · isplitl [Hheld]; · iexact Hheld
      iexists W; iexact HO
    isplitr; · iexact Hlev
    isplitl [Hg] <;> iassumption
  iintro ⟨Hb, Hheld, %W', HO⟩
  rw [wp_ret]; imodintro
  iapply (wp_hlo_within 𝒱 (SparseCore.T d) none Set.univ (op := op7) (S := Pipeline.ucRefs τ sig) hS7 (V := VX m d)) $$ [Hb Hheld]
  · isplitl [Hb] <;> iassumption
  iintro ⟨Hb, Hheld⟩
  rw [wp_ret]; imodintro; imodintro
  isplitl [HO Hat Htoks]
  · isplitl [HO]
    · iexists W'; isplitr; · ipureintro; exact wbelow_all d W'
      iexact HO
    isplitl [Hat]; · iexact Hat
    isplitr; · iexact Hrd
    isplitr; · iexact Hrs
    iexact Htoks
  iexact Hheld

/-! ## The program's run -/

/-- What the claim reads off the final memory: every unscoped buffer at the final contents. -/
def fq (d : Dev nD) (s' : Phys nD τ sig (Elt F)) : Prop := ∀ b ∈ Pipeline.ucRefs τ sig, s'.mem.mem ((d, b) : Loc nD τ sig) = VF m d b

theorem hfin (d : Dev nD) (s' : Phys nD τ sig (Elt F)) : iprop(FIN m d ∗ SI s') ⊢ (⌜fq m d s'⌝ : sProp 𝕄) := by
  show iprop(held (SparseCore.T d) (Pipeline.ucRefs τ sig) (VF m d) ∗ SI s') ⊢ _
  unfold StableHlo.held
  iintro ⟨Hh, HSI⟩
  ihave H := (pointsTo_read_all (Pipeline.ucRefs τ sig) (fun b => ((d, b) : Loc nD τ sig)) (VF m d) s') $$ [Hh HSI]
  · isplitl [Hh]; · iexact Hh
    iexact HSI
  icases H with ⟨%h, -⟩
  ipureintro; exact h

def QC : PUnit × MemSt nD τ sig (Elt F) → Prop := fun r => ∀ c : Dev nD, ∀ b ∈ Pipeline.ucRefs τ sig, r.2.mem (c, b) = VF m c b

/-- Every weakly fair execution of the program's threads terminates, nothing faulting, with every unscoped buffer of the
    TensorCore at the final contents. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ (body_obligation m)) (fq m) (hfin m) (QC m)
    (fun s' h c => h c)

/-! ## The final contents: the result and the arguments -/

omit [FloatOps F] in
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The result buffer ends at the kernel's function of the three argument arrays. -/
theorem VF_out (d : Dev nD) : VF m d (dr main_v8) = KVal.kernelOut (m (a0Loc d)) (m (a1Loc d)) (m (a3Loc d)) := by
  have h1 : VF m d (dr main_v8) = shapeCast S_ (VX m d (dr main_v7)) shapeCasts_S1x1_S_ := by
    unfold VF; after_results; rfl
  rw [h1, show VX m d (dr main_v7) = (dats m 0 d).arrAt 4 cfg1.N from VX_arr m d 4, arrAt_out]
  exact out_kernelOut m d

/-- No operation and no kernel writes an argument. -/
theorem VF_arg (d : Dev nD) (b : Ref sig .tc) (h7 : b ≠ main_v8) (hx : ∀ w, Pipeline.arrRef spec1 w ≠ b)
    (h4 : b ≠ main_v4) (h5 : b ≠ main_v5) (h6 : b ≠ main_v6) (hw : b ≠ main_v3_0) (hv : b ≠ main_v3_1)
    (h0 : b ≠ main_v0) (h1 : b ≠ main_v1) (h2 : b ≠ main_v2) : VF m d (dr b) = m (d, dr b) := by
  have e1 : VF m d (dr b) = VX m d (dr b) := by
    unfold VF; simp only [StableHlo.after_cons, StableHlo.after_nil]; rw [StableHlo.reshape_result_ne]; exact h7
  have e2 : VR m d (dr b) = V4 m d (dr b) := by
    unfold VR; simp only [StableHlo.after_cons, StableHlo.after_nil]
    rw [StableHlo.reshape_result_ne, StableHlo.reshape_result_ne, StableHlo.reshape_result_ne]
    · exact h4
    · exact h5
    · exact h6
  have e3 : V3 m d (dr b) = V0 m d (dr b) := by
    unfold V3; simp only [StableHlo.after_cons, StableHlo.after_nil]
    rw [StableHlo.reshape_result_ne, StableHlo.reshape_result_ne, StableHlo.reshape_result_ne]
    · exact h0
    · exact h1
    · exact h2
  rw [e1, VX_of_ne m d b hx, e2, V4_of_ne m d _ (fun e => hw (Proc.devRef_injective _ e)) (fun e => hv (Proc.devRef_injective _ e)), e3]
  rfl

/-- THE RUN WITH ITS VALUE: every weakly fair execution of the program's threads terminates, nothing faulting; the result
    buffer ends at the kernel's function of the argument arrays, and the four argument arrays end as launched. -/
theorem run_value [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_v8) = KVal.kernelOut (m (a0Loc c)) (m (a1Loc c)) (m (a3Loc c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono (fun r h c =>
    ⟨(h c _ (mem_uc main_v8 (by decide))).trans (VF_out m c),
      (h c _ (mem_uc main_arg0 (by decide))).trans (VF_arg m c main_arg0 (by decide) (by decide) (by decide) (by decide) (by decide) (by decide) (by decide) (by decide) (by decide) (by decide)),
      (h c _ (mem_uc main_arg1 (by decide))).trans (VF_arg m c main_arg1 (by decide) (by decide) (by decide) (by decide) (by decide) (by decide) (by decide) (by decide) (by decide) (by decide)),
      (h c _ (mem_uc main_arg2 (by decide))).trans (VF_arg m c main_arg2 (by decide) (by decide) (by decide) (by decide) (by decide) (by decide) (by decide) (by decide) (by decide) (by decide)),
      (h c _ (mem_uc main_arg3 (by decide))).trans (VF_arg m c main_arg3 (by decide) (by decide) (by decide) (by decide) (by decide) (by decide) (by decide) (by decide) (by decide) (by decide))⟩)
    (run_main m ρ)

end Cert.Proof.KB

end
-- ==== Proof.RefRunH.lean ====
/- The run of the reference program, read one operation at a time.

   The reference's @main is a straight line of 59 host operations. Every weakly fair execution of it terminates with each
   buffer at the fold `after ops` of the operations' results over the launch contents. Here that fold is evaluated at the
   result buffer in four consecutive pieces (ops = l1 ++ l2 ++ l3 ++ l4): each piece is evaluated from an ARBITRARY valuation,
   giving what it leaves at the buffers later pieces read as the stage functions `val_…` of what it finds at the buffers it
   reads, and the pieces are chained. The result buffer ends at `val_main_v16` of the three arguments' launch contents, and no
   operation writes an argument. -/
import proofs.«213067_g2224793059754_cont_8to1_1641_35_alg».proof.Proof.RefRun
import proofs.«213067_g2224793059754_cont_8to1_1641_35_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! A called function's operation, spelt over typed references, is the builder's operation over the bare references:
    a typed reference built from a literal carries the buffer's own type, and the transports along it are the identity. -/

theorem cons_congr {α : Type} {a a' : α} {l l' : List α} (h : a = a') (hl : l = l') : a :: l = a' :: l' := by
  subst h hl; rfl

theorem tnullary_eq {y : Ref sig .tc} {v : y.ty.Contents (Elt F)} {h2 : y.space ≠ .host} {h3 : y.isScoped = false}
    {hy : y.space ≠ .host ∧ (y : DevRef τ sig).isScoped = false} :
    (TRef.nullary (TRef.of (T := y.ty) y rfl h2 h3) v : HloOp τ sig (Elt F)) = nullary y v hy := rfl

theorem tunary_eq {x y : Ref sig .tc} {f : x.ty.Contents (Elt F) → y.ty.Contents (Elt F)}
    {hx2 : x.space ≠ .host} {hx3 : x.isScoped = false} {hy2 : y.space ≠ .host} {hy3 : y.isScoped = false}
    {hx : x.space ≠ .host ∧ (x : DevRef τ sig).isScoped = false} {hy : y.space ≠ .host ∧ (y : DevRef τ sig).isScoped = false} :
    (TRef.unary (TRef.of (T := x.ty) x rfl hx2 hx3) (TRef.of (T := y.ty) y rfl hy2 hy3) f : HloOp τ sig (Elt F))
      = unary x y f hx hy := rfl

theorem tbinary_eq {a b y : Ref sig .tc} {f : a.ty.Contents (Elt F) → b.ty.Contents (Elt F) → y.ty.Contents (Elt F)}
    {ha2 : a.space ≠ .host} {ha3 : a.isScoped = false} {hb2 : b.space ≠ .host} {hb3 : b.isScoped = false}
    {hy2 : y.space ≠ .host} {hy3 : y.isScoped = false}
    {ha : a.space ≠ .host ∧ (a : DevRef τ sig).isScoped = false} {hb : b.space ≠ .host ∧ (b : DevRef τ sig).isScoped = false}
    {hy : y.space ≠ .host ∧ (y : DevRef τ sig).isScoped = false} :
    (TRef.binary (TRef.of (T := a.ty) a rfl ha2 ha3) (TRef.of (T := b.ty) b rfl hb2 hb3) (TRef.of (T := y.ty) y rfl hy2 hy3) f
        : HloOp τ sig (Elt F))
      = binary a b y f ha hb hy := rfl

theorem tternary_eq {c a b y : Ref sig .tc}
    {f : c.ty.Contents (Elt F) → a.ty.Contents (Elt F) → b.ty.Contents (Elt F) → y.ty.Contents (Elt F)}
    {hc2 : c.space ≠ .host} {hc3 : c.isScoped = false}
    {ha2 : a.space ≠ .host} {ha3 : a.isScoped = false} {hb2 : b.space ≠ .host} {hb3 : b.isScoped = false}
    {hy2 : y.space ≠ .host} {hy3 : y.isScoped = false}
    {hc : c.space ≠ .host ∧ (c : DevRef τ sig).isScoped = false}
    {ha : a.space ≠ .host ∧ (a : DevRef τ sig).isScoped = false} {hb : b.space ≠ .host ∧ (b : DevRef τ sig).isScoped = false}
    {hy : y.space ≠ .host ∧ (y : DevRef τ sig).isScoped = false} :
    (TRef.ternary (TRef.of (T := c.ty) c rfl hc2 hc3) (TRef.of (T := a.ty) a rfl ha2 ha3) (TRef.of (T := b.ty) b rfl hb2 hb3)
        (TRef.of (T := y.ty) y rfl hy2 hy3) f : HloOp τ sig (Elt F))
      = ternary c a b y f hc ha hb hy := rfl

theorem treshape_eq {x y : Ref sig .tc} {he : x.ty.elt = y.ty.elt} {hn : x.ty.shape.ShapeCasts y.ty.shape}
    {hx2 : x.space ≠ .host} {hx3 : x.isScoped = false} {hy2 : y.space ≠ .host} {hy3 : y.isScoped = false}
    {hx : x.space ≠ .host ∧ (x : DevRef τ sig).isScoped = false} {hy : y.space ≠ .host ∧ (y : DevRef τ sig).isScoped = false} :
    (TRef.reshape (TRef.of (T := x.ty) x rfl hx2 hx3) (TRef.of (T := y.ty) y rfl hy2 hy3) he hn : HloOp τ sig (Elt F))
      = reshape x y he hn hx hy := rfl

/-- The reference's operations in four consecutive pieces — the log-softmax (15 operations), the reshapes with the mask and
    the index column (6), the gather along the last axis (22), the masked mean (16) —, every operation spelt over the bare
    references (a called function's operation is the same operation: its typed references carry each buffer's own type). -/
abbrev l1 : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S32x32x100000_S32x32_d2 h_S_) : (⟨S32x32x100000, .f32⟩ : BufTy).Contents (Elt F) → (⟨S_, .f32⟩ : BufTy).Contents (Elt F) → (⟨S32x32, .f32⟩ : BufTy).Contents (Elt F)),
    nullary main_call0_cst_0 ((constant S_ .f32 0xFF800000#32) : (⟨S_, .f32⟩ : BufTy).Contents (Elt F)),
    unary main_call0_cst_0 main_call0_v1 ((broadcastInDim S32x32 ![] bcast_S_S32x32) : (⟨S_, .f32⟩ : BufTy).Contents (Elt F) → (⟨S32x32, .f32⟩ : BufTy).Contents (Elt F)),
    binary main_call0_v1 main_call0_v0 main_call0_v2 (maximumf : (⟨S32x32, .f32⟩ : BufTy).Contents (Elt F) → (⟨S32x32, .f32⟩ : BufTy).Contents (Elt F) → (⟨S32x32, .f32⟩ : BufTy).Contents (Elt F)),
    unary main_call0_v2 main_call0_v3 ((broadcastInDim S32x32x1 ![0, 1] bcast_S32x32_S32x32x1_0_1) : (⟨S32x32, .f32⟩ : BufTy).Contents (Elt F) → (⟨S32x32x1, .f32⟩ : BufTy).Contents (Elt F)),
    unary main_call0_v3 main_call0_v4 ((broadcastInDim S32x32x100000 ![0, 1, 2] bcast_S32x32x1_S32x32x100000_0_1_2) : (⟨S32x32x1, .f32⟩ : BufTy).Contents (Elt F) → (⟨S32x32x100000, .f32⟩ : BufTy).Contents (Elt F)),
    binary main_arg0 main_call0_v4 main_call0_v5 (subf : (⟨S32x32x100000, .f32⟩ : BufTy).Contents (Elt F) → (⟨S32x32x100000, .f32⟩ : BufTy).Contents (Elt F) → (⟨S32x32x100000, .f32⟩ : BufTy).Contents (Elt F)),
    unary main_call0_v5 main_call0_v6 (Host.exp : (⟨S32x32x100000, .f32⟩ : BufTy).Contents (Elt F) → (⟨S32x32x100000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S32x32x100000_S32x32_d2 h_S_) : (⟨S32x32x100000, .f32⟩ : BufTy).Contents (Elt F) → (⟨S_, .f32⟩ : BufTy).Contents (Elt F) → (⟨S32x32, .f32⟩ : BufTy).Contents (Elt F)),
    unary main_call0_v7 main_call0_v8 ((broadcastInDim S32x32x1 ![0, 1] bcast_S32x32_S32x32x1_0_1) : (⟨S32x32, .f32⟩ : BufTy).Contents (Elt F) → (⟨S32x32x1, .f32⟩ : BufTy).Contents (Elt F)),
    unary main_call0_v8 main_call0_v9 (Host.log : (⟨S32x32x1, .f32⟩ : BufTy).Contents (Elt F) → (⟨S32x32x1, .f32⟩ : BufTy).Contents (Elt F)),
    unary main_call0_v9 main_call0_v10 ((broadcastInDim S32x32x100000 ![0, 1, 2] bcast_S32x32x1_S32x32x100000_0_1_2) : (⟨S32x32x1, .f32⟩ : BufTy).Contents (Elt F) → (⟨S32x32x100000, .f32⟩ : BufTy).Contents (Elt F)),
    binary main_call0_v5 main_call0_v10 main_v0 (subf : (⟨S32x32x100000, .f32⟩ : BufTy).Contents (Elt F) → (⟨S32x32x100000, .f32⟩ : BufTy).Contents (Elt F) → (⟨S32x32x100000, .f32⟩ : BufTy).Contents (Elt F)) ]
abbrev l2 : List (HloOp τ sig (Elt F)) :=
  [ reshape main_v0 main_v1 rfl shapeCasts_S32x32x100000_S1024x100000,
    reshape main_arg1 main_v2 rfl shapeCasts_S32x32_S1024,
    nullary main_c (constantI S_ 32 0#32),
    unary main_c main_v3 (broadcastInDim S1024 ![] bcast_S_S1024 : (⟨S_, .i32⟩ : BufTy).Contents (Elt F) → (⟨S1024, .i32⟩ : BufTy).Contents (Elt F)),
    binary main_v2 main_v3 main_v4 (cmpi .sgt : (⟨S1024, .i32⟩ : BufTy).Contents (Elt F) → (⟨S1024, .i32⟩ : BufTy).Contents (Elt F) → (⟨S1024, .i1⟩ : BufTy).Contents (Elt F)),
    unary main_v2 main_v5 (broadcastInDim S1024x1 ![0] bcast_S1024_S1024x1_0 : (⟨S1024, .i32⟩ : BufTy).Contents (Elt F) → (⟨S1024x1, .i32⟩ : BufTy).Contents (Elt F)) ]
abbrev l3 : List (HloOp τ sig (Elt F)) :=
  [ nullary main_call1_c ((constantI S_ 32 0#32) : (⟨S_, .i32⟩ : BufTy).Contents (Elt F)),
    unary main_call1_c main_call1_v0 ((broadcastInDim S1024x1 ![] bcast_S_S1024x1) : (⟨S_, .i32⟩ : BufTy).Contents (Elt F) → (⟨S1024x1, .i32⟩ : BufTy).Contents (Elt F)),
    binary main_v5 main_call1_v0 main_call1_v1 ((cmpi .slt) : (⟨S1024x1, .i32⟩ : BufTy).Contents (Elt F) → (⟨S1024x1, .i32⟩ : BufTy).Contents (Elt F) → (⟨S1024x1, .i1⟩ : BufTy).Contents (Elt F)),
    nullary main_call1_c_0 ((constantI S_ 32 100000#32) : (⟨S_, .i32⟩ : BufTy).Contents (Elt F)),
    unary main_call1_c_0 main_call1_v2 ((broadcastInDim S1024x1 ![] bcast_S_S1024x1) : (⟨S_, .i32⟩ : BufTy).Contents (Elt F) → (⟨S1024x1, .i32⟩ : BufTy).Contents (Elt F)),
    binary main_v5 main_call1_v2 main_call1_v3 (addi : (⟨S1024x1, .i32⟩ : BufTy).Contents (Elt F) → (⟨S1024x1, .i32⟩ : BufTy).Contents (Elt F) → (⟨S1024x1, .i32⟩ : BufTy).Contents (Elt F)),
    ternary main_call1_v1 main_call1_v3 main_v5 main_call1_v4 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    reshape main_call1_v4 main_call1_v5 rfl shapeCasts_S1024x1_S1024x1x1,
    nullary main_call1_c_1 ((constantI S1 32 99999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S1024x1x1 ![] bcast_S_S1024x1x1) : (⟨S_, .i32⟩ : BufTy).Contents (Elt F) → (⟨S1024x1x1, .i32⟩ : BufTy).Contents (Elt F)),
    binary main_call1_v5 main_call1_v6 main_call1_v7 ((cmpi .sge) : (⟨S1024x1x1, .i32⟩ : BufTy).Contents (Elt F) → (⟨S1024x1x1, .i32⟩ : BufTy).Contents (Elt F) → (⟨S1024x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S1024x1x1 ![0, 1, 2] bcast_S1x1x1_S1024x1x1_0_1_2) : (⟨S1x1x1, .i32⟩ : BufTy).Contents (Elt F) → (⟨S1024x1x1, .i32⟩ : BufTy).Contents (Elt F)),
    binary main_call1_v5 main_call1_v9 main_call1_v10 ((cmpi .sle) : (⟨S1024x1x1, .i32⟩ : BufTy).Contents (Elt F) → (⟨S1024x1x1, .i32⟩ : BufTy).Contents (Elt F) → (⟨S1024x1x1, .i1⟩ : BufTy).Contents (Elt F)),
    binary main_call1_v7 main_call1_v10 main_call1_v11 (andi : (⟨S1024x1x1, .i1⟩ : BufTy).Contents (Elt F) → (⟨S1024x1x1, .i1⟩ : BufTy).Contents (Elt F) → (⟨S1024x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S1024x1x1_S1024x1_d2 h_S_) : (⟨S1024x1x1, .i1⟩ : BufTy).Contents (Elt F) → (⟨S_, .i1⟩ : BufTy).Contents (Elt F) → (⟨S1024x1, .i1⟩ : BufTy).Contents (Elt F)),
    binary main_v1 main_call1_v5 main_call1_v13 ((fun x i => Host.gather gather_S1024x100000_S1024x1x1_S1024x1_n_1_0_0_1_2_11 x i) : (⟨S1024x100000, .f32⟩ : BufTy).Contents (Elt F) → (⟨S1024x1x1, .i32⟩ : BufTy).Contents (Elt F) → (⟨S1024x1, .f32⟩ : BufTy).Contents (Elt F)),
    nullary main_call1_cst ((constant S_ .f32 0x7FC00000#32) : (⟨S_, .f32⟩ : BufTy).Contents (Elt F)),
    unary main_call1_cst main_call1_v14 ((broadcastInDim S1024x1 ![] bcast_S_S1024x1) : (⟨S_, .f32⟩ : BufTy).Contents (Elt F) → (⟨S1024x1, .f32⟩ : BufTy).Contents (Elt F)),
    ternary main_call1_v12 main_call1_v13 main_call1_v14 main_v6 (select : (⟨S1024x1, .i1⟩ : BufTy).Contents (Elt F) → (⟨S1024x1, .f32⟩ : BufTy).Contents (Elt F) → (⟨S1024x1, .f32⟩ : BufTy).Contents (Elt F) → (⟨S1024x1, .f32⟩ : BufTy).Contents (Elt F)) ]
abbrev l4 : List (HloOp τ sig (Elt F)) :=
  [ reshape main_v6 main_v7 rfl shapeCasts_S1024x1_S1024,
    reshape main_arg3 main_v8 rfl shapeCasts_S32x32_S1024,
    binary main_v7 main_v8 main_v9 (mulf : (⟨S1024, .f32⟩ : BufTy).Contents (Elt F) → (⟨S1024, .f32⟩ : BufTy).Contents (Elt F) → (⟨S1024, .f32⟩ : BufTy).Contents (Elt F)),
    unary main_v4 main_v10 (uitofp .f32 : (⟨S1024, .i1⟩ : BufTy).Contents (Elt F) → (⟨S1024, .f32⟩ : BufTy).Contents (Elt F)),
    nullary main_cst (constant S_ .f32 0x00000000#32),
    binary main_v10 main_cst main_v11 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_0 (constant S_ .f32 0x3F800000#32),
    binary main_v11 main_cst_0 main_v12 (maximumf : (⟨S_, .f32⟩ : BufTy).Contents (Elt F) → (⟨S_, .f32⟩ : BufTy).Contents (Elt F) → (⟨S_, .f32⟩ : BufTy).Contents (Elt F)),
    nullary main_cst_1 (constant S_ .f32 0x00000000#32),
    unary main_cst_1 main_call2_v0 (id : (⟨S_, .f32⟩ : BufTy).Contents (Elt F) → (⟨S_, .f32⟩ : BufTy).Contents (Elt F)),
    unary main_call2_v0 main_call2_v1 ((broadcastInDim S1024 ![] bcast_S_S1024) : (⟨S_, .f32⟩ : BufTy).Contents (Elt F) → (⟨S1024, .f32⟩ : BufTy).Contents (Elt F)),
    ternary main_v4 main_v9 main_call2_v1 main_v13 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    nullary main_cst_2 (constant S_ .f32 0x00000000#32),
    binary main_v13 main_cst_2 main_v14 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    binary main_v14 main_v12 main_v15 (Host.divf : (⟨S_, .f32⟩ : BufTy).Contents (Elt F) → (⟨S_, .f32⟩ : BufTy).Contents (Elt F) → (⟨S_, .f32⟩ : BufTy).Contents (Elt F)),
    unary main_v15 main_v16 (Host.negf : (⟨S_, .f32⟩ : BufTy).Contents (Elt F) → (⟨S_, .f32⟩ : BufTy).Contents (Elt F)) ]

/-- The line is the four pieces in order, operation by operation. -/
theorem ops_split : (ops : List (HloOp τ sig (Elt F))) = l1 ++ (l2 ++ (l3 ++ l4)) :=
  cons_congr tnullary_eq (cons_congr tbinary_eq (cons_congr tnullary_eq (cons_congr tunary_eq (cons_congr tbinary_eq (cons_congr tunary_eq (cons_congr tunary_eq (cons_congr tbinary_eq (cons_congr tunary_eq (cons_congr tnullary_eq (cons_congr tbinary_eq (cons_congr tunary_eq (cons_congr tunary_eq (cons_congr tunary_eq (cons_congr tbinary_eq (cons_congr rfl (cons_congr rfl (cons_congr rfl (cons_congr rfl (cons_congr rfl (cons_congr rfl (cons_congr tnullary_eq (cons_congr tunary_eq (cons_congr tbinary_eq (cons_congr tnullary_eq (cons_congr tunary_eq (cons_congr tbinary_eq (cons_congr tternary_eq (cons_congr treshape_eq (cons_congr tnullary_eq (cons_congr tnullary_eq (cons_congr tunary_eq (cons_congr tbinary_eq (cons_congr tunary_eq (cons_congr tunary_eq (cons_congr tbinary_eq (cons_congr tbinary_eq (cons_congr tnullary_eq (cons_congr tbinary_eq (cons_congr tbinary_eq (cons_congr tnullary_eq (cons_congr tunary_eq (cons_congr tternary_eq (cons_congr rfl (cons_congr rfl (cons_congr rfl (cons_congr rfl (cons_congr rfl (cons_congr rfl (cons_congr rfl (cons_congr rfl (cons_congr rfl (cons_congr tunary_eq (cons_congr tunary_eq (cons_congr tternary_eq (cons_congr rfl (cons_congr rfl (cons_congr rfl (cons_congr rfl (rfl)))))))))))))))))))))))))))))))))))))))))))))))))))))))))))

open Cert.ReferenceIdeal.ReadP

/-! ## Each piece from an arbitrary valuation `W`

What the piece leaves at the buffers later pieces read, as the stage functions of what `W` holds at the buffers it reads;
and that it leaves the other buffers read later, and the arguments, as they were. -/

/-- The log-softmax of the logits. -/
theorem l1_v0 (W : Valuation τ sig (Elt F)) :
    after l1 W (Proc.devRef .tc main_v0) = val_main_v0 (F := F) (W (Proc.devRef .tc main_arg0)) := by
  after_results_simp
  rfl
theorem l1_arg0 (W : Valuation τ sig (Elt F)) : after l1 W (Proc.devRef .tc main_arg0) = W (Proc.devRef .tc main_arg0) := by after_results_simp
theorem l1_arg1 (W : Valuation τ sig (Elt F)) : after l1 W (Proc.devRef .tc main_arg1) = W (Proc.devRef .tc main_arg1) := by after_results_simp
theorem l1_arg2 (W : Valuation τ sig (Elt F)) : after l1 W (Proc.devRef .tc main_arg2) = W (Proc.devRef .tc main_arg2) := by after_results_simp
theorem l1_arg3 (W : Valuation τ sig (Elt F)) : after l1 W (Proc.devRef .tc main_arg3) = W (Proc.devRef .tc main_arg3) := by after_results_simp

/-- The log-probabilities as rows, the mask of positive targets, and the targets as a column. -/
theorem l2_v1 (W : Valuation τ sig (Elt F)) (x0 : (⟨S32x32x100000, .f32⟩ : BufTy).Contents (Elt F))
    (h0 : W (Proc.devRef .tc main_v0) = val_main_v0 (F := F) x0) :
    after l2 W (Proc.devRef .tc main_v1) = val_main_v1 (F := F) x0 := by
  after_results_simp
  rw [h0]
  rfl
theorem l2_v4 (W : Valuation τ sig (Elt F)) (x1 : (⟨S32x32, .i32⟩ : BufTy).Contents (Elt F))
    (h1 : W (Proc.devRef .tc main_arg1) = x1) :
    after l2 W (Proc.devRef .tc main_v4) = val_main_v4 (F := F) x1 := by
  subst h1
  after_results_simp
  rfl
theorem l2_v5 (W : Valuation τ sig (Elt F)) (x1 : (⟨S32x32, .i32⟩ : BufTy).Contents (Elt F))
    (h1 : W (Proc.devRef .tc main_arg1) = x1) :
    after l2 W (Proc.devRef .tc main_v5) = val_main_v5 (F := F) x1 := by
  subst h1
  after_results_simp
  rfl
theorem l2_arg0 (W : Valuation τ sig (Elt F)) : after l2 W (Proc.devRef .tc main_arg0) = W (Proc.devRef .tc main_arg0) := by after_results_simp
theorem l2_arg1 (W : Valuation τ sig (Elt F)) : after l2 W (Proc.devRef .tc main_arg1) = W (Proc.devRef .tc main_arg1) := by after_results_simp
theorem l2_arg2 (W : Valuation τ sig (Elt F)) : after l2 W (Proc.devRef .tc main_arg2) = W (Proc.devRef .tc main_arg2) := by after_results_simp
theorem l2_arg3 (W : Valuation τ sig (Elt F)) : after l2 W (Proc.devRef .tc main_arg3) = W (Proc.devRef .tc main_arg3) := by after_results_simp

/-- The log-probability of each row's target (out-of-range targets read as NaN). -/
theorem l3_v6 (W : Valuation τ sig (Elt F)) (x0 : (⟨S32x32x100000, .f32⟩ : BufTy).Contents (Elt F))
    (x1 : (⟨S32x32, .i32⟩ : BufTy).Contents (Elt F))
    (h1 : W (Proc.devRef .tc main_v1) = val_main_v1 (F := F) x0) (h5 : W (Proc.devRef .tc main_v5) = val_main_v5 (F := F) x1) :
    after l3 W (Proc.devRef .tc main_v6) = val_main_v6 (F := F) x0 x1 := by
  after_results_simp
  rw [h1, h5]
  rfl
theorem l3_v4 (W : Valuation τ sig (Elt F)) : after l3 W (Proc.devRef .tc main_v4) = W (Proc.devRef .tc main_v4) := by after_results_simp
theorem l3_arg0 (W : Valuation τ sig (Elt F)) : after l3 W (Proc.devRef .tc main_arg0) = W (Proc.devRef .tc main_arg0) := by after_results_simp
theorem l3_arg1 (W : Valuation τ sig (Elt F)) : after l3 W (Proc.devRef .tc main_arg1) = W (Proc.devRef .tc main_arg1) := by after_results_simp
theorem l3_arg2 (W : Valuation τ sig (Elt F)) : after l3 W (Proc.devRef .tc main_arg2) = W (Proc.devRef .tc main_arg2) := by after_results_simp
theorem l3_arg3 (W : Valuation τ sig (Elt F)) : after l3 W (Proc.devRef .tc main_arg3) = W (Proc.devRef .tc main_arg3) := by after_results_simp

/-- The negated masked mean. -/
theorem l4_v16 (W : Valuation τ sig (Elt F)) (x0 : (⟨S32x32x100000, .f32⟩ : BufTy).Contents (Elt F))
    (x1 : (⟨S32x32, .i32⟩ : BufTy).Contents (Elt F)) (x3 : (⟨S32x32, .f32⟩ : BufTy).Contents (Elt F))
    (h6 : W (Proc.devRef .tc main_v6) = val_main_v6 (F := F) x0 x1) (h4 : W (Proc.devRef .tc main_v4) = val_main_v4 (F := F) x1)
    (h3 : W (Proc.devRef .tc main_arg3) = x3) :
    after l4 W (Proc.devRef .tc main_v16) = val_main_v16 (F := F) x0 x1 x3 := by
  subst h3
  after_results_simp
  rw [h6, h4]
  rfl
theorem l4_arg0 (W : Valuation τ sig (Elt F)) : after l4 W (Proc.devRef .tc main_arg0) = W (Proc.devRef .tc main_arg0) := by after_results_simp
theorem l4_arg1 (W : Valuation τ sig (Elt F)) : after l4 W (Proc.devRef .tc main_arg1) = W (Proc.devRef .tc main_arg1) := by after_results_simp
theorem l4_arg2 (W : Valuation τ sig (Elt F)) : after l4 W (Proc.devRef .tc main_arg2) = W (Proc.devRef .tc main_arg2) := by after_results_simp
theorem l4_arg3 (W : Valuation τ sig (Elt F)) : after l4 W (Proc.devRef .tc main_arg3) = W (Proc.devRef .tc main_arg3) := by after_results_simp

/-! ## All 59 operations -/

/-- The result buffer after the whole line: the reference's last stage at the arguments' contents. -/
theorem after_v16 (V : Valuation τ sig (Elt F)) :
    after ops V (Proc.devRef .tc main_v16)
      = val_main_v16 (F := F) (V (Proc.devRef .tc main_arg0)) (V (Proc.devRef .tc main_arg1)) (V (Proc.devRef .tc main_arg3)) := by
  rw [ops_split, StableHlo.after_append, StableHlo.after_append, StableHlo.after_append]
  exact l4_v16 _ _ _ _
    (l3_v6 _ _ _ (l2_v1 _ _ (l1_v0 V)) (l2_v5 _ _ (l1_arg1 V)))
    ((l3_v4 _).trans (l2_v4 _ _ (l1_arg1 V)))
    ((l3_arg3 _).trans ((l2_arg3 _).trans (l1_arg3 V)))

/-- No operation writes an argument. -/
theorem after_arg0 (V : Valuation τ sig (Elt F)) : after ops V (Proc.devRef .tc main_arg0) = V (Proc.devRef .tc main_arg0) := by
  rw [ops_split, StableHlo.after_append, StableHlo.after_append, StableHlo.after_append, l4_arg0, l3_arg0, l2_arg0, l1_arg0]
theorem after_arg1 (V : Valuation τ sig (Elt F)) : after ops V (Proc.devRef .tc main_arg1) = V (Proc.devRef .tc main_arg1) := by
  rw [ops_split, StableHlo.after_append, StableHlo.after_append, StableHlo.after_append, l4_arg1, l3_arg1, l2_arg1, l1_arg1]
theorem after_arg2 (V : Valuation τ sig (Elt F)) : after ops V (Proc.devRef .tc main_arg2) = V (Proc.devRef .tc main_arg2) := by
  rw [ops_split, StableHlo.after_append, StableHlo.after_append, StableHlo.after_append, l4_arg2, l3_arg2, l2_arg2, l1_arg2]
theorem after_arg3 (V : Valuation τ sig (Elt F)) : after ops V (Proc.devRef .tc main_arg3) = V (Proc.devRef .tc main_arg3) := by
  rw [ops_split, StableHlo.after_append, StableHlo.after_append, StableHlo.after_append, l4_arg3, l3_arg3, l2_arg3, l1_arg3]

/-- On every device, for any float values, from any memory with zero counters: every weakly fair execution of the reference's
    @main terminates with the result buffer at the last stage `val_main_v16` of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = Cert.ReferenceIdeal.ReadP.val_main_v16 (F := F) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v16).trans (after_v16 _), (h c main_arg0).trans (after_arg0 _),
      (h c main_arg1).trans (after_arg1 _), (h c main_arg2).trans (after_arg2 _), (h c main_arg3).trans (after_arg3 _)⟩)
    (run_seq scopedRefs_eq scopedSems_eq defs main (fun _ => ops) main_eq (fun _ => ops_sub) m ρ)

end Cert.ReferenceIdeal.RunH

end
-- ==== Proof.ValSpec.lean ====
/-
  The mathematics of the masked, reward-weighted negative log-likelihood, away from any program: the float words 16, 1
  and 0 as extended reals; a sum of reals read as extended reals; the log-sum-exp of a row of reals is the same whatever
  real shift is taken out of the exponents first; a sum over 1024 rows is the sum over 16 blocks of 64 rows; and a sum
  that selects one term by an equality test is that term.
-/
import Idealize.ShloMosaic.PureOps.Ideal

noncomputable section

open scoped BigOperators

namespace Cert.ValBridge

open Idealize.ShloMosaic

/-- The word `0x41800000` is the real number 16. -/
theorem ofBits_sixteen : Ideal.ofBits .f32 0x41800000#32 = ((16 : ℝ) : EReal) := by
  simp [Ideal.ofBits, Ideal.ieee]
  rw [← EReal.coe_mul]
  exact congrArg _ (by norm_num)

/-- The word `0x3F800000` is the real number 1. -/
theorem ofBits_one : Ideal.ofBits .f32 0x3F800000#32 = ((1 : ℝ) : EReal) := by
  simp [Ideal.ofBits, Ideal.ieee]
  rw [← EReal.coe_mul, ← EReal.coe_one]
  exact congrArg _ (by norm_num)

/-- The zero word is 0. -/
theorem ofBits_zero : Ideal.ofBits .f32 0x00000000#32 = 0 := by
  simp [Ideal.ofBits, Ideal.ieee]

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Taking a real shift `c` out of every exponent moves the logarithm of the sum by `c`. -/
theorem shift_log_sum_exp {ι : Type*} [Fintype ι] [Nonempty ι] (x : ι → ℝ) (c : ℝ) :
    c + Real.log (∑ v, Real.exp (x v - c)) = Real.log (∑ v, Real.exp (x v)) := by
  have hpos : 0 < ∑ v, Real.exp (x v) := Finset.sum_pos (fun v _ => Real.exp_pos _) Finset.univ_nonempty
  have h : ∑ v, Real.exp (x v - c) = (∑ v, Real.exp (x v)) / Real.exp c := by
    rw [Finset.sum_div]; exact Finset.sum_congr rfl fun v _ => Real.exp_sub _ _
  rw [h, Real.log_div hpos.ne' (Real.exp_pos c).ne', Real.log_exp]; ring

/-- The sum of positive exponentials is positive. -/
theorem sum_exp_pos {ι : Type*} [Fintype ι] [Nonempty ι] (y : ι → ℝ) : 0 < ∑ v, Real.exp (y v) :=
  Finset.sum_pos (fun v _ => Real.exp_pos _) Finset.univ_nonempty

/-- The extended-real logarithm of the sum of the exponentials of a row of reals shifted by a real `c`, as a real. -/
theorem log_sum_exp_coe {ι : Type*} [Fintype ι] [Nonempty ι] (x : ι → ℝ) (c : ℝ) :
    Ideal.log (∑ v, Ideal.exp ((x v : EReal) - (c : EReal))) = ((Real.log (∑ v, Real.exp (x v - c)) : ℝ) : EReal) := by
  have e : ∀ v, Ideal.exp ((x v : EReal) - (c : EReal)) = ((Real.exp (x v - c) : ℝ) : EReal) := fun v => by
    rw [← EReal.coe_sub]; rfl
  simp only [e]
  rw [← coe_sum]
  show (if (∑ v, Real.exp (x v - c)) ≤ 0 then ⊥ else ((Real.log (∑ v, Real.exp (x v - c)) : ℝ) : EReal)) = _
  rw [if_neg (not_le.mpr (sum_exp_pos fun v => x v - c))]

/-- One row's log-probability at column `t`, written with a shift `c` taken out before the sum and put back after it
    (the kernel's arrangement, `c = 16`), equals the one written with a shift `m` subtracted from every entry (the
    reference's arrangement, `m` the row's maximum), for reals. -/
theorem row_logprob {ι : Type*} [Fintype ι] [Nonempty ι] (x : ι → ℝ) (t : ι) (c m : ℝ) :
    (x t : EReal) - ((c : EReal) + Ideal.log (∑ v, Ideal.exp ((x v : EReal) - (c : EReal))))
      = ((x t : EReal) - (m : EReal)) - Ideal.log (0 + ∑ v, Ideal.exp ((x v : EReal) - (m : EReal))) := by
  rw [zero_add, log_sum_exp_coe, log_sum_exp_coe, ← EReal.coe_add, ← EReal.coe_sub, ← EReal.coe_sub, ← EReal.coe_sub]
  congr 1
  have h1 := shift_log_sum_exp x c
  have h2 := shift_log_sum_exp x m
  linarith

/-- A sum over 1024 rows is the sum over 16 blocks of the sums over each block's 64 rows. -/
theorem sum_rows_blocks {M : Type*} [AddCommMonoid M] (f : Fin 1024 → M) :
    ∑ e : Fin 1024, f e = ∑ n : Fin 16, ∑ r : Fin 64, f ⟨64 * n.val + r.val, by omega⟩ := by
  rw [← Fintype.sum_prod_type']
  symm
  refine Fintype.sum_equiv (finProdFinEquiv (m := 16) (n := 64)) _ _ fun p => ?_
  refine congrArg f (Fin.ext ?_)
  show 64 * p.1.val + p.2.val = p.2.val + 64 * p.1.val
  omega

/-- The same with the blocks counted by a natural number below 16, as a running sum over blocks leaves them. -/
theorem sum_blocks_range {M : Type*} [AddCommMonoid M] (f : Fin 1024 → M) :
    (∑ m ∈ Finset.range 16, if h : m < 16 then ∑ r : Fin 64, f ⟨64 * m + r.val, by omega⟩ else 0) = ∑ e : Fin 1024, f e := by
  rw [sum_rows_blocks f,
    ← Fin.sum_univ_eq_sum_range (fun m => if h : m < 16 then ∑ r : Fin 64, f ⟨64 * m + r.val, by omega⟩ else 0) 16]
  exact Finset.sum_congr rfl fun n _ => by rw [dif_pos n.isLt]

/-- The maximum, taken from −∞, of finitely many reals (at least one) is a real. -/
theorem fold_max_real {ι : Type*} (s : Finset ι) (hs : s.Nonempty) (f : ι → EReal) (hf : ∀ i ∈ s, ∃ r : ℝ, f i = (r : EReal)) :
    ∃ m : ℝ, s.fold max (⊥ : EReal) f = (m : EReal) := by
  have hlt : s.fold max (⊥ : EReal) f < ⊤ := (Finset.fold_max_lt ⊤).mpr ⟨bot_lt_top, fun i hi => by
    obtain ⟨r, hr⟩ := hf i hi; rw [hr]; exact EReal.coe_lt_top r⟩
  obtain ⟨i0, hi0⟩ := hs
  obtain ⟨r0, hr0⟩ := hf i0 hi0
  have hge : f i0 ≤ s.fold max (⊥ : EReal) f := (Finset.le_fold_max (f i0)).mpr (Or.inr ⟨i0, hi0, le_rfl⟩)
  have hne : s.fold max (⊥ : EReal) f ≠ ⊥ := fun h => by
    rw [h, hr0] at hge; exact absurd hge (not_le.mpr (EReal.bot_lt_coe r0))
  exact ⟨(s.fold max (⊥ : EReal) f).toReal, (EReal.coe_toReal hlt.ne hne).symm⟩

/-- The word `0xFF800000` is −∞. -/
theorem ofBits_neg_inf : Ideal.ofBits .f32 0xFF800000#32 = ⊥ := by
  simp [Ideal.ofBits, Ideal.ieee]

/-- A sum that keeps the one term whose position has the number `k`, and zero elsewhere, is that term. -/
theorem sum_select_eq {N : ℕ} (x : Fin N → EReal) (k : Fin N) (p : Fin N → Prop) [DecidablePred p]
    (hp : ∀ v, p v ↔ v = k) : ∑ v, (if p v then x v else 0) = x k := by
  have : ∀ v, (if p v then x v else 0) = if v = k then x v else 0 := fun v => by
    by_cases h : v = k
    · rw [if_pos ((hp v).mpr h), if_pos h]
    · rw [if_neg (fun q => h ((hp v).mp q)), if_neg h]
  simp only [this]
  rw [Finset.sum_ite_eq' Finset.univ k fun v => x v]
  simp

end Cert.ValBridge

end
-- ==== Proof.ValLayout.lean ====
/-
  Layout operations and lane sums read at an index, at the shapes this kernel meets: a column cast [a] → [a, 1], a column
  broadcast [a, 1] → [a, b], a column iota, the sum along a row of an [a, b] array, the total of a [1, b, 1] array, and the
  one element of a [1] array cast to [1, 1, 1].
-/
import Idealize.ShloMosaic.Lib.Pipeline.Value
import Idealize.ShloMosaic.Lib.ValueLayout
import Idealize.ShloMosaic.PureOps.Ideal.Laws

noncomputable section

open scoped BigOperators

namespace Cert.ValBridge

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The iota along the columns of an `[a, b]` array reads, at `(r, v)`, the word of `v`. -/
theorem iota_col_apply {a b : ℕ} (h : (⟨2, ![a, b]⟩ : Shape).Iotas .tc 32 [1]) (r : Fin a) (v : Fin b) :
    iota .tc ⟨2, ![a, b]⟩ 32 [1] h (ix2 r v) = BitVec.ofNat 32 v.val := by
  show BitVec.ofNat 32 (0 * _ + v.val) = _
  rw [Nat.zero_mul, Nat.zero_add]

/-- The sum along each row of an `[a, b]` array of extended reals, at row `r`: the sum over the columns. -/
theorem rowsum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ v : Fin b, src (ix2 r v) := by
  refine (Ideal.multiReduction_add_single src 0x00000000#32 h hφ hacc (ix1 r)).trans ?_
  refine Finset.sum_congr rfl fun v _ => congrArg src (funext fun d => Fin.ext ?_)
  match d with
  | ⟨0, _⟩ => rfl
  | ⟨1, _⟩ => rfl

/-- The indices of a `[1, b, 1]` array are its middle coordinates. -/
def idxEquiv1b1 {b : ℕ} : (⟨3, ![1, b, 1]⟩ : Shape).Idx ≃ Fin b where
  toFun i := i 1
  invFun r := ix3 (0 : Fin 1) r (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- The total of a `[1, b, 1]` array of extended reals: the sum over its middle coordinate. -/
theorem blocksum_apply {b : ℕ} (src : FVec Ideal ⟨3, ![1, b, 1]⟩ .f32) (h : Shape.Reduces ⟨3, ![1, b, 1]⟩ [1, 2] ⟨1, ![1]⟩)
    (hφ : FKind.Formats .f32) (hacc : (0x00000000#32 : BitVec 32) = 0x00000000#32) (j : (⟨1, ![1]⟩ : Shape).Idx) :
    multiReduction .add [1, 2] ⟨1, ![1]⟩ src 0x00000000#32 h hφ hacc j
      = ∑ r : Fin b, src (ix3 (0 : Fin 1) r (0 : Fin 1)) := by
  refine (Ideal.multiReduction_add_total src 0x00000000#32 h (fun d => ?_) hφ hacc j).trans ?_
  · match d with
    | ⟨0, _⟩ => rfl
  · exact Fintype.sum_equiv idxEquiv1b1 _ _ fun i => congrArg src (idxEquiv1b1.left_inv i).symm

/-- Flattened row `e` of 1024 sits at position (e / 32, e % 32) of a [32, 32] array. -/
def rowIdx (e : Fin 1024) : (⟨2, ![32, 32]⟩ : Shape).Idx :=
  ix2 (⟨e.val / 32, by omega⟩ : Fin 32) (⟨e.val % 32, by omega⟩ : Fin 32)

/-- Column `v` of flattened row `e` sits at position (e / 32, e % 32, v) of a [32, 32, 100000] array. -/
def cellIdx (e : Fin 1024) (v : Fin 100000) : (⟨3, ![32, 32, 100000]⟩ : Shape).Idx :=
  ix3 (⟨e.val / 32, by omega⟩ : Fin 32) (⟨e.val % 32, by omega⟩ : Fin 32) v

/-- A [32, 32] array flattened to [1024] reads, at `e`, the operand at (e / 32, e % 32). -/
theorem flatten2_apply (x : (⟨2, ![32, 32]⟩ : Shape).Idx → α) (h : (⟨2, ![32, 32]⟩ : Shape).ShapeCasts ⟨1, ![1024]⟩) (e : Fin 1024) :
    shapeCast ⟨1, ![1024]⟩ x h (ix1 e) = x (rowIdx e) :=
  shapeCast_apply x h _ _ (by
    rw [Shape.rowMajor_val_two, Shape.rowMajor_val_one]
    show e.val / 32 * 32 + e.val % 32 = e.val
    omega)

/-- A [32, 32, 100000] array flattened to [1024, 100000] reads, at `(e, v)`, the operand at (e / 32, e % 32, v). -/
theorem flatten3_apply (x : (⟨3, ![32, 32, 100000]⟩ : Shape).Idx → α)
    (h : (⟨3, ![32, 32, 100000]⟩ : Shape).ShapeCasts ⟨2, ![1024, 100000]⟩) (e : Fin 1024) (v : Fin 100000) :
    shapeCast ⟨2, ![1024, 100000]⟩ x h (ix2 e v) = x (cellIdx e v) :=
  shapeCast_apply x h _ _ (by
    rw [Shape.rowMajor_val_three, Shape.rowMajor_val_two]
    show (e.val / 32 * 32 + e.val % 32) * 100000 + v.val = e.val * 100000 + v.val
    have : e.val / 32 * 32 + e.val % 32 = e.val := by omega
    rw [this])

/-- The column a target word names: the word read as a signed integer, clamped into [0, 99999]. -/
def colOf (t : BitVec 32) : Fin 100000 := ⟨min t.toInt.toNat 99999, by omega⟩

/-- The element at position (0, 0, 0) of a `[1]` array cast to `[1, 1, 1]` is its one element. -/
theorem extract_cast_111 (x : (⟨1, ![1]⟩ : Shape).Idx → α) (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by rw [Shape.rowMajor_val_one, Shape.rowMajor_val_three]; rfl)

end Cert.ValBridge

end
-- ==== Proof.ValKernel.lean ====
/-
  The kernel's result read at the extended reals: each block adds, to the first running sum, the sum over its 64 rows of
  (the selected logit minus (16 plus the logarithm of the row's sum of exponentials of logits minus 16)) times the row's
  weight, and to the second the sum of the rows' validity flags; after 16 blocks the sums run over all 1024 rows.
-/
import proofs.«213067_g2224793059754_cont_8to1_1641_35_alg».proof.Proof.KVal
import proofs.«213067_g2224793059754_cont_8to1_1641_35_alg».proof.Proof.ValSpec
import proofs.«213067_g2224793059754_cont_8to1_1641_35_alg».proof.Proof.ValLayout

noncomputable section

open scoped BigOperators

namespace Cert.ValBridge

open Idealize.ShloMosaic Idealize.ShloMosaic.ValueIdx Cert.KernelIdeal Cert.KernelIdeal.Gen Cert.KernelIdeal.KVal

/-- The logarithm of a vector of extended reals, at an index. -/
theorem log_apply {s : Shape} {φ : FTy} (v : FVec Ideal s φ) (i : s.Idx) : log v i = Ideal.log (v i) := rfl
/-- The exponential of a vector of extended reals, at an index. -/
theorem exp_apply {s : Shape} {φ : FTy} (v : FVec Ideal s φ) (i : s.Idx) : exp v i = Ideal.exp (v i) := rfl

/-- One row's contribution to the first sum: the logit at the target column, picked out of the row by an equality test
    against the column number, minus (16 plus the logarithm of the sum of the exponentials of the row's logits minus 16),
    times the row's weight. -/
def rowTerm (xr : Fin 100000 → EReal) (t : BitVec 32) (w : EReal) : EReal :=
  ((∑ v : Fin 100000, Scalar.select (IntOp.cmpi .eq (BitVec.ofNat 32 v.val) t) (xr v) (Ideal.ofBits .f32 0x00000000#32))
    - (Ideal.ofBits .f32 0x41800000#32
        + Ideal.log (∑ v : Fin 100000, Ideal.exp (xr v - Ideal.ofBits .f32 0x41800000#32)))) * w

/-- One block's step on the first running sum. -/
theorem pay3_eq (xb : Vec Ideal S64x100000 .f32) (tb : Vec Ideal S64x1 .i32) (a : EReal) (wb : Vec Ideal S64x1 .f32) :
    k1_pay3 (F := Ideal) xb tb a wb
      = a + ∑ r : Fin 64, rowTerm (fun v => xb (ix2 r v)) (tb (ix2 r (0 : Fin 1))) (wb (ix2 r (0 : Fin 1))) := by
  unfold k1_pay3
  simp only [shapeCast_self]
  refine congrArg (a + ·) ?_
  refine (extract_cast_111 _ _ _).trans ?_
  refine (blocksum_apply _ _ _ _ _).trans ?_
  refine Finset.sum_congr rfl fun r _ => ?_
  refine (shapeCast_ab_1ab_apply _ _ 0 r 0).trans ?_
  unfold rowTerm
  rw [mulf_apply, subf_apply, addf_apply, broadcast_apply]
  refine congrArg (· * wb (ix2 r (0 : Fin 1))) ?_
  refine congrArg₂ (· - ·) ?_ (congrArg (_ + ·) ?_)
  · refine (shapeCast_a_a1_apply _ _ r 0).trans ?_
    refine (rowsum_apply _ _ _ _ r).trans ?_
    refine Finset.sum_congr rfl fun v _ => ?_
    rw [select_apply, broadcast_apply]
    refine congrArg (fun c => Scalar.select c (xb (ix2 r v)) _) ?_
    refine congrArg₂ (IntOp.cmpi .eq) (iota_col_apply _ r v) (broadcastTo_a1_ab_apply _ _ r v)
  · rw [log_apply]
    refine congrArg Ideal.log ?_
    refine (shapeCast_a_a1_apply _ _ r 0).trans ?_
    refine (rowsum_apply _ _ _ _ r).trans ?_
    refine Finset.sum_congr rfl fun v _ => ?_
    rw [exp_apply, subf_apply, broadcast_apply]
    rfl

/-- One block's step on the second running sum. -/
theorem pay14_eq (a : EReal) (vb : Vec Ideal S64x1 .f32) :
    k1_pay1 (F := Ideal) a (k1_pay4 vb) = a + ∑ r : Fin 64, vb (ix2 r (0 : Fin 1)) := by
  unfold k1_pay1 k1_pay4
  simp only [shapeCast_self]
  refine congrArg (a + ·) ?_
  refine (extract_cast_111 _ _ _).trans ?_
  refine (blocksum_apply _ _ _ _ _).trans ?_
  refine Finset.sum_congr rfl fun r _ => ?_
  exact shapeCast_ab_1ab_apply _ _ 0 r 0

/-- Row `e`'s contribution to the first sum, from the 1024-row arrays. -/
def rowK (X : Vec Ideal S1024x100000 .f32) (Tg : Vec Ideal S1024x1 .i32) (Wt : Vec Ideal S1024x1 .f32) (e : Fin 1024) : EReal :=
  rowTerm (fun v => X (ix2 e v)) (Tg (ix2 e (0 : Fin 1))) (Wt (ix2 e (0 : Fin 1)))

/-- The two running sums after `n` blocks: the sums, over the first `n` blocks, of the blocks' row sums. -/
theorem accs_eq (X : Vec Ideal S1024x100000 .f32) (Tg : Vec Ideal S1024x1 .i32) (Wt Vd : Vec Ideal S1024x1 .f32) (n : ℕ)
    (hn : n ≤ 16) :
    accs (F := Ideal) X Tg Wt Vd n
      = ((∑ m ∈ Finset.range n, if h : m < 16 then ∑ r : Fin 64, rowK X Tg Wt (rowOf ⟨m, h⟩ r) else 0 : EReal),
         (∑ m ∈ Finset.range n, if h : m < 16 then ∑ r : Fin 64, Vd (ix2 (rowOf ⟨m, h⟩ r) (0 : Fin 1)) else 0 : EReal)) := by
  induction n with
  | zero =>
    rw [accs, Finset.range_zero, Finset.sum_empty, Finset.sum_empty]
    exact Prod.ext ofBits_zero ofBits_zero
  | succ n ih =>
    have hlt : n < 16 := by omega
    rw [accs, dif_pos hlt, ih (by omega), Finset.sum_range_succ, Finset.sum_range_succ, dif_pos hlt, dif_pos hlt]
    exact Prod.ext (pay3_eq _ _ _ _) (pay14_eq _ _)

/-- The kernel's word from the 1024-row arrays: zero minus the quotient of the sum over all rows of the rows' terms by
    the larger of the sum of the validity flags and 1. -/
theorem result_eq (X : Vec Ideal S1024x100000 .f32) (Tg : Vec Ideal S1024x1 .i32) (Wt Vd : Vec Ideal S1024x1 .f32) :
    result (F := Ideal) X Tg Wt Vd
      = Ideal.ofBits .f32 0x00000000#32 - Ideal.div (∑ e : Fin 1024, rowK X Tg Wt e)
          (max (∑ e : Fin 1024, Vd (ix2 e (0 : Fin 1))) (Ideal.ofBits .f32 0x3F800000#32)) := by
  unfold result
  rw [accs_eq X Tg Wt Vd 16 le_rfl]
  have hA : (∑ m ∈ Finset.range 16, if h : m < 16 then ∑ r : Fin 64, rowK X Tg Wt (rowOf ⟨m, h⟩ r) else 0 : EReal)
      = ∑ e : Fin 1024, rowK X Tg Wt e := sum_blocks_range (rowK X Tg Wt)
  have hB : (∑ m ∈ Finset.range 16, if h : m < 16 then ∑ r : Fin 64, Vd (ix2 (rowOf ⟨m, h⟩ r) (0 : Fin 1)) else 0 : EReal)
      = ∑ e : Fin 1024, Vd (ix2 e (0 : Fin 1)) := sum_blocks_range fun e => Vd (ix2 e (0 : Fin 1))
  rw [hA, hB]
  rfl

/-- The validity flag of a target word, at the extended reals: the signed minimum of the word and 1, as a real. -/
theorem validAt_ideal (t : BitVec 32) : validAt (F := Ideal) t = (((IntOp.minsi t 1#32).toInt : ℝ) : EReal) := rfl

/-- THE KERNEL'S RESULT from its argument arrays. -/
theorem kernelOut_eq (x0 : Vec Ideal S32x32x100000 .f32) (x1 : Vec Ideal S32x32 .i32) (x3 : Vec Ideal S32x32 .f32) :
    kernelOut (F := Ideal) x0 x1 x3 = fun _ =>
      Ideal.ofBits .f32 0x00000000#32 - Ideal.div
        (∑ e : Fin 1024, rowTerm (fun v => x0 (cellIdx e v)) (x1 (rowIdx e))
          (x3 (rowIdx e) * validAt (F := Ideal) (x1 (rowIdx e))))
        (max (∑ e : Fin 1024, validAt (F := Ideal) (x1 (rowIdx e))) (Ideal.ofBits .f32 0x3F800000#32)) := by
  funext i
  unfold kernelOut
  try dsimp only
  rw [shapeCast_apply _ shapeCasts_S1x1_S_ i (ix2 (0 : Fin 1) (0 : Fin 1)) (by
    have hi := (S_.rowMajor i).isLt
    have hk := (S1x1.rowMajor (ix2 (0 : Fin 1) (0 : Fin 1))).isLt
    have e1 : S_.numel = 1 := by decide
    have e2 : S1x1.numel = 1 := by decide
    omega)]
  rw [result_eq]
  refine congrArg₂ (fun a b => Ideal.ofBits .f32 0x00000000#32 - Ideal.div a (max b (Ideal.ofBits .f32 0x3F800000#32))) ?_ ?_
  · refine Finset.sum_congr rfl fun e _ => ?_
    unfold rowK
    simp only [weightOf, flatten3_apply, shapeCast_a_a1_apply, flatten2_apply]
    rfl
  · refine Finset.sum_congr rfl fun e _ => ?_
    simp only [validOf, shapeCast_a_a1_apply, flatten2_apply]

end Cert.ValBridge

end
-- ==== Proof.ValRef.lean ====
/-
  The reference read at the extended reals, row by row.
-/
import proofs.«213067_g2224793059754_cont_8to1_1641_35_alg».proof.Proof.RefRead
import proofs.«213067_g2224793059754_cont_8to1_1641_35_alg».proof.Proof.ValSpec
import proofs.«213067_g2224793059754_cont_8to1_1641_35_alg».proof.Proof.ValLayout
import Idealize.ShloMosaic.Lib.ReduceAll

noncomputable section

open scoped BigOperators

namespace Cert.ValBridge

open Idealize.ShloMosaic Idealize.ShloMosaic.ValueIdx Cert.ReferenceIdeal Cert.ReferenceIdeal.Gen Cert.ReferenceIdeal.ReadP

/-- A sum over the indices of a rank-1 array is the sum over its coordinate. -/
theorem sum_idx1 {M : Type*} [AddCommMonoid M] {n : ℕ} (f : (⟨1, ![n]⟩ : Shape).Idx → M) : ∑ j, f j = ∑ e : Fin n, f (ix1 e) :=
  Fintype.sum_equiv ⟨fun j => j 0, fun e => ix1 e, fun j => (eq_ix1 j).symm, fun _ => rfl⟩ _ _ fun j => congrArg f (eq_ix1 j)

/-- A fold of `and` from 1 over words that are all 1 is 1. -/
theorem fold_andi_one {ι : Type*} [DecidableEq ι] (s : Finset ι) (f : ι → BitVec 1) (hf : ∀ i ∈ s, f i = 1#1) :
    s.fold IntOp.andi 1#1 f = 1#1 := by
  induction s using Finset.induction_on with
  | empty => rfl
  | insert a s ha ih =>
    rw [Finset.fold_insert ha, hf a (Finset.mem_insert_self a s), ih fun i hi => hf i (Finset.mem_insert_of_mem hi)]
    rfl

section Targets
variable (x1 : (⟨S32x32, .i32⟩ : BufTy).Contents (Elt Ideal))

/-- The flattened targets at row `e`. -/
theorem v2_at (e : Fin 1024) : val_main_v2 (F := Ideal) x1 (ix1 e) = x1 (rowIdx e) := by
  rw [val_main_v2_apply]
  exact congrArg x1 (funext fun a => by match a with | ⟨0, _⟩ => rfl | ⟨1, _⟩ => rfl)

/-- The pad mask at row `e`: the target is above 0. -/
theorem v4_at (e : Fin 1024) : val_main_v4 (F := Ideal) x1 (ix1 e) = IntOp.cmpi .sgt (x1 (rowIdx e)) 0#32 := by
  rw [val_main_v4_apply, v2_at, val_main_v3_apply, val_main_c_apply]

/-- The targets as a column. -/
theorem v5_at (e : Fin 1024) (u : Fin 1) : val_main_v5 (F := Ideal) x1 (ix2 e u) = x1 (rowIdx e) := by
  rw [val_main_v5_apply]
  have h : idx_main_v5 (ix2 e u) = ix1 e := funext fun a => by match a with | ⟨0, _⟩ => rfl
  rw [h, v2_at]

/-- A target that is not negative is not wrapped. -/
theorem c1v4_at (e : Fin 1024) (u : Fin 1) (h0 : 0 ≤ (x1 (rowIdx e)).toInt) :
    val_main_call1_v4 (F := Ideal) x1 (ix2 e u) = x1 (rowIdx e) := by
  rw [val_main_call1_v4_apply, val_main_call1_v1_apply, v5_at, val_main_call1_v0_apply, val_main_call1_c_apply]
  have z : (0#32 : BitVec 32).toInt = 0 := by decide
  have hc : IntOp.cmpi .slt (x1 (rowIdx e)) 0#32 = 0#1 :=
    eq_zero_of_ne_one fun h => by have := IntOp.cmpi_slt.mp h; rw [z] at this; omega
  rw [hc, select_zero]

/-- The start indices of the gather at row `e`. -/
theorem c1v5_at (e : Fin 1024) (u w : Fin 1) (h0 : 0 ≤ (x1 (rowIdx e)).toInt) :
    val_main_call1_v5 (F := Ideal) x1 (ix3 e u w) = x1 (rowIdx e) := by
  rw [val_main_call1_v5_apply]
  have h : idx_main_call1_v5 (ix3 e u w) = ix2 e (0 : Fin 1) := funext fun a => by
    match a with
    | ⟨0, _⟩ => exact Fin.ext (by show ((e.val * 1 + u.val) * 1 + w.val) / 1 = e.val; omega)
    | ⟨1, _⟩ => rfl
  rw [h, c1v4_at x1 e 0 h0]

/-- The in-range test of the gather at row `e` passes for a target in [0, 99999]. -/
theorem c1v11_at (e : Fin 1024) (u w : Fin 1) (h0 : 0 ≤ (x1 (rowIdx e)).toInt) (h1 : (x1 (rowIdx e)).toInt ≤ 99999) :
    val_main_call1_v11 (F := Ideal) x1 (ix3 e u w) = 1#1 := by
  rw [val_main_call1_v11_apply, val_main_call1_v7_apply, val_main_call1_v10_apply, c1v5_at x1 e u w h0,
    val_main_call1_v6_apply, val_main_call1_c_2_apply, val_main_call1_v9_apply, val_main_call1_v8_apply,
    val_main_call1_c_1_apply]
  have z : (0#32 : BitVec 32).toInt = 0 := by decide
  have n : (99999#32 : BitVec 32).toInt = 99999 := by decide
  exact IntOp.andi_eq_one.mpr ⟨IntOp.cmpi_sge.mpr (by rw [z]; exact h0), IntOp.cmpi_sle.mpr (by rw [n]; exact h1)⟩

/-- So its reduction over the unit axis is 1. -/
theorem c1v12_at (hT : ∀ e : Fin 1024, 0 ≤ (x1 (rowIdx e)).toInt ∧ (x1 (rowIdx e)).toInt ≤ 99999) (i : S1024x1.Idx) :
    val_main_call1_v12 (F := Ideal) x1 i = 1#1 := by
  unfold val_main_call1_v12
  rw [Host.reduce_eq_fold]
  refine fold_andi_one _ _ fun k _ => ?_
  rw [eq_ix3 k]
  exact c1v11_at x1 (k 0) (k 1) (k 2) (hT (k 0)).1 (hT (k 0)).2

end Targets

section Logits
variable (x0 : (⟨S32x32x100000, .f32⟩ : BufTy).Contents (Elt Ideal))

/-- The maximum along the last axis, at a row, is the fold of `max` from the initial value over the row's entries. -/
theorem reduce_max_eq (x : FVec Ideal S32x32x100000 .f32) (init : FVec Ideal S_ .f32)
    (hR : S32x32x100000.Reduces [2] S32x32) (i : S32x32.Idx) :
    Host.reduce (FloatOps.maximumf (F := Ideal) (φ := .f32)) x init reducesTo_S32x32x100000_S32x32_d2 h_S_ i
      = Finset.univ.fold max (init (Shape.Idx.first h_S_)) (x ∘ hR.lift i) :=
  Host.reduce_eq_fold_single (FloatOps.maximumf (F := Ideal) (φ := .f32)) x init _ hR h_S_ i

/-- The row maximum is a real number when the logits are. -/
theorem rowmax_real (hx : ∀ i, ∃ r : ℝ, x0 i = (r : EReal)) (i : S32x32.Idx) :
    ∃ m : ℝ, val_main_call0_v2 (F := Ideal) x0 i = (m : EReal) := by
  have hR : S32x32x100000.Reduces [2] S32x32 := by decide
  have e0 : val_main_call0_v0 (F := Ideal) x0 i = Finset.univ.fold max (⊥ : EReal) (x0 ∘ hR.lift i) := by
    unfold val_main_call0_v0
    refine (reduce_max_eq x0 _ hR i).trans ?_
    show Finset.univ.fold max (Ideal.ofBits .f32 0xFF800000#32) _ = _
    rw [ofBits_neg_inf]
  obtain ⟨m, hm⟩ := fold_max_real Finset.univ ⟨⟨0, by decide⟩, Finset.mem_univ _⟩ (x0 ∘ hR.lift i) (fun k _ => hx _)
  refine ⟨m, ?_⟩
  rw [val_main_call0_v2_apply, e0, hm, val_main_call0_v1_apply, val_main_call0_cst_0_apply]
  show max (Ideal.ofBits .f32 0xFF800000#32) (m : EReal) = m
  rw [ofBits_neg_inf]; exact max_eq_right bot_le

/-- The log-softmax at row (a, b), column v: the logit minus the row maximum, minus the logarithm of the sum of the
    exponentials of the row's logits minus the row maximum. -/
theorem v0_at (a b : Fin 32) (v : Fin 100000) :
    val_main_v0 (F := Ideal) x0 (ix3 a b v)
      = (x0 (ix3 a b v) - val_main_call0_v2 (F := Ideal) x0 (ix2 a b))
        - Ideal.log (Ideal.ofBits .f32 0x00000000#32
            + ∑ k : Fin 100000, Ideal.exp (x0 (ix3 a b k) - val_main_call0_v2 (F := Ideal) x0 (ix2 a b))) := by
  have h5 : ∀ k : Fin 100000, val_main_call0_v5 (F := Ideal) x0 (ix3 a b k)
      = x0 (ix3 a b k) - val_main_call0_v2 (F := Ideal) x0 (ix2 a b) := fun k => by
    rw [val_main_call0_v5_apply, val_main_call0_v4_apply, val_main_call0_v3_apply]
    have h : idx_main_call0_v3 (idx_main_call0_v4 (ix3 a b k)) = ix2 a b :=
      funext fun d => by match d with | ⟨0, _⟩ => rfl | ⟨1, _⟩ => rfl
    rw [h]; rfl
  have h6 : ∀ k : Fin 100000, val_main_call0_v6 (F := Ideal) x0 (idx_main_call0_v7 (ix2 a b) k)
      = Ideal.exp (x0 (ix3 a b k) - val_main_call0_v2 (F := Ideal) x0 (ix2 a b)) := fun k => by
    have h : idx_main_call0_v7 (ix2 a b) k = ix3 a b k :=
      funext fun d => by match d with | ⟨0, _⟩ => rfl | ⟨1, _⟩ => rfl | ⟨2, _⟩ => rfl
    rw [h, val_main_call0_v6_apply, h5 k]; rfl
  have h8 : idx_main_call0_v8 (idx_main_call0_v10 (ix3 a b v)) = ix2 a b :=
    funext fun d => by match d with | ⟨0, _⟩ => rfl | ⟨1, _⟩ => rfl
  rw [val_main_v0_apply, h5 v, val_main_call0_v10_apply, val_main_call0_v9_apply, val_main_call0_v8_apply, h8,
    val_main_call0_v7_apply, val_main_call0_cst_1_apply]
  simp only [h6]
  simp only [Ideal.subf_def, Ideal.hostUnary_log_def, Ideal.ofBits_def]

/-- The same at flattened row `e`. -/
theorem v0_cell (e : Fin 1024) (c : Fin 100000) :
    val_main_v0 (F := Ideal) x0 (cellIdx e c)
      = (x0 (cellIdx e c) - val_main_call0_v2 (F := Ideal) x0 (rowIdx e))
        - Ideal.log (Ideal.ofBits .f32 0x00000000#32
            + ∑ k : Fin 100000, Ideal.exp (x0 (cellIdx e k) - val_main_call0_v2 (F := Ideal) x0 (rowIdx e))) :=
  v0_at x0 _ _ c

/-- The flattened log-softmax at row `e`, column `v`. -/
theorem v1_at (e : Fin 1024) (v : Fin 100000) :
    val_main_v1 (F := Ideal) x0 (ix2 e v) = val_main_v0 (F := Ideal) x0 (cellIdx e v) := by
  rw [val_main_v1_apply]
  refine congrArg (val_main_v0 (F := Ideal) x0) (funext fun d => Fin.ext ?_)
  match d with
  | ⟨0, _⟩ => show (e.val * 100000 + v.val) / 3200000 = e.val / 32; omega
  | ⟨1, _⟩ => show (e.val * 100000 + v.val) / 100000 % 32 = e.val % 32; omega
  | ⟨2, _⟩ => show (e.val * 100000 + v.val) % 100000 = v.val; omega

end Logits

section Gather
variable (x0 : (⟨S32x32x100000, .f32⟩ : BufTy).Contents (Elt Ideal)) (x1 : (⟨S32x32, .i32⟩ : BufTy).Contents (Elt Ideal))

/-- The gather at row `e` reads the row at the column its start index names. -/
theorem c1v13_at (e : Fin 1024) (u : Fin 1) :
    val_main_call1_v13 (F := Ideal) x0 x1 (ix2 e u)
      = val_main_v1 (F := Ideal) x0 (ix2 e (colOf (val_main_call1_v5 (F := Ideal) x1 (ix3 e u (0 : Fin 1))))) := by
  unfold val_main_call1_v13 Host.gather
  refine congrArg (val_main_v1 (F := Ideal) x0) (funext fun a => Fin.ext ?_)
  match a with
  | ⟨0, _⟩ =>
    show gather_S1024x100000_S1024x1x1_S1024x1_n_1_0_0_1_2_11.start (ix2 e u) _ 0 + gather_S1024x100000_S1024x1x1_S1024x1_n_1_0_0_1_2_11.batchCoord (ix2 e u) 0 + gather_S1024x100000_S1024x1x1_S1024x1_n_1_0_0_1_2_11.offCoord (ix2 e u) 0 = e.val
    have hb : (0 : Fin 2) ∈ gather_S1024x100000_S1024x1x1_S1024x1_n_1_0_0_1_2_11.operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show gather_S1024x100000_S1024x1x1_S1024x1_n_1_0_0_1_2_11.start (ix2 e u) _ 1 + gather_S1024x100000_S1024x1x1_S1024x1_n_1_0_0_1_2_11.batchCoord (ix2 e u) 1 + gather_S1024x100000_S1024x1x1_S1024x1_n_1_0_0_1_2_11.offCoord (ix2 e u) 1
      = min (val_main_call1_v5 (F := Ideal) x1 (ix3 e u (0 : Fin 1))).toInt.toNat 99999
    have hnb : (1 : Fin 2) ∉ gather_S1024x100000_S1024x1x1_S1024x1_n_1_0_0_1_2_11.operandBatchingDims := fun h => absurd (List.mem_singleton.mp h) (by decide)
    have hc : (1 : Fin 2) ∈ gather_S1024x100000_S1024x1x1_S1024x1_n_1_0_0_1_2_11.collapsedSliceDims := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos (show (1 : Fin 2) ∈ gather_S1024x100000_S1024x1x1_S1024x1_n_1_0_0_1_2_11.startIndexMap from List.mem_singleton.mpr rfl)]
    have hsi : gather_S1024x100000_S1024x1x1_S1024x1_n_1_0_0_1_2_11.siIdx (ix2 e u) ⟨List.idxOf (1 : Fin 2) gather_S1024x100000_S1024x1x1_S1024x1_n_1_0_0_1_2_11.startIndexMap,
        List.idxOf_lt_length_iff.2 (List.mem_singleton.mpr rfl)⟩ = ix3 e u (0 : Fin 1) := by
      funext b; refine Fin.ext ?_
      match b with
      | ⟨0, _⟩ => rfl
      | ⟨1, _⟩ => rfl
      | ⟨2, _⟩ => rfl
    rw [hsi]
    rfl

end Gather

section Assemble
variable (x0 : (⟨S32x32x100000, .f32⟩ : BufTy).Contents (Elt Ideal)) (x1 : (⟨S32x32, .i32⟩ : BufTy).Contents (Elt Ideal))
  (x3 : (⟨S32x32, .f32⟩ : BufTy).Contents (Elt Ideal))

/-- `take_along_axis` at row `e`: the log-softmax at the target's column. -/
theorem v6_at (hT : ∀ e : Fin 1024, 0 ≤ (x1 (rowIdx e)).toInt ∧ (x1 (rowIdx e)).toInt ≤ 99999) (e : Fin 1024) (u : Fin 1) :
    val_main_v6 (F := Ideal) x0 x1 (ix2 e u) = val_main_v0 (F := Ideal) x0 (cellIdx e (colOf (x1 (rowIdx e)))) := by
  rw [val_main_v6_apply, c1v12_at x1 hT, select_one, c1v13_at, c1v5_at x1 e u 0 (hT e).1, v1_at]

/-- Row `e`'s term of the reference's numerator. -/
theorem v13_at (hT : ∀ e : Fin 1024, 0 ≤ (x1 (rowIdx e)).toInt ∧ (x1 (rowIdx e)).toInt ≤ 99999) (e : Fin 1024) :
    val_main_v13 (F := Ideal) x0 x1 x3 (ix1 e)
      = Scalar.select (IntOp.cmpi .sgt (x1 (rowIdx e)) 0#32)
          (val_main_v0 (F := Ideal) x0 (cellIdx e (colOf (x1 (rowIdx e)))) * x3 (rowIdx e))
          (Ideal.ofBits .f32 0x00000000#32) := by
  have h7 : idx_main_v7 (ix1 e) = ix2 e (0 : Fin 1) := funext fun d => by
    match d with
    | ⟨0, _⟩ => exact Fin.ext (by show e.val / 1 = e.val; omega)
    | ⟨1, _⟩ => rfl
  have h8 : idx_main_v8 (ix1 e) = rowIdx e := funext fun d => by match d with | ⟨0, _⟩ => rfl | ⟨1, _⟩ => rfl
  rw [val_main_v13_apply, v4_at, val_main_v9_apply, val_main_v7_apply, val_main_v8_apply, val_main_call2_v1_apply,
    val_main_call2_v0_apply, val_main_cst_1_apply, h7, h8, v6_at x0 x1 hT e 0]
  rfl

/-- Row `e`'s term of the reference's denominator. -/
theorem v10_at (e : Fin 1024) :
    val_main_v10 (F := Ideal) x1 (ix1 e) = (((IntOp.cmpi .sgt (x1 (rowIdx e)) 0#32).toNat : ℝ) : EReal) := by
  rw [val_main_v10_apply, v4_at]; rfl

/-- THE REFERENCE'S RESULT from its argument arrays, for targets in [0, 99999]. -/
theorem ref_eq (hT : ∀ e : Fin 1024, 0 ≤ (x1 (rowIdx e)).toInt ∧ (x1 (rowIdx e)).toInt ≤ 99999) :
    val_main_v16 (F := Ideal) x0 x1 x3 = fun _ =>
      -(Ideal.div
        (Ideal.ofBits .f32 0x00000000#32 + ∑ e : Fin 1024, Scalar.select (IntOp.cmpi .sgt (x1 (rowIdx e)) 0#32)
          (val_main_v0 (F := Ideal) x0 (cellIdx e (colOf (x1 (rowIdx e)))) * x3 (rowIdx e))
          (Ideal.ofBits .f32 0x00000000#32))
        (max (Ideal.ofBits .f32 0x00000000#32 + ∑ e : Fin 1024, (((IntOp.cmpi .sgt (x1 (rowIdx e)) 0#32).toNat : ℝ) : EReal))
          (Ideal.ofBits .f32 0x3F800000#32))) := by
  funext i
  rw [val_main_v16_apply, val_main_v15_apply, val_main_v14_apply, val_main_v12_apply, val_main_v11_apply,
    val_main_cst_2_apply, val_main_cst_apply, val_main_cst_0_apply, sum_idx1, sum_idx1]
  simp only [v13_at x0 x1 x3 hT, v10_at]
  rfl

end Assemble

end Cert.ValBridge

end
-- ==== Proof.ValPre.lean ====
/-
  What the precondition gives: every logit and every reward is a real number (its absolute value is below +∞), and every
  target lies in [0, 99999].
-/
import proofs.«213067_g2224793059754_cont_8to1_1641_35_alg».proof.Proof.Gen.Pre_input_domain
import Idealize.ShloMosaic.Lib.ReduceAll
import Idealize.ShloMosaic.Lib.ValueIdx
import Idealize.ShloMosaic.PureOps.Ideal.Laws

noncomputable section

namespace Cert.ValBridge

open Idealize.ShloMosaic Idealize.ShloMosaic.ValueIdx Cert.Pre_input_domain

instance subsingleton_scalar_idx : Subsingleton S_.Idx := ⟨fun a b => funext fun d => d.elim0⟩

/-- The word `0x7F800000` is +∞. -/
theorem ofBits_inf : Ideal.ofBits .f32 0x7F800000#32 = ⊤ := by
  simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- Under the precondition: every logit is real, every reward is real, and every target is in [0, 99999]. -/
theorem pre_facts [Facts] (x0 : FVec Ideal S32x32x100000 .f32) (x1 : IVec S32x32 32) (x2 : IVec S32x32 32)
    (x3 : FVec Ideal S32x32 .f32) (hpre : fn (F := Ideal) x0 x1 x2 x3 = fun _ => 1#1) :
    (∀ i, ∃ r : ℝ, x0 i = (r : EReal)) ∧ (∀ i, ∃ r : ℝ, x3 i = (r : EReal))
      ∧ ∀ i, 0 ≤ (x1 i).toInt ∧ (x1 i).toInt ≤ 99999 := by
  have h := congrFun hpre ix0
  dsimp only [fn, fn_part1] at h
  obtain ⟨h15, -⟩ := IntOp.andi_eq_one.mp h
  obtain ⟨h8, h14⟩ := IntOp.andi_eq_one.mp h15
  obtain ⟨h3, h7⟩ := IntOp.andi_eq_one.mp h8
  refine ⟨fun i => ?_, fun i => ?_, fun i => ?_⟩
  · have e := Host.reduce_andi_all _ _ _ _ _ h3 i
    refine real_of_abs_lt_top (x0 i) ?_
    rw [← ofBits_inf]; exact e
  · have e := Host.reduce_andi_all _ _ _ _ _ h7 i
    refine real_of_abs_lt_top (x3 i) ?_
    rw [← ofBits_inf]; exact e
  · have e := Host.reduce_andi_all _ _ _ _ _ h14 i
    obtain ⟨e1, e2⟩ := IntOp.andi_eq_one.mp e
    have e1' : (0#32 : BitVec 32).toInt ≤ (x1 i).toInt := IntOp.cmpi_sge.mp e1
    have e2' : (x1 i).toInt ≤ (99999#32 : BitVec 32).toInt := IntOp.cmpi_sle.mp e2
    have z : (0#32 : BitVec 32).toInt = 0 := by decide
    have n : (99999#32 : BitVec 32).toInt = 99999 := by decide
    rw [z] at e1'; rw [n] at e2'
    exact ⟨e1', e2'⟩

end Cert.ValBridge

end
-- ==== Proof.ValBridge.lean ====
/-
  The value bridge: under the precondition the kernel's result and the reference's result are the same extended real.
  Both are minus the quotient of a sum over the 1024 rows by the larger of the count of valid rows and 1; row by row the
  numerators' terms agree because the log-sum-exp of a row of reals does not depend on the real shift taken out of the
  exponents (16 in the kernel, the row maximum in the reference), the equality-test sum picks the target's logit, and
  the weight (reward times the flag min(t, 1)) multiplies as the reference's select on t > 0 does.
-/
import proofs.«213067_g2224793059754_cont_8to1_1641_35_alg».proof.Proof.ValKernel
import proofs.«213067_g2224793059754_cont_8to1_1641_35_alg».proof.Proof.ValRef
import proofs.«213067_g2224793059754_cont_8to1_1641_35_alg».proof.Proof.ValPre

noncomputable section

open scoped BigOperators

namespace Cert.ValBridge

open Idealize.ShloMosaic Idealize.ShloMosaic.ValueIdx Cert.KernelIdeal Cert.KernelIdeal.KVal Cert.ReferenceIdeal.ReadP

/-- A target word in [0, 99999], read unsigned, is its signed value. -/
theorem toNat_of_bounds (t : BitVec 32) (h0 : 0 ≤ t.toInt) (h1 : t.toInt ≤ 99999) : t.toNat = t.toInt.toNat ∧ t.toNat ≤ 99999 := by
  have h := BitVec.toInt_eq_toNat_cond t
  have hlt := t.isLt
  split at h <;> omega

/-- The validity flag min(t, 1) of a target that is not negative: 1 when the target is positive, else 0. -/
theorem validAt_flag (t : BitVec 32) (h0 : 0 ≤ t.toInt) :
    validAt (F := Ideal) t = if 0 < t.toInt then (1 : EReal) else 0 := by
  have one : (1#32 : BitVec 32).toInt = 1 := by decide
  rw [validAt_ideal]
  unfold IntOp.minsi
  by_cases h : 0 < t.toInt
  · have hs : ¬ (t.slt 1#32 = true) := by rw [BitVec.slt_iff_toInt_lt, one]; omega
    rw [if_neg hs, if_pos h, one]; simp
  · have ht : t.toInt = 0 := by omega
    have hs : t.slt 1#32 = true := by rw [BitVec.slt_iff_toInt_lt, one]; omega
    rw [if_pos hs, if_neg h, ht]; simp

/-- The reference's flag, the test t > 0 read as a number: 1 when the target is positive, else 0. -/
theorem sgt_flag (t : BitVec 32) :
    (((IntOp.cmpi .sgt t 0#32).toNat : ℝ) : EReal) = if 0 < t.toInt then (1 : EReal) else 0 := by
  have z : (0#32 : BitVec 32).toInt = 0 := by decide
  by_cases h : 0 < t.toInt
  · have hc : IntOp.cmpi .sgt t 0#32 = 1#1 := IntOp.cmpi_sgt.mpr (by rw [z]; exact h)
    rw [hc, if_pos h]; simp
  · have hc : IntOp.cmpi .sgt t 0#32 = 0#1 := eq_zero_of_ne_one fun hc => h (by have := IntOp.cmpi_sgt.mp hc; rwa [z] at this)
    rw [hc, if_neg h]; simp

/-- The equality-test sum over a row picks the logit at the target's column, for a target in [0, 99999]. -/
theorem gathered_eq (x : Fin 100000 → EReal) (t : BitVec 32) (h0 : 0 ≤ t.toInt) (h1 : t.toInt ≤ 99999) :
    ∑ v : Fin 100000, Scalar.select (IntOp.cmpi .eq (BitVec.ofNat 32 v.val) t) (x v) (Ideal.ofBits .f32 0x00000000#32)
      = x (colOf t) := by
  rw [ofBits_zero]
  obtain ⟨hn, hle⟩ := toNat_of_bounds t h0 h1
  refine sum_select_eq x (colOf t) (fun v => IntOp.cmpi .eq (BitVec.ofNat 32 v.val) t = 1) fun v => ?_
  refine (IntOp.cmpi_eq (x := BitVec.ofNat 32 v.val) (y := t)).trans ⟨fun h => Fin.ext ?_, fun h => ?_⟩
  · have hv := congrArg BitVec.toNat h
    rw [BitVec.toNat_ofNat] at hv
    have := v.isLt
    show v.val = min t.toInt.toNat 99999
    omega
  · apply BitVec.eq_of_toNat_eq
    rw [BitVec.toNat_ofNat, h]
    show min t.toInt.toNat 99999 % 2 ^ 32 = t.toNat
    omega

/-- Row `e`: the kernel's term is the reference's term. -/
theorem row_eq (x0 : Vec Ideal S32x32x100000 .f32) (x1 : Vec Ideal S32x32 .i32) (x3 : Vec Ideal S32x32 .f32)
    (hx : ∀ i, ∃ r : ℝ, x0 i = (r : EReal)) (hr : ∀ i, ∃ r : ℝ, x3 i = (r : EReal)) (e : Fin 1024)
    (h0 : 0 ≤ (x1 (rowIdx e)).toInt) (h1 : (x1 (rowIdx e)).toInt ≤ 99999) :
    rowTerm (fun v => x0 (cellIdx e v)) (x1 (rowIdx e)) (x3 (rowIdx e) * validAt (F := Ideal) (x1 (rowIdx e)))
      = Scalar.select (IntOp.cmpi .sgt (x1 (rowIdx e)) 0#32)
          (val_main_v0 (F := Ideal) x0 (cellIdx e (colOf (x1 (rowIdx e)))) * x3 (rowIdx e))
          (Ideal.ofBits .f32 0x00000000#32) := by
  choose X hX using fun v : Fin 100000 => hx (cellIdx e v)
  obtain ⟨ρ, hρ⟩ := hr (rowIdx e)
  obtain ⟨m, hm⟩ := rowmax_real x0 hx (rowIdx e)
  have z : (0#32 : BitVec 32).toInt = 0 := by decide
  unfold rowTerm
  rw [gathered_eq _ _ h0 h1, v0_cell, validAt_flag _ h0, hm, hρ, ofBits_sixteen, ofBits_zero]
  simp only [hX]
  rw [row_logprob X (colOf (x1 (rowIdx e))) 16 m]
  by_cases h : 0 < (x1 (rowIdx e)).toInt
  · have hc : IntOp.cmpi .sgt (x1 (rowIdx e)) 0#32 = 1#1 := IntOp.cmpi_sgt.mpr (by rw [z]; exact h)
    rw [hc, select_one, if_pos h, mul_one]
  · have hc : IntOp.cmpi .sgt (x1 (rowIdx e)) 0#32 = 0#1 :=
      eq_zero_of_ne_one fun hc => h (by have := IntOp.cmpi_sgt.mp hc; rwa [z] at this)
    rw [hc, select_zero, if_neg h, mul_zero, mul_zero]

/-- THE VALUE BRIDGE. -/
theorem bridge [Cert.Pre_input_domain.Facts] (x0 : Vec Ideal S32x32x100000 .f32) (x1 : Vec Ideal S32x32 .i32)
    (x2 : Vec Ideal S32x32 .i32) (x3 : Vec Ideal S32x32 .f32)
    (hpre : Cert.Pre_input_domain.fn (F := Ideal) x0 x1 x2 x3 = fun _ => 1#1) :
    Cert.KernelIdeal.KVal.kernelOut (F := Ideal) x0 x1 x3 = Cert.ReferenceIdeal.ReadP.val_main_v16 (F := Ideal) x0 x1 x3 := by
  obtain ⟨hx, hr, ht⟩ := pre_facts x0 x1 x2 x3 hpre
  have hT : ∀ e : Fin 1024, 0 ≤ (x1 (rowIdx e)).toInt ∧ (x1 (rowIdx e)).toInt ≤ 99999 := fun e => ht (rowIdx e)
  rw [kernelOut_eq, ref_eq x0 x1 x3 hT]
  funext _
  rw [ofBits_zero, zero_add, zero_add, sub_eq_add_neg, zero_add]
  refine congrArg Neg.neg (congrArg₂ Ideal.div ?_ (congrArg (fun z : EReal => max z _) ?_))
  · exact Finset.sum_congr rfl fun e _ => by rw [row_eq x0 x1 x3 hx hr e (hT e).1 (hT e).2, ofBits_zero]
  · exact Finset.sum_congr rfl fun e _ => by rw [validAt_flag _ (hT e).1, sgt_flag]

end Cert.ValBridge

end
-- ==== Proof.lean ====
/-
  The certificate's claims, assembled.

  The kernel's program: its run with its value (the SparseCore launch: the vector subcores' task, @main on the
  TensorCore with the kernel region inside) gives both frames — the word-level program and its idealization are one
  text read at two float instances — and, at the ideal instance, the result as one function of the three argument
  arrays.  The reference's run names its result as the composition of its operations.  The two functions agree on
  inputs that are real numbers with targets in range: the masked, reward-weighted mean of the log-probabilities,
  where log Σ exp (x − 16) + 16 = log Σ exp (x − max) + max, the sixteen blocks' sums are the sum over all 1024 rows,
  and min(t, 1) is the indicator of t > 0 for t ≥ 0.  No operation was rewritten by the idealization, so the
  preservation claim is empty.
-/
import proofs.«213067_g2224793059754_cont_8to1_1641_35_alg».proof.Defs
import proofs.«213067_g2224793059754_cont_8to1_1641_35_alg».proof.Proof.Gen.Kernel
import proofs.«213067_g2224793059754_cont_8to1_1641_35_alg».proof.Proof.Gen.Kernel.Skeleton
import proofs.«213067_g2224793059754_cont_8to1_1641_35_alg».proof.Proof.Gen.Kernel.Launch
import proofs.«213067_g2224793059754_cont_8to1_1641_35_alg».proof.Proof.Gen.Kernel.Points
import proofs.«213067_g2224793059754_cont_8to1_1641_35_alg».proof.Proof.Gen.KernelIdeal
import proofs.«213067_g2224793059754_cont_8to1_1641_35_alg».proof.Proof.Gen.KernelIdeal.Skeleton
import proofs.«213067_g2224793059754_cont_8to1_1641_35_alg».proof.Proof.Gen.KernelIdeal.Launch
import proofs.«213067_g2224793059754_cont_8to1_1641_35_alg».proof.Proof.Gen.KernelIdeal.Points
import proofs.«213067_g2224793059754_cont_8to1_1641_35_alg».proof.Proof.Gen.ReferenceIdeal
import proofs.«213067_g2224793059754_cont_8to1_1641_35_alg».proof.Proof.Gen.Pre_input_domain
import proofs.«213067_g2224793059754_cont_8to1_1641_35_alg».proof.Proof.KIMain
import proofs.«213067_g2224793059754_cont_8to1_1641_35_alg».proof.Proof.KBMain
import proofs.«213067_g2224793059754_cont_8to1_1641_35_alg».proof.Proof.RefRunH
import proofs.«213067_g2224793059754_cont_8to1_1641_35_alg».proof.Proof.ValBridge
import Idealize.ShloMosaic.Adequacy
import Idealize.ShloMosaic.Init

noncomputable section

namespace Cert.Proof

open Idealize.ShloMosaic Idealize.SL.Sem

/-- The word-level program runs to the end, nothing faulting, its arguments unchanged. -/
theorem frame_k : @Cert.frame_Kernel Cert.Kernel.Gen.facts Cert.Pre_input_domain.Gen.facts := fun m ρ _ =>
  (θ_run (Cert.Kernel.defs (F := Bits)) _ _).mono (fun _ h c => (h c).2) (Cert.Proof.KB.run_value (F := Bits) m ρ)

/-- So does its idealization. -/
theorem frame_ki : @Cert.frame_KernelIdeal Cert.KernelIdeal.Gen.facts Cert.Pre_input_domain.Gen.facts := fun m ρ _ =>
  (θ_run (Cert.KernelIdeal.defs (F := Ideal)) _ _).mono (fun _ h c => (h c).2) (Cert.Proof.KI.run_value (F := Ideal) m ρ)

/-- And the reference. -/
theorem frame_ri : @Cert.frame_ReferenceIdeal Cert.ReferenceIdeal.Gen.facts Cert.Pre_input_domain.Gen.facts := fun m ρ _ =>
  (θ_run (Cert.ReferenceIdeal.defs (F := Ideal)) _ _).mono (fun _ h c => (h c).2) (Cert.ReferenceIdeal.RunH.run (F := Ideal) m ρ)

/-- At the ideal instance both programs end with the same result: the kernel's function of the arguments is the
    reference's on inputs that satisfy the precondition. -/
theorem algebraic : @Cert.algebraic_KernelIdeal_ReferenceIdeal Cert.KernelIdeal.Gen.facts Cert.ReferenceIdeal.Gen.facts Cert.Pre_input_domain.Gen.facts := by
  intro m ρ m' ρ' hpre hagree
  refine ⟨fun c => Cert.KernelIdeal.KVal.kernelOut (F := Ideal) (m (Cert.Proof.KI.a0Loc c)) (m (Cert.Proof.KI.a1Loc c)) (m (Cert.Proof.KI.a3Loc c)),
    Cert.Proof.KI.run_value (F := Ideal) m ρ, ?_⟩
  refine (θ_run (Cert.ReferenceIdeal.defs (F := Ideal)) _ _).mono (fun _ h c => ⟨(h c).1.trans ?_, (h c).2⟩)
    (Cert.ReferenceIdeal.RunH.run (F := Ideal) m' ρ')
  rw [(hagree c).1, (hagree c).2.1, (hagree c).2.2.2]
  exact (@Cert.ValBridge.bridge Cert.Pre_input_domain.Gen.facts _ _ _ _ (hpre c)).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
